-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.truncf_extf.Statement Cert.KernelIdeal.S1024x256 .f32 .bf16
  ∧ IdealRules.truncf_extf.Statement Cert.KernelIdeal.S1024x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x512 : Shape := ⟨3, ![4, 4096, 512]⟩
abbrev S512 : Shape := ⟨1, ![512]⟩
abbrev S256x512 : Shape := ⟨2, ![256, 512]⟩
abbrev S256 : Shape := ⟨1, ![256]⟩
abbrev S512x256 : Shape := ⟨2, ![512, 256]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S256x512 .f32) (main_arg8 : FVec F S256 .f32) (main_arg9 : FVec F S512x256 .f32) (main_arg10 : FVec F S512 .f32) (main_v33 : IVec S_ 1) : IVec S_ 1 :=
  let main_v34 : FVec F S256x512 .f32 := Host.absf main_arg7
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S512x256 .f32 := Host.absf main_arg9
  let main_cst_16 : FVec F S_ .f32 := constant S_ .f32 0x7F800000#32
  let main_v45 : FVec F S512x256 .f32 := broadcastInDim S512x256 ![] bcast_S_S512x256 main_cst_16
  let main_v46 : IVec S512x256 1 := cmpf .olt main_v44 main_v45
  let main_c_17 : IVec S_ 1 := constantI S_ 1 1#1
  let main_v47 : IVec S_ 1 := (fun x v => Host.reduce IntOp.andi x v reducesTo_S512x256_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S256 .f32) (main_arg5 : FVec F S256x512 .f32) (main_arg6 : FVec F S256 .f32) (main_arg7 : FVec F S256x512 .f32) (main_arg8 : FVec F S256 .f32) (main_arg9 : FVec F S512x256 .f32) (main_arg10 : FVec F S512 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x4096x512 .f32) (main_arg1 : FVec F S512 .f32) (main_arg2 : FVec F S512 .f32) (main_arg3 : FVec F S256x512 .f32) (main_arg4 : FVec F S256 .f32) (main_arg5 : FVec F S256x512 .f32) (main_arg6 : FVec F S256 .f32) (main_arg7 : FVec F S256x512 .f32) (main_arg8 : FVec F S256 .f32) (main_arg9 : FVec F S512x256 .f32) (main_arg10 : FVec F S512 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_arg7 main_arg8 main_arg9 main_arg10 main_v13 main_v16
-- ==== Kernel.lean ====
abbrev S4x4096x512 : Shape := ⟨3, ![4, 4096, 512]⟩
abbrev S512 : Shape := ⟨1, ![512]⟩
abbrev S256x512 : Shape := ⟨2, ![256, 512]⟩
abbrev S256 : Shape := ⟨1, ![256]⟩
abbrev S512x256 : Shape := ⟨2, ![512, 256]⟩
abbrev S_ : Shape := ⟨0, ![]⟩
abbrev S1x512 : Shape := ⟨2, ![1, 512]⟩
abbrev S1x256 : Shape := ⟨2, ![1, 256]⟩
abbrev S16384x512 : Shape := ⟨2, ![16384, 512]⟩
abbrev S16384x256 : Shape := ⟨2, ![16384, 256]⟩
abbrev S1024x512 : Shape := ⟨2, ![1024, 512]⟩
abbrev S1024x256 : Shape := ⟨2, ![1024, 256]⟩
abbrev S4x4096x256 : Shape := ⟨3, ![4, 4096, 256]⟩
abbrev S1x256x256 : Shape := ⟨3, ![1, 256, 256]⟩
abbrev S1x4096x256 : Shape := ⟨3, ![1, 4096, 256]⟩
abbrev S1x256x512 : Shape := ⟨3, ![1, 256, 512]⟩
abbrev S256x256 : Shape := ⟨2, ![256, 256]⟩
abbrev S4096x256 : Shape := ⟨2, ![4096, 256]⟩
abbrev S256x4096 : Shape := ⟨2, ![256, 4096]⟩
abbrev S256x1 : Shape := ⟨2, ![256, 1]⟩

abbrev nBuf : Space → Nat
  | .hbm => 56
  | .vmem => 38
  | .smem => 0
  | _ => 0

abbrev bufTy : (tb : Table) → Fin (tcTables nBuf tb) → BufTy
  | .hbm, ⟨0, _⟩ => ⟨S4x4096x512, .f32⟩
  | .hbm, ⟨1, _⟩ => ⟨S512, .f32⟩
  | .hbm, ⟨2, _⟩ => ⟨S512, .f32⟩
  | .hbm, ⟨3, _⟩ => ⟨S256x512, .f32⟩
  | .hbm, ⟨4, _⟩ => ⟨S256, .f32⟩
  | .hbm, ⟨5, _⟩ => ⟨S256x512, .f32⟩
  | .hbm, ⟨6, _⟩ => ⟨S256, .f32⟩
  | .hbm, ⟨7, _⟩ => ⟨S256x512, .f32⟩
  | .hbm, ⟨8, _⟩ => ⟨S256, .f32⟩
  | .hbm, ⟨9, _⟩ => ⟨S512x256, .f32⟩
  | .hbm, ⟨10, _⟩ => ⟨S512, .f32⟩
  | .hbm, ⟨11, _⟩ => ⟨S_, .f32⟩
  | .hbm, ⟨12, _⟩ => ⟨S512, .f32⟩
  | .hbm, ⟨13, _⟩ => ⟨S4x4096x512, .f32⟩
  | .hbm, ⟨14, _⟩ => ⟨S_, .f32⟩
  | .hbm, ⟨15, _⟩ => ⟨S512, .f32⟩
  | .hbm, ⟨16, _⟩ => ⟨S_, .f32⟩
  | .hbm, ⟨17, _⟩ => ⟨S512, .f32⟩
  | .hbm, ⟨18, _⟩ => ⟨S512, .f32⟩
  | .hbm, ⟨19, _⟩ => ⟨S_, .f32⟩
  | .hbm, ⟨20, _⟩ => ⟨S512, .f32⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S_, .f32⟩
  | .hbm, ⟨25, _⟩ => ⟨S512, .f32⟩
  | .hbm, ⟨26, _⟩ => ⟨S512, .f32⟩
  | .hbm, ⟨27, _⟩ => ⟨S512, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S1x256, .f32⟩
  | .hbm, ⟨33, _⟩ => ⟨S1x256, .f32⟩
  | .hbm, ⟨34, _⟩ => ⟨S1x256, .f32⟩
  | .hbm, ⟨35, _⟩ => ⟨S1x512, .f32⟩
  | .hbm, ⟨36, _⟩ => ⟨S512x256, .f32⟩
  | .hbm, ⟨37, _⟩ => ⟨S512x256, .bf16⟩
  | .hbm, ⟨38, _⟩ => ⟨S512x256, .f32⟩
  | .hbm, ⟨39, _⟩ => ⟨S512x256, .bf16⟩
  | .hbm, ⟨40, _⟩ => ⟨S512x256, .f32⟩
  | .hbm, ⟨41, _⟩ => ⟨S512x256, .bf16⟩
  | .hbm, ⟨42, _⟩ => ⟨S256x512, .f32⟩
  | .hbm, ⟨43, _⟩ => ⟨S256x512, .bf16⟩
  | .hbm, ⟨44, _⟩ => ⟨S16384x512, .f32⟩
  | .hbm, ⟨45, _⟩ => ⟨S16384x256, .bf16⟩
  | .hbm, ⟨46, _⟩ => ⟨S16384x256, .bf16⟩
  | .hbm, ⟨47, _⟩ => ⟨S16384x256, .bf16⟩
  | .hbm, ⟨48, _⟩ => ⟨S16384x256, .bf16⟩
  | .hbm, ⟨49, _⟩ => ⟨S16384x256, .bf16⟩
  | .hbm, ⟨50, _⟩ => ⟨S4x4096x256, .bf16⟩
  | .hbm, ⟨51, _⟩ => ⟨S4x4096x256, .bf16⟩
  | .hbm, ⟨52, _⟩ => ⟨S4x4096x256, .bf16⟩
  | .hbm, ⟨53, _⟩ => ⟨S4x4096x256, .bf16⟩
  | .hbm, ⟨54, _⟩ => ⟨S4x4096x256, .bf16⟩
  | .hbm, ⟨55, _⟩ => ⟨S4x4096x512, .f32⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S512x256, .bf16⟩
  | .local _ .vmem, ⟨7, _⟩ => ⟨S1x256, .f32⟩
  | .local _ .vmem, ⟨8, _⟩ => ⟨S512x256, .bf16⟩
  | .local _ .vmem, ⟨9, _⟩ => ⟨S1x256, .f32⟩
  | .local _ .vmem, ⟨10, _⟩ => ⟨S512x256, .bf16⟩
  | .local _ .vmem, ⟨11, _⟩ => ⟨S1x256, .f32⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | .local _ .vmem, ⟨22, _⟩ => ⟨S1x256x256, .bf16⟩
  | .local _ .vmem, ⟨23, _⟩ => ⟨S1x256x256, .bf16⟩
  | .local _ .vmem, ⟨24, _⟩ => ⟨S1x256x256, .bf16⟩
  | .local _ .vmem, ⟨25, _⟩ => ⟨S1x256x256, .bf16⟩
  | .local _ .vmem, ⟨26, _⟩ => ⟨S1x4096x256, .bf16⟩
  | .local _ .vmem, ⟨27, _⟩ => ⟨S1x4096x256, .bf16⟩
  | .local _ .vmem, ⟨28, _⟩ => ⟨S1x4096x256, .bf16⟩
  | .local _ .vmem, ⟨29, _⟩ => ⟨S1x4096x256, .bf16⟩
  | .local _ .vmem, ⟨30, _⟩ => ⟨S1x4096x256, .bf16⟩
  | .local _ .vmem, ⟨31, _⟩ => ⟨S1x4096x256, .bf16⟩
  | .local _ .vmem, ⟨32, _⟩ => ⟨S1x256x512, .f32⟩
  | .local _ .vmem, ⟨33, _⟩ => ⟨S1x256x512, .f32⟩
  | .local _ .vmem, ⟨34, _⟩ => ⟨S256x512, .bf16⟩
  | .local _ .vmem, ⟨35, _⟩ => ⟨S1x512, .f32⟩
  | .local _ .vmem, ⟨36, _⟩ => ⟨S1x256x512, .f32⟩
  | .local _ .vmem, ⟨37, _⟩ => ⟨S1x256x512, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_cst_1 : Ref sig .tc := ⟨.hbm, 16, rfl⟩
abbrev main_v3 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29_0 : Ref sig .tc := ⟨.hbm, 45, rfl⟩
abbrev main_v29_1 : Ref sig .tc := ⟨.hbm, 46, rfl⟩
abbrev main_v29_2 : Ref sig .tc := ⟨.hbm, 47, rfl⟩
abbrev main_v29_3 : Ref sig .tc := ⟨.hbm, 48, rfl⟩
abbrev main_v29_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg7_0 : Ref sig .tc := ⟨.vmem, 35, rfl⟩
abbrev cc1_stg8_0 : Ref sig .tc := ⟨.vmem, 36, rfl⟩
abbrev cc1_stg8_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem7_0 : DmaSem sig := 35
abbrev cc1_sem8_0 : DmaSem sig := 36
abbrev cc1_sem8_1 : DmaSem sig := 37

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x4096x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x4096x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x4096x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 1 → Memref sig .tc .vmem S256x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x256x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

class Facts₀ : Prop where
  reducesTo_S4x4096x512_S512_d0_1 : S4x4096x512.ReducesTo [0, 1] S512
  h_S_ : 0 < S_.numel
  bcast_S_S512 : S_.BroadcastsInDim S512 (![] : Fin 0 → Fin S512.rank)
  shapeCasts_S512_S1x512 : S512.ShapeCasts S1x512
  shapeCasts_S256_S1x256 : S256.ShapeCasts S1x256
  transposes_S256x512_S512x256_1_0 : S256x512.Transposes [1, 0] S512x256
  bitsLt_bf16_f32 : FTy.bits .bf16 < FTy.bits .f32
  transposes_S512x256_S256x512_1_0 : S512x256.Transposes [1, 0] S256x512
  shapeCasts_S4x4096x512_S16384x512 : S4x4096x512.ShapeCasts S16384x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  shapeCasts_S16384x256_S4x4096x256 : S16384x256.ShapeCasts S4x4096x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  transposes_S4096x256_p1_0_S256x4096 : S4096x256.Transposes [1, 0] S256x4096
  reduces_S256x4096_S256 : S256x4096.Reduces [1] S256
  shapeCasts_S256_S256x1 : S256.ShapeCasts S256x1
  broadcasts_S256x1_S256x4096 : S256x1.Broadcasts S256x4096
  broadcasts_S256x1_S256x256 : S256x1.Broadcasts S256x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  broadcasts_S1x512_S256x512 : S1x512.Broadcasts S256x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  dot_S1024x512_S512x256_S1024x256_1_0_0_1_n_n_wf : DotDims.WF S1024x512 S512x256 S1024x256 [1] [0] [0] [1] [] []
  dot_S256x256_S256x4096_S256x4096_1_0_0_1_n_n_wf : DotDims.WF S256x256 S256x4096 S256x4096 [1] [0] [0] [1] [] []
  dot_S256x4096_S4096x256_S256x256_1_0_0_1_n_n_wf : DotDims.WF S256x4096 S4096x256 S256x256 [1] [0] [0] [1] [] []
  dot_S256x256_S256x512_S256x512_1_0_0_1_n_n_wf : DotDims.WF S256x256 S256x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .bf16 = 32 ∨ (Rect.block (s := S512x256) S512x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .bf16 = 32 ∨ (Rect.block (s := S512x256) S512x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S512x256.size a
  hwx0_9 : ∀ i : grid0.Coords, EltTy.bits .bf16 = 32 ∨ (Rect.block (s := S512x256) S512x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x256.size a ≤ S16384x256.size a
  hwx0_11 : ∀ i : grid0.Coords, EltTy.bits .bf16 = 32 ∨ (Rect.block (s := S16384x256) S1024x256.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x256.size a ≤ S16384x256.size a
  hwx0_12 : ∀ i : grid0.Coords, EltTy.bits .bf16 = 32 ∨ (Rect.block (s := S16384x256) S1024x256.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x256.size a ≤ S16384x256.size a
  hwx0_13 : ∀ i : grid0.Coords, EltTy.bits .bf16 = 32 ∨ (Rect.block (s := S16384x256) S1024x256.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x256.size a ≤ S16384x256.size a
  hwx0_14 : ∀ i : grid0.Coords, EltTy.bits .bf16 = 32 ∨ (Rect.block (s := S16384x256) S1024x256.size (cc0_transform_14 i) (hinb0_14 i)).WholeWords (EltTy.packing .bf16)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x256.size a ≤ S16384x256.size a
  hwx0_15 : ∀ i : grid0.Coords, EltTy.bits .bf16 = 32 ∨ (Rect.block (s := S16384x256) S1024x256.size (cc0_transform_15 i) (hinb0_15 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x256.size a ≤ S4x4096x256.size a
  hwx1_0 : ∀ i : grid1.Coords, EltTy.bits .bf16 = 32 ∨ (Rect.block (s := S4x4096x256) S1x256x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x256.size a ≤ S4x4096x256.size a
  hwx1_1 : ∀ i : grid1.Coords, EltTy.bits .bf16 = 32 ∨ (Rect.block (s := S4x4096x256) S1x256x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x256.size a ≤ S4x4096x256.size a
  hwx1_2 : ∀ i : grid1.Coords, EltTy.bits .bf16 = 32 ∨ (Rect.block (s := S4x4096x256) S1x4096x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x4096x256.size a ≤ S4x4096x256.size a
  hwx1_3 : ∀ i : grid1.Coords, EltTy.bits .bf16 = 32 ∨ (Rect.block (s := S4x4096x256) S1x4096x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x4096x256.size a ≤ S4x4096x256.size a
  hwx1_4 : ∀ i : grid1.Coords, EltTy.bits .bf16 = 32 ∨ (Rect.block (s := S4x4096x256) S1x4096x256.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x512.size a ≤ S4x4096x512.size a
  hwx1_5 : ∀ i : grid1.Coords, EltTy.bits .f32 = 32 ∨ (Rect.block (s := S4x4096x512) S1x256x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x512.size a ≤ S256x512.size a
  hwx1_6 : ∀ i : grid1.Coords, EltTy.bits .bf16 = 32 ∨ (Rect.block (s := S256x512) S256x512.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .f32 = 32 ∨ (Rect.block (s := S1x512) S1x512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x256x512.size a ≤ S4x4096x512.size a
  hwx1_8 : ∀ i : grid1.Coords, EltTy.bits .f32 = 32 ∨ (Rect.block (s := S4x4096x512) S1x256x512.size (cc1_transform_8 i) (hinb1_8 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf

abbrev win0_0 : Pipeline.Window sig grid0 :=
  Pipeline.Window.ofSpec (Memref.whole main_v28) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S512x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v29_0) S1024x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v29_1) S1024x256.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v29_2) S1024x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v29_3) S1024x256.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v29_4) S1024x256.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v30) S1x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x4096x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x4096x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x4096x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg0) S1x256x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v27) S256x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v35) S1x256x512.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S4x4096x512 : Shape := ⟨3, ![4, 4096, 512]⟩
abbrev S512 : Shape := ⟨1, ![512]⟩
abbrev S256x512 : Shape := ⟨2, ![256, 512]⟩
abbrev S256 : Shape := ⟨1, ![256]⟩
abbrev S512x256 : Shape := ⟨2, ![512, 256]⟩
abbrev S_ : Shape := ⟨0, ![]⟩
abbrev S1x1x512 : Shape := ⟨3, ![1, 1, 512]⟩
abbrev S4x4096x256 : Shape := ⟨3, ![4, 4096, 256]⟩
abbrev S1x1x256 : Shape := ⟨3, ![1, 1, 256]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 77
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S512, .f32⟩
  | .hbm, ⟨2, _⟩ => ⟨S512, .f32⟩
  | .hbm, ⟨3, _⟩ => ⟨S256x512, .f32⟩
  | .hbm, ⟨4, _⟩ => ⟨S256, .f32⟩
  | .hbm, ⟨5, _⟩ => ⟨S256x512, .f32⟩
  | .hbm, ⟨6, _⟩ => ⟨S256, .f32⟩
  | .hbm, ⟨7, _⟩ => ⟨S256x512, .f32⟩
  | .hbm, ⟨8, _⟩ => ⟨S256, .f32⟩
  | .hbm, ⟨9, _⟩ => ⟨S512x256, .f32⟩
  | .hbm, ⟨10, _⟩ => ⟨S512, .f32⟩
  | .hbm, ⟨11, _⟩ => ⟨S_, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S512, .f32⟩
  | .hbm, ⟨16, _⟩ => ⟨S1x1x512, .f32⟩
  | .hbm, ⟨17, _⟩ => ⟨S4x4096x512, .f32⟩
  | .hbm, ⟨18, _⟩ => ⟨S4x4096x512, .f32⟩
  | .hbm, ⟨19, _⟩ => ⟨S4x4096x512, .f32⟩
  | .hbm, ⟨20, _⟩ => ⟨S_, .f32⟩
  | .hbm, ⟨21, _⟩ => ⟨S512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S1x1x512, .f32⟩
  | .hbm, ⟨26, _⟩ => ⟨S4x4096x512, .f32⟩
  | .hbm, ⟨27, _⟩ => ⟨S4x4096x512, .f32⟩
  | .hbm, ⟨28, _⟩ => ⟨S1x1x512, .f32⟩
  | .hbm, ⟨29, _⟩ => ⟨S4x4096x512, .f32⟩
  | .hbm, ⟨30, _⟩ => ⟨S4x4096x512, .f32⟩
  | .hbm, ⟨31, _⟩ => ⟨S_, .f32⟩
  | .hbm, ⟨32, _⟩ => ⟨S512, .f32⟩
  | .hbm, ⟨33, _⟩ => ⟨S512, .f32⟩
  | .hbm, ⟨34, _⟩ => ⟨S512, .f32⟩
  | .hbm, ⟨35, _⟩ => ⟨S1x1x512, .f32⟩
  | .hbm, ⟨36, _⟩ => ⟨S4x4096x512, .f32⟩
  | .hbm, ⟨37, _⟩ => ⟨S4x4096x512, .f32⟩
  | .hbm, ⟨38, _⟩ => ⟨S1x1x512, .f32⟩
  | .hbm, ⟨39, _⟩ => ⟨S4x4096x512, .f32⟩
  | .hbm, ⟨40, _⟩ => ⟨S4x4096x512, .f32⟩
  | .hbm, ⟨41, _⟩ => ⟨S_, .f32⟩
  | .hbm, ⟨42, _⟩ => ⟨S4x4096x512, .f32⟩
  | .hbm, ⟨43, _⟩ => ⟨S4x4096x512, .f32⟩
  | .hbm, ⟨44, _⟩ => ⟨S4x4096x256, .f32⟩
  | .hbm, ⟨45, _⟩ => ⟨S1x1x256, .f32⟩
  | .hbm, ⟨46, _⟩ => ⟨S4x4096x256, .f32⟩
  | .hbm, ⟨47, _⟩ => ⟨S4x4096x256, .f32⟩
  | .hbm, ⟨48, _⟩ => ⟨S4x4096x256, .f32⟩
  | .hbm, ⟨49, _⟩ => ⟨S1x1x256, .f32⟩
  | .hbm, ⟨50, _⟩ => ⟨S4x4096x256, .f32⟩
  | .hbm, ⟨51, _⟩ => ⟨S4x4096x256, .f32⟩
  | .hbm, ⟨52, _⟩ => ⟨S4x4096x256, .f32⟩
  | .hbm, ⟨53, _⟩ => ⟨S1x1x256, .f32⟩
  | .hbm, ⟨54, _⟩ => ⟨S4x4096x256, .f32⟩
  | .hbm, ⟨55, _⟩ => ⟨S4x4096x256, .f32⟩
  | .hbm, ⟨56, _⟩ => ⟨S4x4096x4096, .f32⟩
  | .hbm, ⟨57, _⟩ => ⟨S_, .f32⟩
  | .hbm, ⟨58, _⟩ => ⟨S4x4096, .f32⟩
  | .hbm, ⟨59, _⟩ => ⟨S_, .f32⟩
  | .hbm, ⟨60, _⟩ => ⟨S4x4096, .f32⟩
  | .hbm, ⟨61, _⟩ => ⟨S4x4096, .f32⟩
  | .hbm, ⟨62, _⟩ => ⟨S4x4096x1, .f32⟩
  | .hbm, ⟨63, _⟩ => ⟨S4x4096x4096, .f32⟩
  | .hbm, ⟨64, _⟩ => ⟨S4x4096x4096, .f32⟩
  | .hbm, ⟨65, _⟩ => ⟨S4x4096x4096, .f32⟩
  | .hbm, ⟨66, _⟩ => ⟨S_, .f32⟩
  | .hbm, ⟨67, _⟩ => ⟨S4x4096, .f32⟩
  | .hbm, ⟨68, _⟩ => ⟨S4x4096x1, .f32⟩
  | .hbm, ⟨69, _⟩ => ⟨S4x4096x4096, .f32⟩
  | .hbm, ⟨70, _⟩ => ⟨S4x4096x4096, .f32⟩
  | .hbm, ⟨71, _⟩ => ⟨S4x4096x256, .f32⟩
  | .hbm, ⟨72, _⟩ => ⟨S4x4096x512, .f32⟩
  | .hbm, ⟨73, _⟩ => ⟨S1x1x512, .f32⟩
  | .hbm, ⟨74, _⟩ => ⟨S4x4096x512, .f32⟩
  | .hbm, ⟨75, _⟩ => ⟨S4x4096x512, .f32⟩
  | .hbm, ⟨76, _⟩ => ⟨S4x4096x512, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call0_cst : Ref sig .tc := ⟨.hbm, 41, rfl⟩
abbrev main_call0_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]

class Facts₀ : Prop where
  reducesTo_S4x4096x512_S512_d0_1 : S4x4096x512.ReducesTo [0, 1] S512
  h_S_ : 0 < S_.numel
  bcast_S_S512 : S_.BroadcastsInDim S512 (![] : Fin 0 → Fin S512.rank)
  bcast_S512_S1x1x512_2 : S512.BroadcastsInDim S1x1x512 (![2] : Fin 1 → Fin S1x1x512.rank)
  bcast_S1x1x512_S4x4096x512_0_1_2 : S1x1x512.BroadcastsInDim S4x4096x512 (![0, 1, 2] : Fin 3 → Fin S4x4096x512.rank)
  bcast_S_S4x4096x512 : S_.BroadcastsInDim S4x4096x512 (![] : Fin 0 → Fin S4x4096x512.rank)
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  reducesTo_S4x4096x4096_S4x4096_d2 : S4x4096x4096.ReducesTo [2] S4x4096
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x512_S256x512_S4x4096x256_2_1_01_0_n_n_wf : DotDims.WF S4x4096x512 S256x512 S4x4096x256 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]
  dot_S4x4096x256_S512x256_S4x4096x512_2_1_01_0_n_n_wf : DotDims.WF S4x4096x256 S512x256 S4x4096x512 [2] [1] [0, 1] [0] [] []

variable [Facts₀]

def dot_S4x4096x512_S256x512_S4x4096x256_2_1_01_0_n_n : DotDims S4x4096x512 S256x512 S4x4096x256 where
  lhsContracting := [2]
  rhsContracting := [1]
  lhsNonContracting := [0, 1]
  rhsNonContracting := [0]
  lhsBatch := []
  rhsBatch := []
  wf := dot_S4x4096x512_S256x512_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf
def dot_S4x4096x256_S512x256_S4x4096x512_2_1_01_0_n_n : DotDims S4x4096x256 S512x256 S4x4096x512 where
  lhsContracting := [2]
  rhsContracting := [1]
  lhsNonContracting := [0, 1]
  rhsNonContracting := [0]
  lhsBatch := []
  rhsBatch := []
  wf := dot_S4x4096x256_S512x256_S4x4096x512_2_1_01_0_n_n_wf

class Facts : Prop extends Facts₀ where

variable [Facts]
-- ==== Proof.KerRun.lean ====
/-
  The idealized kernel's whole run, with its result array named.

  The program is four segments: host operations, the projection region, five reshapes, the attention region. The
  buffer contents at the segment boundaries are a fold from the launch memory; this module re-posts the run so that
  the result array's final contents are the last boundary's contents at that array, beside the unchanged arguments.
-/
import proofs.«133864_j7310034337850_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the last boundary's contents
    and the eleven argument arrays end as launched. -/
theorem run_value : θ_run defs (onTc (τ := τ) (main (F := F))) ⟨m, fun _ => 0, ρ⟩ (fun r => ∀ c : Dev nD,
      r.2.mem ((c.tc : Thread nD τ).loc main_v35) = W4 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v35 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.Hand

end
-- ==== Proof.LibMatmul.lean ====
/-
  A matrix product with ONE contracted axis, into the zero accumulator, read at an output index: the sum over that
  axis's coordinate k of the left operand at L k times the right operand at R k, for any functions L, R that give the
  two operand indices at each contraction position with coordinate k.
-/
import Idealize.ShloMosaic.PureOps.Ideal
import Idealize.ShloMosaic.PureOps.Ideal.Laws
import Idealize.ShloMosaic.Lib.ValueIdx

noncomputable section

namespace Cert.LibMatmul

open Idealize.ShloMosaic Idealize.ShloMosaic.ValueIdx

/-- Σ over the contraction index re-indexed by its one coordinate. -/
theorem matmul_zero_sum1 {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ (q : D.contr.Idx) (k : Fin n), (q ⟨0, by omega⟩ : ℕ) = k.val → D.lhsIdx j q = L k)
    (hrr : ∀ (q : D.contr.Idx) (k : Fin n), (q ⟨0, by omega⟩ : ℕ) = k.val → D.rhsIdx j q = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  refine Finset.sum_congr rfl fun k _ => ?_
  have hk := contrEquiv1_symm_val D n hr hs k
  rw [hl _ k hk, hrr _ k hk]

end Cert.LibMatmul

end
-- ==== Proof.KerMatmul.lean ====
/-
  The four matrix products of the two kernel bodies, each read at an output index: a product of an M × K by a K × N
  matrix into the zero accumulator is, at (p, d), the sum over the shared axis of left(p, c) · right(c, d).
-/
import proofs.«133864_j7310034337850_2_alg».proof.Proof.Gen.KernelIdeal.Skeleton
import proofs.«133864_j7310034337850_2_alg».proof.Proof.LibMatmul
import Idealize.ShloMosaic.Lib.ValueIdx
import Idealize.ShloMosaic.PureOps.Ideal.Laws

noncomputable section

open scoped BigOperators

namespace Cert.KernelIdeal.Hand

open Cert.KernelIdeal Idealize.ShloMosaic Idealize.ShloMosaic.ValueIdx

theorem mm_proj_l0 (i : S1024x256.Idx) (q : dot_S1024x512_S512x256_S1024x256_1_0_0_1_n_n.contr.Idx) : (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem mm_proj_l1 (i : S1024x256.Idx) (q : dot_S1024x512_S512x256_S1024x256_1_0_0_1_n_n.contr.Idx) : (dot_S1024x512_S512x256_S1024x256_1_0_0_1_n_n.lhsIdx i q 1).val = (q ⟨0, by decide⟩).val :=
  dot_S1024x512_S512x256_S1024x256_1_0_0_1_n_n.lhsIdx_val_of_single rfl i q
theorem mm_proj_r0 (i : S1024x256.Idx) (q : dot_S1024x512_S512x256_S1024x256_1_0_0_1_n_n.contr.Idx) : (dot_S1024x512_S512x256_S1024x256_1_0_0_1_n_n.rhsIdx i q 0).val = (q ⟨0, by decide⟩).val :=
  dot_S1024x512_S512x256_S1024x256_1_0_0_1_n_n.rhsIdx_val_of_single rfl i q
theorem mm_proj_r1 (i : S1024x256.Idx) (q : dot_S1024x512_S512x256_S1024x256_1_0_0_1_n_n.contr.Idx) : (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

/-- The 1024 × 512 by 512 × 256 product into zero, at (p, d): Σ over the shared axis. -/
theorem mm_proj (l : FVec Ideal S1024x512 .bf16) (r : FVec Ideal S512x256 .bf16) (p : Fin 1024) (d : Fin 256) :
    matmul dot_S1024x512_S512x256_S1024x256_1_0_0_1_n_n none l r (constant S1024x256 .f32 0x00000000#32) (ix2 p d)
      = ∑ c : Fin 512, l (ix2 p c) * r (ix2 c d) := by
  refine LibMatmul.matmul_zero_sum1 dot_S1024x512_S512x256_S1024x256_1_0_0_1_n_n none 512 rfl rfl l r (ix2 p d)
    (fun c => ix2 p c) (fun c => ix2 c d) ?_ ?_
  · intro q k hk
    funext a; apply Fin.ext
    match a with
    | ⟨0, _⟩ => exact mm_proj_l0 _ _
    | ⟨1, _⟩ => exact (mm_proj_l1 _ _).trans hk
  · intro q k hk
    funext a; apply Fin.ext
    match a with
    | ⟨0, _⟩ => exact (mm_proj_r0 _ _).trans hk
    | ⟨1, _⟩ => exact mm_proj_r1 _ _

theorem mm_score_l0 (i : S256x4096.Idx) (q : dot_S256x256_S256x4096_S256x4096_1_0_0_1_n_n.contr.Idx) : (dot_S256x256_S256x4096_S256x4096_1_0_0_1_n_n.lhsIdx i q 0).val = (i 0).val := by
  unfold DotDims.lhsIdx
  rw [dif_neg (show ¬(0 : Fin S256x256.rank) ∈ dot_S256x256_S256x4096_S256x4096_1_0_0_1_n_n.lhsBatch by decide), dif_pos (show (0 : Fin S256x256.rank) ∈ dot_S256x256_S256x4096_S256x4096_1_0_0_1_n_n.lhsNonContracting by decide)]
  rfl
theorem mm_score_l1 (i : S256x4096.Idx) (q : dot_S256x256_S256x4096_S256x4096_1_0_0_1_n_n.contr.Idx) : (dot_S256x256_S256x4096_S256x4096_1_0_0_1_n_n.lhsIdx i q 1).val = (q ⟨0, by decide⟩).val :=
  dot_S256x256_S256x4096_S256x4096_1_0_0_1_n_n.lhsIdx_val_of_single rfl i q
theorem mm_score_r0 (i : S256x4096.Idx) (q : dot_S256x256_S256x4096_S256x4096_1_0_0_1_n_n.contr.Idx) : (dot_S256x256_S256x4096_S256x4096_1_0_0_1_n_n.rhsIdx i q 0).val = (q ⟨0, by decide⟩).val :=
  dot_S256x256_S256x4096_S256x4096_1_0_0_1_n_n.rhsIdx_val_of_single rfl i q
theorem mm_score_r1 (i : S256x4096.Idx) (q : dot_S256x256_S256x4096_S256x4096_1_0_0_1_n_n.contr.Idx) : (dot_S256x256_S256x4096_S256x4096_1_0_0_1_n_n.rhsIdx i q 1).val = (i 1).val := by
  unfold DotDims.rhsIdx
  rw [dif_neg (show ¬(1 : Fin S256x4096.rank) ∈ dot_S256x256_S256x4096_S256x4096_1_0_0_1_n_n.rhsBatch by decide), dif_pos (show (1 : Fin S256x4096.rank) ∈ dot_S256x256_S256x4096_S256x4096_1_0_0_1_n_n.rhsNonContracting by decide)]
  rfl

/-- The 256 × 256 by 256 × 4096 product into zero, at (p, d): Σ over the shared axis. -/
theorem mm_score (l : FVec Ideal S256x256 .bf16) (r : FVec Ideal S256x4096 .bf16) (p : Fin 256) (d : Fin 4096) :
    matmul dot_S256x256_S256x4096_S256x4096_1_0_0_1_n_n none l r (constant S256x4096 .f32 0x00000000#32) (ix2 p d)
      = ∑ c : Fin 256, l (ix2 p c) * r (ix2 c d) := by
  refine LibMatmul.matmul_zero_sum1 dot_S256x256_S256x4096_S256x4096_1_0_0_1_n_n none 256 rfl rfl l r (ix2 p d)
    (fun c => ix2 p c) (fun c => ix2 c d) ?_ ?_
  · intro q k hk
    funext a; apply Fin.ext
    match a with
    | ⟨0, _⟩ => exact mm_score_l0 _ _
    | ⟨1, _⟩ => exact (mm_score_l1 _ _).trans hk
  · intro q k hk
    funext a; apply Fin.ext
    match a with
    | ⟨0, _⟩ => exact (mm_score_r0 _ _).trans hk
    | ⟨1, _⟩ => exact mm_score_r1 _ _

theorem mm_mix_l0 (i : S256x256.Idx) (q : dot_S256x4096_S4096x256_S256x256_1_0_0_1_n_n.contr.Idx) : (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide), dif_pos (show (0 : Fin S256x4096.rank) ∈ dot_S256x4096_S4096x256_S256x256_1_0_0_1_n_n.lhsNonContracting by decide)]
  rfl
theorem mm_mix_l1 (i : S256x256.Idx) (q : dot_S256x4096_S4096x256_S256x256_1_0_0_1_n_n.contr.Idx) : (dot_S256x4096_S4096x256_S256x256_1_0_0_1_n_n.lhsIdx i q 1).val = (q ⟨0, by decide⟩).val :=
  dot_S256x4096_S4096x256_S256x256_1_0_0_1_n_n.lhsIdx_val_of_single rfl i q
theorem mm_mix_r0 (i : S256x256.Idx) (q : dot_S256x4096_S4096x256_S256x256_1_0_0_1_n_n.contr.Idx) : (dot_S256x4096_S4096x256_S256x256_1_0_0_1_n_n.rhsIdx i q 0).val = (q ⟨0, by decide⟩).val :=
  dot_S256x4096_S4096x256_S256x256_1_0_0_1_n_n.rhsIdx_val_of_single rfl i q
theorem mm_mix_r1 (i : S256x256.Idx) (q : dot_S256x4096_S4096x256_S256x256_1_0_0_1_n_n.contr.Idx) : (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide), dif_pos (show (1 : Fin S4096x256.rank) ∈ dot_S256x4096_S4096x256_S256x256_1_0_0_1_n_n.rhsNonContracting by decide)]
  rfl

/-- The 256 × 4096 by 4096 × 256 product into zero, at (p, d): Σ over the shared axis. -/
theorem mm_mix (l : FVec Ideal S256x4096 .bf16) (r : FVec Ideal S4096x256 .bf16) (p : Fin 256) (d : Fin 256) :
    matmul dot_S256x4096_S4096x256_S256x256_1_0_0_1_n_n none l r (constant S256x256 .f32 0x00000000#32) (ix2 p d)
      = ∑ c : Fin 4096, l (ix2 p c) * r (ix2 c d) := by
  refine LibMatmul.matmul_zero_sum1 dot_S256x4096_S4096x256_S256x256_1_0_0_1_n_n none 4096 rfl rfl l r (ix2 p d)
    (fun c => ix2 p c) (fun c => ix2 c d) ?_ ?_
  · intro q k hk
    funext a; apply Fin.ext
    match a with
    | ⟨0, _⟩ => exact mm_mix_l0 _ _
    | ⟨1, _⟩ => exact (mm_mix_l1 _ _).trans hk
  · intro q k hk
    funext a; apply Fin.ext
    match a with
    | ⟨0, _⟩ => exact (mm_mix_r0 _ _).trans hk
    | ⟨1, _⟩ => exact mm_mix_r1 _ _

theorem mm_out_l0 (i : S256x512.Idx) (q : dot_S256x256_S256x512_S256x512_1_0_0_1_n_n.contr.Idx) : (dot_S256x256_S256x512_S256x512_1_0_0_1_n_n.lhsIdx i q 0).val = (i 0).val := by
  unfold DotDims.lhsIdx
  rw [dif_neg (show ¬(0 : Fin S256x256.rank) ∈ dot_S256x256_S256x512_S256x512_1_0_0_1_n_n.lhsBatch by decide), dif_pos (show (0 : Fin S256x256.rank) ∈ dot_S256x256_S256x512_S256x512_1_0_0_1_n_n.lhsNonContracting by decide)]
  rfl
theorem mm_out_l1 (i : S256x512.Idx) (q : dot_S256x256_S256x512_S256x512_1_0_0_1_n_n.contr.Idx) : (dot_S256x256_S256x512_S256x512_1_0_0_1_n_n.lhsIdx i q 1).val = (q ⟨0, by decide⟩).val :=
  dot_S256x256_S256x512_S256x512_1_0_0_1_n_n.lhsIdx_val_of_single rfl i q
theorem mm_out_r0 (i : S256x512.Idx) (q : dot_S256x256_S256x512_S256x512_1_0_0_1_n_n.contr.Idx) : (dot_S256x256_S256x512_S256x512_1_0_0_1_n_n.rhsIdx i q 0).val = (q ⟨0, by decide⟩).val :=
  dot_S256x256_S256x512_S256x512_1_0_0_1_n_n.rhsIdx_val_of_single rfl i q
theorem mm_out_r1 (i : S256x512.Idx) (q : dot_S256x256_S256x512_S256x512_1_0_0_1_n_n.contr.Idx) : (dot_S256x256_S256x512_S256x512_1_0_0_1_n_n.rhsIdx i q 1).val = (i 1).val := by
  unfold DotDims.rhsIdx
  rw [dif_neg (show ¬(1 : Fin S256x512.rank) ∈ dot_S256x256_S256x512_S256x512_1_0_0_1_n_n.rhsBatch by decide), dif_pos (show (1 : Fin S256x512.rank) ∈ dot_S256x256_S256x512_S256x512_1_0_0_1_n_n.rhsNonContracting by decide)]
  rfl

/-- The 256 × 256 by 256 × 512 product into zero, at (p, d): Σ over the shared axis. -/
theorem mm_out (l : FVec Ideal S256x256 .bf16) (r : FVec Ideal S256x512 .bf16) (p : Fin 256) (d : Fin 512) :
    matmul dot_S256x256_S256x512_S256x512_1_0_0_1_n_n none l r (constant S256x512 .f32 0x00000000#32) (ix2 p d)
      = ∑ c : Fin 256, l (ix2 p c) * r (ix2 c d) := by
  refine LibMatmul.matmul_zero_sum1 dot_S256x256_S256x512_S256x512_1_0_0_1_n_n none 256 rfl rfl l r (ix2 p d)
    (fun c => ix2 p c) (fun c => ix2 c d) ?_ ?_
  · intro q k hk
    funext a; apply Fin.ext
    match a with
    | ⟨0, _⟩ => exact mm_out_l0 _ _
    | ⟨1, _⟩ => exact (mm_out_l1 _ _).trans hk
  · intro q k hk
    funext a; apply Fin.ext
    match a with
    | ⟨0, _⟩ => exact (mm_out_r0 _ _).trans hk
    | ⟨1, _⟩ => exact mm_out_r1 _ _

end Cert.KernelIdeal.Hand

end
-- ==== Proof.LibKeepdims.lean ====
/-
  The "keepdims" column forms of two layout operations, read at an index given by its coordinates.

  A length-a vector viewed as an a × 1 column reads, at (i, ·), the vector at i; an a × 1 column broadcast to
  a × b reads, at (p, c), the column at (p, 0). (The third form a row sum with keepdims meets, the column
  transposed to a 1 × a row, is the library's matrix transpose at b = 1.)
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.LibEReal.lean ====
/-
  General facts about extended reals, for programs read at exact (extended-real) arithmetic whose values are real numbers
  except for a −∞ a running maximum starts from.

  The operations on coerced reals are the coerced real operations: a finite sum (coe_sum), exp of a difference
  (exp_coe_sub), a quotient by a nonzero real (div_coe_coe), max (max_coe_coe). A maximum folded from −∞ over a nonempty
  finite family of reals is a real (fold_max_real), and max(−∞, c) = c (max_bot_coe). The rescaling factor of a first
  block, exp(−∞ − c), is 0 (exp_bot_sub). The f32 pattern 0xFF800000 is −∞ (ofBits_neg_inf).
-/
import Idealize.ShloMosaic.PureOps.Ideal
import Idealize.ShloMosaic.PureOps.Ideal.Laws

noncomputable section

open scoped BigOperators

namespace Cert.LibEReal

open Idealize.ShloMosaic

/-- A finite sum of coerced reals is the coerced sum. -/
theorem coe_sum {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- exp of a difference of reals. -/
theorem exp_coe_sub (a b : ℝ) : Ideal.exp ((a : EReal) - (b : EReal)) = ((Real.exp (a - b) : ℝ) : EReal) := by
  rw [← EReal.coe_sub]; rfl

/-- The first block's rescaling factor: exp(−∞ − c) = 0. -/
theorem exp_bot_sub (b : ℝ) : Ideal.exp ((⊥ : EReal) - (b : EReal)) = 0 := by
  rw [EReal.bot_sub]; rfl

/-- A quotient of reals by a nonzero real. -/
theorem div_coe_coe (a l : ℝ) (hl : l ≠ 0) : Ideal.div (a : EReal) (l : EReal) = ((a / l : ℝ) : EReal) := by
  rw [Ideal.div_coe hl, ← EReal.coe_mul]; congr 1; rw [mul_one_div]

/-- The f32 pattern of −∞ is the bottom element. -/
theorem ofBits_neg_inf : Ideal.ofBits .f32 0xFF800000#32 = (⊥ : EReal) := by simp [Ideal.ofBits, Ideal.ieee]

/-- A maximum folded from −∞ over a nonempty finite family of reals is a real. -/
theorem fold_max_real {ι : Type} [Fintype ι] [Nonempty ι] (f : ι → ℝ) :
    ∃ c : ℝ, (Finset.univ : Finset ι).fold max (⊥ : EReal) (fun k => ((f k : ℝ) : EReal)) = (c : EReal) := by
  have hlt : (Finset.univ : Finset ι).fold max (⊥ : EReal) (fun k => ((f k : ℝ) : EReal)) < ⊤ :=
    (Finset.fold_max_lt ⊤).mpr ⟨bot_lt_top, fun k _ => EReal.coe_lt_top _⟩
  have hgt : (⊥ : EReal) < (Finset.univ : Finset ι).fold max (⊥ : EReal) (fun k => ((f k : ℝ) : EReal)) :=
    (Finset.lt_fold_max ⊥).mpr (Or.inr ⟨Classical.arbitrary ι, Finset.mem_univ _, EReal.bot_lt_coe _⟩)
  exact ⟨_, (EReal.coe_toReal hlt.ne hgt.ne').symm⟩

/-- The running maximum after a block: from −∞ or from a real, against a real block maximum, it is a real. -/
theorem max_bot_coe (c : ℝ) : max (⊥ : EReal) (c : EReal) = (c : EReal) := max_bot_left _
theorem max_coe_coe (a b : ℝ) : max (a : EReal) (b : EReal) = ((max a b : ℝ) : EReal) := (EReal.coe_strictMono.monotone.map_max).symm

end Cert.LibEReal

end
-- ==== Proof.KerAttn.lean ====
/-
  One query block of the attention body, read at an index.

  The body receives a block of 256 query rows (two arrays thi, tlo of shape 1 × 256 × 256), the whole key and value
  arrays of its batch (phi, plo, g of shape 1 × 4096 × 256), the residual block (1 × 256 × 512), the output projection
  (256 × 512) and its bias (1 × 512). Its result at (q, c) is
      x[q,c] + (Σ_d y[q,d]·W[d,c] + bias[c]),     y[q,d] = (Σ_k e[q,k]·g[k,d]) / (Σ_k e[q,k]),
      e[q,k] = exp(s[q,k] − max_k' s[q,k']),       s[q,k] = (Σ_d thi[q,d]·phi[k,d] + Σ_d thi[q,d]·plo[k,d]) + Σ_d tlo[q,d]·phi[k,d].
-/
import proofs.«133864_j7310034337850_2_alg».proof.Proof.KerMatmul
import proofs.«133864_j7310034337850_2_alg».proof.Proof.LibKeepdims
import proofs.«133864_j7310034337850_2_alg».proof.Proof.LibEReal
import Idealize.ShloMosaic.Lib.ValueLayout
import Idealize.ShloMosaic.Lib.Pipeline.Value

noncomputable section

open scoped BigOperators

namespace Cert.KernelIdeal.Hand

open Cert.KernelIdeal Cert.KernelIdeal.Gen Idealize.ShloMosaic Idealize.ShloMosaic.ValueIdx

/-! ## The block's quantities as functions of its loaded arrays -/

/-- The scores of the block: the plain product and the two correction products. -/
def blkScore (x0 x1 : FVec Ideal S1x256x256 .bf16) (x2 x3 : FVec Ideal S1x4096x256 .bf16) (q : Fin 256) (k : Fin 4096) : EReal :=
  ((∑ d : Fin 256, x0 (ix3 (0 : Fin 1) q d) * x2 (ix3 (0 : Fin 1) k d))
      + ∑ d : Fin 256, x0 (ix3 (0 : Fin 1) q d) * x3 (ix3 (0 : Fin 1) k d))
    + ∑ d : Fin 256, x1 (ix3 (0 : Fin 1) q d) * x2 (ix3 (0 : Fin 1) k d)

/-- exp(s − row maximum), the maximum folded from −∞. -/
def blkEx (s : Fin 256 → Fin 4096 → EReal) (q : Fin 256) (k : Fin 4096) : EReal :=
  Ideal.exp (s q k - (Finset.univ : Finset (Fin 4096)).fold max ⊥ (fun k' => s q k'))

/-- The mixed value: the exponential-weighted sum of the value rows divided by the sum of the weights. -/
def blkMix (e : Fin 256 → Fin 4096 → EReal) (x4 : FVec Ideal S1x4096x256 .bf16) (q : Fin 256) (d : Fin 256) : EReal :=
  Ideal.div (∑ k : Fin 4096, e q k * x4 (ix3 (0 : Fin 1) k d)) (∑ k : Fin 4096, e q k)

/-- The block's result. -/
def blkOut (x0 x1 : FVec Ideal S1x256x256 .bf16) (x2 x3 x4 : FVec Ideal S1x4096x256 .bf16) (x5 : FVec Ideal S1x256x512 .f32)
    (x6 : FVec Ideal S256x512 .bf16) (x7 : FVec Ideal S1x512 .f32) (q : Fin 256) (c : Fin 512) : EReal :=
  x5 (ix3 (0 : Fin 1) q c)
    + ((∑ d : Fin 256, blkMix (blkEx (blkScore x0 x1 x2 x3)) x4 q d * x6 (ix2 d c)) + x7 (ix2 (0 : Fin 1) c))

/-! ## The body's stages -/

/-- The score matrix of the body. -/
def sVec (x0 x1 : FVec Ideal S1x256x256 .bf16) (x2 x3 : FVec Ideal S1x4096x256 .bf16) : FVec Ideal S256x4096 .f32 :=
  addf (addf
      (matmul dot_S256x256_S256x4096_S256x4096_1_0_0_1_n_n none (shapeCast S256x256 x0 shapeCasts_S1x256x256_S256x256)
        (transpose S256x4096 [1, 0] (shapeCast S4096x256 x2 shapeCasts_S1x4096x256_S4096x256) transposes_S4096x256_p1_0_S256x4096)
        (constant S256x4096 .f32 0x00000000#32))
      (matmul dot_S256x256_S256x4096_S256x4096_1_0_0_1_n_n none (shapeCast S256x256 x0 shapeCasts_S1x256x256_S256x256)
        (transpose S256x4096 [1, 0] (shapeCast S4096x256 x3 shapeCasts_S1x4096x256_S4096x256) transposes_S4096x256_p1_0_S256x4096)
        (constant S256x4096 .f32 0x00000000#32)))
    (matmul dot_S256x256_S256x4096_S256x4096_1_0_0_1_n_n none (shapeCast S256x256 x1 shapeCasts_S1x256x256_S256x256)
      (transpose S256x4096 [1, 0] (shapeCast S4096x256 x2 shapeCasts_S1x4096x256_S4096x256) transposes_S4096x256_p1_0_S256x4096)
      (constant S256x4096 .f32 0x00000000#32))

/-- The exponentials of the scores less their row maxima. -/
def eVec (s : FVec Ideal S256x4096 .f32) : FVec Ideal S256x4096 .f32 :=
  exp (subf s (broadcastTo S256x4096
    (shapeCast S256x1 (multiReduction .maximumf [1] S256 s 0xFF800000#32 reduces_S256x4096_S256 (.inl rfl) rfl) shapeCasts_S256_S256x1)
    broadcasts_S256x1_S256x4096))

/-- The weighted value rows divided by the row sums of the weights. -/
def yVec (e : FVec Ideal S256x4096 .f32) (x4 : FVec Ideal S1x4096x256 .bf16) : FVec Ideal S256x256 .f32 :=
  divf (matmul dot_S256x4096_S4096x256_S256x256_1_0_0_1_n_n none (truncf .bf16 e bitsLt_bf16_f32)
      (shapeCast S4096x256 x4 shapeCasts_S1x4096x256_S4096x256) (constant S256x256 .f32 0x00000000#32))
    (broadcastTo S256x256
      (shapeCast S256x1 (multiReduction .add [1] S256 e 0x00000000#32 reduces_S256x4096_S256 (.inl rfl) rfl) shapeCasts_S256_S256x1)
      broadcasts_S256x1_S256x256)

/-- One of the three products: rows of a against rows of b. -/
theorem score_term (a : FVec Ideal S1x256x256 .bf16) (b : FVec Ideal S1x4096x256 .bf16) (q : Fin 256) (k : Fin 4096) :
    matmul dot_S256x256_S256x4096_S256x4096_1_0_0_1_n_n none (shapeCast S256x256 a shapeCasts_S1x256x256_S256x256)
        (transpose S256x4096 [1, 0] (shapeCast S4096x256 b shapeCasts_S1x4096x256_S4096x256) transposes_S4096x256_p1_0_S256x4096)
        (constant S256x4096 .f32 0x00000000#32) (ix2 q k)
      = ∑ d : Fin 256, a (ix3 (0 : Fin 1) q d) * b (ix3 (0 : Fin 1) k d) := by
  rw [mm_score]
  refine Finset.sum_congr rfl fun d _ => ?_
  rw [transpose_ix2_apply, shapeCast_1ab_ab_apply, shapeCast_1ab_ab_apply]

theorem sVec_apply (x0 x1 : FVec Ideal S1x256x256 .bf16) (x2 x3 : FVec Ideal S1x4096x256 .bf16) (q : Fin 256) (k : Fin 4096) :
    sVec x0 x1 x2 x3 (ix2 q k) = blkScore x0 x1 x2 x3 q k := by
  unfold sVec blkScore
  show _ + _ + _ = _
  rw [score_term, score_term, score_term]

/-- The row maximum of a 256 × 4096 matrix, folded from −∞. -/
theorem rowmax_apply (s : FVec Ideal S256x4096 .f32) (h : S256x4096.Reduces [1] S256) (q : Fin 256) :
    multiReduction .maximumf [1] S256 s 0xFF800000#32 h (.inl rfl) rfl (ix1 q)
      = (Finset.univ : Finset (Fin 4096)).fold max ⊥ (fun k => s (ix2 q k)) := by
  refine (Ideal.multiReduction_maximumf_single s 0xFF800000#32 h (.inl rfl) rfl (ix1 q)).trans ?_
  rw [show FloatOps.ofBits (F := Ideal) .f32 0xFF800000#32 = (⊥ : EReal) from LibEReal.ofBits_neg_inf]
  refine Finset.fold_congr fun k _ => ?_
  exact congrArg s (funext fun a => Fin.ext (by match a with | ⟨0, _⟩ => rfl | ⟨1, _⟩ => rfl))

/-- The row sum of a 256 × 4096 matrix. -/
theorem rowsum_apply (e : FVec Ideal S256x4096 .f32) (h : S256x4096.Reduces [1] S256) (q : Fin 256) :
    multiReduction .add [1] S256 e 0x00000000#32 h (.inl rfl) rfl (ix1 q) = ∑ k : Fin 4096, e (ix2 q k) := by
  refine (Ideal.multiReduction_add_single e 0x00000000#32 h (.inl rfl) rfl (ix1 q)).trans ?_
  refine Finset.sum_congr rfl fun k _ => ?_
  exact congrArg e (funext fun a => Fin.ext (by match a with | ⟨0, _⟩ => rfl | ⟨1, _⟩ => rfl))

theorem eVec_apply (s : FVec Ideal S256x4096 .f32) (q : Fin 256) (k : Fin 4096) :
    eVec s (ix2 q k) = blkEx (fun q k => s (ix2 q k)) q k := by
  unfold eVec blkEx
  show Ideal.exp (s (ix2 q k) - _) = _
  refine congrArg (fun z => Ideal.exp (s (ix2 q k) - z)) ?_
  refine (LibKeepdims.broadcastTo_a1_ab_apply _ _ q k).trans ?_
  refine (LibKeepdims.shapeCast_a_a1_apply _ _ q (0 : Fin 1)).trans ?_
  exact rowmax_apply s _ q

theorem yVec_apply (e : FVec Ideal S256x4096 .f32) (x4 : FVec Ideal S1x4096x256 .bf16) (q : Fin 256) (d : Fin 256) :
    yVec e x4 (ix2 q d) = blkMix (fun q k => e (ix2 q k)) x4 q d := by
  unfold yVec blkMix
  show Ideal.div _ _ = Ideal.div _ _
  have hn : matmul dot_S256x4096_S4096x256_S256x256_1_0_0_1_n_n none (truncf .bf16 e bitsLt_bf16_f32)
      (shapeCast S4096x256 x4 shapeCasts_S1x4096x256_S4096x256) (constant S256x256 .f32 0x00000000#32) (ix2 q d)
      = ∑ k : Fin 4096, e (ix2 q k) * x4 (ix3 (0 : Fin 1) k d) := by
    rw [mm_mix]
    refine Finset.sum_congr rfl fun k _ => ?_
    rw [shapeCast_1ab_ab_apply]; rfl
  have hd : broadcastTo S256x256
      (shapeCast S256x1 (multiReduction .add [1] S256 e 0x00000000#32 reduces_S256x4096_S256 (.inl rfl) rfl) shapeCasts_S256_S256x1)
      broadcasts_S256x1_S256x256 (ix2 q d) = ∑ k : Fin 4096, e (ix2 q k) := by
    refine (LibKeepdims.broadcastTo_a1_ab_apply _ _ q d).trans ?_
    refine (LibKeepdims.shapeCast_a_a1_apply _ _ q (0 : Fin 1)).trans ?_
    exact rowsum_apply e _ q
  exact congrArg₂ Ideal.div hn hd

/-- The body's two payloads are these stages composed. -/
theorem pay_eq (x0 x1 : FVec Ideal S1x256x256 .bf16) (x2 x3 x4 : FVec Ideal S1x4096x256 .bf16) (x5 : FVec Ideal S1x256x512 .f32)
    (x6 : FVec Ideal S256x512 .bf16) (x7 : FVec Ideal S1x512 .f32) :
    k1_pay1 (F := Ideal) (k1_pay2 x0 x1 x2 x3 x4 x6) x7 x5
      = shapeCast S1x256x512 (addf (shapeCast S256x512 x5 shapeCasts_S1x256x512_S256x512)
          (addf (matmul dot_S256x256_S256x512_S256x512_1_0_0_1_n_n none (truncf .bf16 (yVec (eVec (sVec x0 x1 x2 x3)) x4) bitsLt_bf16_f32)
              (shapeCast S256x512 x6 shapeCasts_S256x512_S256x512) (constant S256x512 .f32 0x00000000#32))
            (broadcastTo S256x512 (shapeCast S1x512 x7 shapeCasts_S1x512_S1x512) broadcasts_S1x512_S256x512)))
          shapeCasts_S256x512_S1x256x512 := rfl

/-- The block's result at (q, c). -/
theorem pay_apply (x0 x1 : FVec Ideal S1x256x256 .bf16) (x2 x3 x4 : FVec Ideal S1x4096x256 .bf16) (x5 : FVec Ideal S1x256x512 .f32)
    (x6 : FVec Ideal S256x512 .bf16) (x7 : FVec Ideal S1x512 .f32) (q : Fin 256) (c : Fin 512) :
    k1_pay1 (F := Ideal) (k1_pay2 x0 x1 x2 x3 x4 x6) x7 x5 (ix3 (0 : Fin 1) q c) = blkOut x0 x1 x2 x3 x4 x5 x6 x7 q c := by
  rw [pay_eq, shapeCast_ab_1ab_apply]
  unfold blkOut
  show _ + (_ + _) = _
  rw [mm_out, shapeCast_1ab_ab_apply, broadcastTo_1b_ab_apply, shapeCast_self, shapeCast_self]
  congr 2
  refine Finset.sum_congr rfl fun d _ => ?_
  rw [truncf_apply, yVec_apply]
  congr 1
  unfold blkMix
  simp only [eVec_apply, sVec_apply]

end Cert.KernelIdeal.Hand

end
-- ==== Proof.Spec.lean ====
/-
  The non-local attention block over the extended reals, as two functions of the eleven argument arrays.

  Arguments: x[b,n,c] (4 × 4096 × 512), a scale γ[c] and shift β[c], three projections W[d,c] (256 × 512) with biases
  b[d], and an output projection Ww[c,d] (512 × 256) with bias bw[c].

  Both sides compute, per channel c, the batch mean μ[c] = (Σ_{b,n} x[b,n,c]) / 16384 and a variance v[c]; the
  normalised activation f[b,n,c] = max(γ[c]·(x[b,n,c] − μ[c])·(v[c] + ε)^(−1/2) + β[c], 0); the projections
  t, p, g[b,n,d] = Σ_c f[b,n,c]·W[d,c] + bias[d]; the scores s[b,q,k] = Σ_d t[b,q,d]·p[b,k,d]; the row maximum
  m[b,q] = max_k s[b,q,k]; e[b,q,k] = exp(s[b,q,k] − m[b,q]); l[b,q] = Σ_k e[b,q,k]; a mixed value y[b,q,d]; and
  the result x[b,q,c] + (Σ_d y[b,q,d]·Ww[c,d] + bw[c]).

  They differ in three places.
  * The variance: one side takes the mean of (x − μ)², the other the mean of x² minus μ².
  * The scores: one side adds to Σ_d t·p the two sums Σ_d t·(p − p) and Σ_d (t − t)·p, which vanish when t and p
    are real numbers.
  * The mixed value: one side normalises the weights first, Σ_k (e/l)·g, the other divides the sum, (Σ_k e·g) / l.
-/
import Idealize.ShloMosaic.PureOps.Ideal

noncomputable section

open scoped BigOperators

namespace Cert.NonLocal

open Idealize.ShloMosaic

/-- The number of (b, n) positions, 16384, as the f32 constant both programs divide by. -/
def nE : EReal := Ideal.ofBits .f32 0x46800000#32
/-- The variance offset ε, the f32 nearest 1e-5. -/
def epsE : EReal := Ideal.ofBits .f32 0x3727C5AC#32

/-- Σ over the batch and position axes. -/
def sum2 (f : Fin 4 → Fin 4096 → EReal) : EReal := ∑ b : Fin 4, ∑ n : Fin 4096, f b n

section
variable (X : Fin 4 → Fin 4096 → Fin 512 → EReal)

/-- The per-channel mean. -/
def mean (c : Fin 512) : EReal := Ideal.div (sum2 fun b n => X b n c) nE

/-- The variance as the mean of squared deviations. -/
def varDev (c : Fin 512) : EReal :=
  Ideal.div (sum2 fun b n => (X b n c - mean X c) * (X b n c - mean X c)) nE

/-- The variance as the mean of squares minus the squared mean. -/
def varSq (c : Fin 512) : EReal :=
  Ideal.div (sum2 fun b n => X b n c * X b n c) nE - mean X c * mean X c

/-- (v + ε)^(−1/2). -/
def rstd (v : Fin 512 → EReal) (c : Fin 512) : EReal := Ideal.rsqrt (v c + epsE)

/-- The normalised, scaled, shifted and rectified activation, for a given reciprocal deviation r. -/
def feat (γ β r : Fin 512 → EReal) (b : Fin 4) (n : Fin 4096) (c : Fin 512) : EReal :=
  max (γ c * (X b n c - mean X c) * r c + β c) 0
end

/-- A linear projection of the channel axis: Σ_c f[b,n,c]·W[d,c] + bias[d]. -/
def proj (f : Fin 4 → Fin 4096 → Fin 512 → EReal) (W : Fin 256 → Fin 512 → EReal) (bias : Fin 256 → EReal)
    (b : Fin 4) (n : Fin 4096) (d : Fin 256) : EReal := (∑ c : Fin 512, f b n c * W d c) + bias d

/-- The scores Σ_d t[b,q,d]·p[b,k,d]. -/
def score (t p : Fin 4 → Fin 4096 → Fin 256 → EReal) (b : Fin 4) (q k : Fin 4096) : EReal :=
  ∑ d : Fin 256, t b q d * p b k d

/-- The scores with the two vanishing correction sums. -/
def score3 (t p : Fin 4 → Fin 4096 → Fin 256 → EReal) (b : Fin 4) (q k : Fin 4096) : EReal :=
  ((∑ d : Fin 256, t b q d * p b k d) + ∑ d : Fin 256, t b q d * (p b k d - p b k d))
    + ∑ d : Fin 256, (t b q d - t b q d) * p b k d

section
variable (s : Fin 4 → Fin 4096 → Fin 4096 → EReal)

/-- The row maximum, folded from −∞. -/
def rowMax (b : Fin 4) (q : Fin 4096) : EReal := (Finset.univ : Finset (Fin 4096)).fold max ⊥ (fun k => s b q k)

/-- exp(s − row maximum). -/
def ex (b : Fin 4) (q k : Fin 4096) : EReal := Ideal.exp (s b q k - rowMax s b q)

/-- The row sum of the exponentials. -/
def den (b : Fin 4) (q : Fin 4096) : EReal := ∑ k : Fin 4096, ex s b q k

/-- The mixed value with the weights normalised first. -/
def mixNorm (g : Fin 4 → Fin 4096 → Fin 256 → EReal) (b : Fin 4) (q : Fin 4096) (d : Fin 256) : EReal :=
  ∑ k : Fin 4096, Ideal.div (ex s b q k) (den s b q) * g b k d

/-- The mixed value with the sum divided afterwards. -/
def mixDiv (g : Fin 4 → Fin 4096 → Fin 256 → EReal) (b : Fin 4) (q : Fin 4096) (d : Fin 256) : EReal :=
  Ideal.div (∑ k : Fin 4096, ex s b q k * g b k d) (den s b q)
end

/-- The output projection and the residual: x[b,q,c] + (Σ_d y[b,q,d]·Ww[c,d] + bw[c]). -/
def outp (X : Fin 4 → Fin 4096 → Fin 512 → EReal) (y : Fin 4 → Fin 4096 → Fin 256 → EReal)
    (Ww : Fin 512 → Fin 256 → EReal) (bw : Fin 512 → EReal) (b : Fin 4) (q : Fin 4096) (c : Fin 512) : EReal :=
  X b q c + ((∑ d : Fin 256, y b q d * Ww c d) + bw c)

section
variable (X : Fin 4 → Fin 4096 → Fin 512 → EReal) (γ β : Fin 512 → EReal)
  (Wθ : Fin 256 → Fin 512 → EReal) (bθ : Fin 256 → EReal) (Wφ : Fin 256 → Fin 512 → EReal) (bφ : Fin 256 → EReal)
  (Wg : Fin 256 → Fin 512 → EReal) (bg : Fin 256 → EReal) (Ww : Fin 512 → Fin 256 → EReal) (bw : Fin 512 → EReal)

/-- The side that takes the deviation variance, the plain scores and normalised weights. -/
def refOut : Fin 4 → Fin 4096 → Fin 512 → EReal :=
  let f := feat X γ β (rstd (varDev X))
  outp X (mixNorm (score (proj f Wθ bθ) (proj f Wφ bφ)) (proj f Wg bg)) Ww bw

/-- The side that takes the mean-of-squares variance, the three-term scores and divides the sum. -/
def kerOut : Fin 4 → Fin 4096 → Fin 512 → EReal :=
  let f := feat X γ β (rstd (varSq X))
  outp X (mixDiv (score3 (proj f Wθ bθ) (proj f Wφ bφ)) (proj f Wg bg)) Ww bw
end

end Cert.NonLocal

end
-- ==== Proof.KerAttnArr.lean ====
/-
  The attention region's output array as one function of the arrays it reads.

  The grid is (batch b, query block qi): point (b, qi) reads rows qi·256 … qi·256+255 of the two query arrays and of
  the residual, the whole of batch b of the key and value arrays, and the whole projection and bias; it writes rows
  qi·256 … qi·256+255 of batch b of the output. The 64 output blocks tile the array, so the array ends at the block
  formula read at every index.
-/
import proofs.«133864_j7310034337850_2_alg».proof.Proof.Gen.KernelIdeal.Frame
import proofs.«133864_j7310034337850_2_alg».proof.Proof.KerAttn
import proofs.«133864_j7310034337850_2_alg».proof.Proof.Spec

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The scores from separately given main and correction arrays. -/
def score3g (thi tlo phi plo : Fin 4 → Fin 4096 → Fin 256 → EReal) (b : Fin 4) (q k : Fin 4096) : EReal :=
  ((∑ d : Fin 256, thi b q d * phi b k d) + ∑ d : Fin 256, thi b q d * plo b k d)
    + ∑ d : Fin 256, tlo b q d * phi b k d

/-- The region's result at (b, q, c) from the eight arrays it reads. -/
def attnArr (A0 A1 A2 A3 A4 : S4x4096x256.Idx → EReal) (A5 : S4x4096x512.Idx → EReal) (A6 : S256x512.Idx → EReal)
    (A7 : S1x512.Idx → EReal) (b : Fin 4) (q : Fin 4096) (c : Fin 512) : EReal :=
  Cert.NonLocal.outp (fun b n c => A5 (ix3 b n c))
    (Cert.NonLocal.mixDiv
      (score3g (fun b n d => A0 (ix3 b n d)) (fun b n d => A1 (ix3 b n d)) (fun b n d => A2 (ix3 b n d)) (fun b n d => A3 (ix3 b n d)))
      (fun b n d => A4 (ix3 b n d)))
    (fun c d => A6 (ix2 d c)) (fun c => A7 (ix2 (0 : Fin 1) c)) b q c

/-- A block whose loaded arrays are the stated rows of the eight arrays computes the array formula on its rows. -/
theorem blkOut_eq_arr (x0 x1 : FVec Ideal S1x256x256 .bf16) (x2 x3 x4 : FVec Ideal S1x4096x256 .bf16) (x5 : FVec Ideal S1x256x512 .f32)
    (x6 : FVec Ideal S256x512 .bf16) (x7 : FVec Ideal S1x512 .f32)
    (A0 A1 A2 A3 A4 : S4x4096x256.Idx → EReal) (A5 : S4x4096x512.Idx → EReal) (A6 : S256x512.Idx → EReal) (A7 : S1x512.Idx → EReal)
    (B : Fin 4) (Q : Fin 256 → Fin 4096)
    (h0 : ∀ q d, x0 (ix3 (0 : Fin 1) q d) = A0 (ix3 B (Q q) d)) (h1 : ∀ q d, x1 (ix3 (0 : Fin 1) q d) = A1 (ix3 B (Q q) d))
    (h2 : ∀ k d, x2 (ix3 (0 : Fin 1) k d) = A2 (ix3 B k d)) (h3 : ∀ k d, x3 (ix3 (0 : Fin 1) k d) = A3 (ix3 B k d))
    (h4 : ∀ k d, x4 (ix3 (0 : Fin 1) k d) = A4 (ix3 B k d)) (h5 : ∀ q c, x5 (ix3 (0 : Fin 1) q c) = A5 (ix3 B (Q q) c))
    (h6 : ∀ d c, x6 (ix2 d c) = A6 (ix2 d c)) (h7 : ∀ c, x7 (ix2 (0 : Fin 1) c) = A7 (ix2 (0 : Fin 1) c))
    (q : Fin 256) (c : Fin 512) :
    blkOut x0 x1 x2 x3 x4 x5 x6 x7 q c = attnArr A0 A1 A2 A3 A4 A5 A6 A7 B (Q q) c := by
  unfold blkOut attnArr Cert.NonLocal.outp Cert.NonLocal.mixDiv blkMix Cert.NonLocal.den Cert.NonLocal.ex Cert.NonLocal.rowMax blkEx
    blkScore score3g
  simp only [h0, h1, h2, h3, h4, h5, h6, h7]

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the 64 points: the query and residual windows move with the output window, the key and
    value windows follow its batch coordinate only, the projection and bias windows stay. -/
theorem idx_attn : ∀ t : Fin cfg1.N,
    win1_0.index t (0 : Fin 3) = win1_8.index t (0 : Fin 3) ∧ win1_0.index t (1 : Fin 3) = win1_8.index t (1 : Fin 3) ∧ win1_0.index t (2 : Fin 3) = 0
    ∧ win1_1.index t (0 : Fin 3) = win1_8.index t (0 : Fin 3) ∧ win1_1.index t (1 : Fin 3) = win1_8.index t (1 : Fin 3) ∧ win1_1.index t (2 : Fin 3) = 0
    ∧ win1_2.index t (0 : Fin 3) = win1_8.index t (0 : Fin 3) ∧ win1_2.index t (1 : Fin 3) = 0 ∧ win1_2.index t (2 : Fin 3) = 0
    ∧ win1_3.index t (0 : Fin 3) = win1_8.index t (0 : Fin 3) ∧ win1_3.index t (1 : Fin 3) = 0 ∧ win1_3.index t (2 : Fin 3) = 0
    ∧ win1_4.index t (0 : Fin 3) = win1_8.index t (0 : Fin 3) ∧ win1_4.index t (1 : Fin 3) = 0 ∧ win1_4.index t (2 : Fin 3) = 0
    ∧ win1_5.index t (0 : Fin 3) = win1_8.index t (0 : Fin 3) ∧ win1_5.index t (1 : Fin 3) = win1_8.index t (1 : Fin 3) ∧ win1_5.index t (2 : Fin 3) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 3) < 4 ∧ win1_8.index t (1 : Fin 3) < 16 ∧ win1_8.index t (2 : Fin 3) = 0 :=
  (by decide +kernel : ∀ t : Fin grid1.N, _)

/-- Every (batch, query block) pair is some point's output block. -/
theorem idx_attn_onto : ∀ (q0 : Fin 4) (q1 : Fin 16), ∃ t : Fin cfg1.N, win1_8.index t = ![q0.val, q1.val, 0] :=
  (by decide +kernel : ∀ (q0 : Fin 4) (q1 : Fin 16), ∃ t : Fin grid1.N, win1_8.index t = ![q0.val, q1.val, 0])

/-- The whole-array function the output ends at. -/
def attnG (c : Dev nD) : S4x4096x512.Idx → EReal := fun i =>
  attnArr (V c main_v30) (V c main_v31) (V c main_v32) (V c main_v33) (V c main_v34) (V c main_arg0) (V c main_v27) (V c main_v19)
    (i 0) (i 1) (i 2)

/-- What point t writes back is block t of that function. -/
theorem attn_flushed (c : Dev nD) (t : Fin cfg1.N) :
    (dat1 V c).flushed 8 t = ((cfg1.win 8).blk t).view.read (Elt Ideal) (attnG V c) := by
  show (cfg1.win 8).cut (grid1.coords t) ((dat1 V c).after 8 t) = _
  rw [after1_8]
  unfold out1_8
  rw [View.canon_unit_zero hz3]
  simp only [View.ld_unit_zero (S := S1x256x256) hz3, View.ld_unit_zero (S := S1x4096x256) hz3,
    View.ld_unit_zero (S := S1x256x512) hz3, View.ld_unit_zero (S := S256x512) hz2, View.ld_unit_zero (S := S1x512) hz2]
  obtain ⟨e00, e01, e02, e10, e11, e12, e20, e21, e22, e30, e31, e32, e40, e41, e42, e50, e51, e52, e60, e61, e70, e71, b0, b1, b2⟩ := idx_attn t
  funext j
  obtain ⟨u, q, c', rfl⟩ : ∃ (u : Fin 1) (q : Fin 256) (c' : Fin 512), j = ix3 u q c' := ⟨j 0, j 1, j 2, eq_ix3 j⟩
  obtain rfl : u = 0 := Subsingleton.elim _ _
  refine (pay_apply _ _ _ _ _ _ _ _ q c').trans ?_
  have hq : ∀ q : Fin 256, win1_8.index t (1 : Fin 3) * 256 + q.val < 4096 := fun q => by have := q.isLt; omega
  refine (blkOut_eq_arr _ _ _ _ _ _ _ _ (V c main_v30) (V c main_v31) (V c main_v32) (V c main_v33) (V c main_v34) (V c main_arg0)
    (V c main_v27) (V c main_v19) ⟨win1_8.index t (0 : Fin 3), b0⟩ (fun q => ⟨win1_8.index t (1 : Fin 3) * 256 + q.val, hq q⟩)
    ?_ ?_ ?_ ?_ ?_ ?_ ?_ ?_ q c').trans ?_
  · intro q d
    show V c main_v30 (((cfg1.win 0).blk t).view.emb (ix3 (0 : Fin 1) q d)) = V c main_v30 _
    refine congrArg _ (funext fun a => Fin.ext ?_)
    match a with
    | ⟨0, _⟩ => show win1_0.index t (0 : Fin 3) * 1 + 1 * 0 = win1_8.index t (0 : Fin 3); omega
    | ⟨1, _⟩ => show win1_0.index t (1 : Fin 3) * 256 + 1 * q.val = win1_8.index t (1 : Fin 3) * 256 + q.val; omega
    | ⟨2, _⟩ => show win1_0.index t (2 : Fin 3) * 256 + 1 * d.val = d.val; omega
  · intro q d
    show V c main_v31 (((cfg1.win 1).blk t).view.emb (ix3 (0 : Fin 1) q d)) = V c main_v31 _
    refine congrArg _ (funext fun a => Fin.ext ?_)
    match a with
    | ⟨0, _⟩ => show win1_1.index t (0 : Fin 3) * 1 + 1 * 0 = win1_8.index t (0 : Fin 3); omega
    | ⟨1, _⟩ => show win1_1.index t (1 : Fin 3) * 256 + 1 * q.val = win1_8.index t (1 : Fin 3) * 256 + q.val; omega
    | ⟨2, _⟩ => show win1_1.index t (2 : Fin 3) * 256 + 1 * d.val = d.val; omega
  · intro k d
    show V c main_v32 (((cfg1.win 2).blk t).view.emb (ix3 (0 : Fin 1) k d)) = V c main_v32 _
    refine congrArg _ (funext fun a => Fin.ext ?_)
    match a with
    | ⟨0, _⟩ => show win1_2.index t (0 : Fin 3) * 1 + 1 * 0 = win1_8.index t (0 : Fin 3); omega
    | ⟨1, _⟩ => show win1_2.index t (1 : Fin 3) * 4096 + 1 * k.val = k.val; omega
    | ⟨2, _⟩ => show win1_2.index t (2 : Fin 3) * 256 + 1 * d.val = d.val; omega
  · intro k d
    show V c main_v33 (((cfg1.win 3).blk t).view.emb (ix3 (0 : Fin 1) k d)) = V c main_v33 _
    refine congrArg _ (funext fun a => Fin.ext ?_)
    match a with
    | ⟨0, _⟩ => show win1_3.index t (0 : Fin 3) * 1 + 1 * 0 = win1_8.index t (0 : Fin 3); omega
    | ⟨1, _⟩ => show win1_3.index t (1 : Fin 3) * 4096 + 1 * k.val = k.val; omega
    | ⟨2, _⟩ => show win1_3.index t (2 : Fin 3) * 256 + 1 * d.val = d.val; omega
  · intro k d
    show V c main_v34 (((cfg1.win 4).blk t).view.emb (ix3 (0 : Fin 1) k d)) = V c main_v34 _
    refine congrArg _ (funext fun a => Fin.ext ?_)
    match a with
    | ⟨0, _⟩ => show win1_4.index t (0 : Fin 3) * 1 + 1 * 0 = win1_8.index t (0 : Fin 3); omega
    | ⟨1, _⟩ => show win1_4.index t (1 : Fin 3) * 4096 + 1 * k.val = k.val; omega
    | ⟨2, _⟩ => show win1_4.index t (2 : Fin 3) * 256 + 1 * d.val = d.val; omega
  · intro q cc
    show V c main_arg0 (((cfg1.win 5).blk t).view.emb (ix3 (0 : Fin 1) q cc)) = V c main_arg0 _
    refine congrArg _ (funext fun a => Fin.ext ?_)
    match a with
    | ⟨0, _⟩ => show win1_5.index t (0 : Fin 3) * 1 + 1 * 0 = win1_8.index t (0 : Fin 3); omega
    | ⟨1, _⟩ => show win1_5.index t (1 : Fin 3) * 256 + 1 * q.val = win1_8.index t (1 : Fin 3) * 256 + q.val; omega
    | ⟨2, _⟩ => show win1_5.index t (2 : Fin 3) * 512 + 1 * cc.val = cc.val; omega
  · intro d cc
    show V c main_v27 (((cfg1.win 6).blk t).view.emb (ix2 d cc)) = V c main_v27 _
    refine congrArg _ (funext fun a => Fin.ext ?_)
    match a with
    | ⟨0, _⟩ => show win1_6.index t (0 : Fin 2) * 256 + 1 * d.val = d.val; omega
    | ⟨1, _⟩ => show win1_6.index t (1 : Fin 2) * 512 + 1 * cc.val = cc.val; omega
  · intro cc
    show V c main_v19 (((cfg1.win 7).blk t).view.emb (ix2 (0 : Fin 1) cc)) = V c main_v19 _
    refine congrArg _ (funext fun a => Fin.ext ?_)
    match a with
    | ⟨0, _⟩ => show win1_7.index t (0 : Fin 2) * 1 + 1 * 0 = 0; omega
    | ⟨1, _⟩ => show win1_7.index t (1 : Fin 2) * 512 + 1 * cc.val = cc.val; omega
  · show attnArr _ _ _ _ _ _ _ _ _ _ _ = attnG V c (((cfg1.win 8).blk t).view.emb (ix3 (0 : Fin 1) q c'))
    unfold attnG
    have e : ((cfg1.win 8).blk t).view.emb (ix3 (0 : Fin 1) q c')
        = ix3 (⟨win1_8.index t (0 : Fin 3), b0⟩ : Fin 4) (⟨win1_8.index t (1 : Fin 3) * 256 + q.val, hq q⟩ : Fin 4096) c' := by
      funext a; apply Fin.ext
      match a with
      | ⟨0, _⟩ => show win1_8.index t (0 : Fin 3) * 1 + 1 * 0 = win1_8.index t (0 : Fin 3); omega
      | ⟨1, _⟩ => show win1_8.index t (1 : Fin 3) * 256 + 1 * q.val = win1_8.index t (1 : Fin 3) * 256 + q.val; omega
      | ⟨2, _⟩ => show win1_8.index t (2 : Fin 3) * 512 + 1 * c'.val = c'.val; omega
    rw [e]

/-- An index is in point t's output block iff each coordinate is in the block's range. -/
theorem mem_blk_attn (t : Fin cfg1.N) (i : S4x4096x512.Idx) :
    i ∈ ((cfg1.win 8).blk t).view.set ↔ ∀ a : Fin 3, win1_8.index t a * S1x256x512.size a ≤ (i a).val ∧ (i a).val < win1_8.index t a * S1x256x512.size a + S1x256x512.size a := by
  show i ∈ ((View.whole main_v35).slice (win1_8.rect t)).set ↔ _
  rw [View.set_slice_whole, Rect.mem_set_unit]
  exact Iff.rfl

/-- The 64 output blocks cover the array. -/
theorem attn_cover (i : S4x4096x512.Idx) : ∃ t : Fin cfg1.N, (cfg1.win 8).flush t = true ∧ i ∈ ((cfg1.win 8).blk t).view.set := by
  have hi0 : (i 0).val < 4 := (i 0).isLt
  have hi1 : (i 1).val < 4096 := (i 1).isLt
  have hi2 : (i 2).val < 512 := (i 2).isLt
  obtain ⟨t, ht⟩ := idx_attn_onto ⟨(i 0).val, hi0⟩ ⟨(i 1).val / 256, by omega⟩
  have q0 : win1_8.index t (0 : Fin 3) = (i 0).val := congrFun ht 0
  have q1 : win1_8.index t (1 : Fin 3) = (i 1).val / 256 := congrFun ht 1
  have q2 : win1_8.index t (2 : Fin 3) = 0 := congrFun ht 2
  refine ⟨t, flush1_8 t, ?_⟩
  rw [mem_blk_attn]
  intro a
  match a with
  | ⟨0, _⟩ => show win1_8.index t (0 : Fin 3) * 1 ≤ (i 0).val ∧ (i 0).val < win1_8.index t (0 : Fin 3) * 1 + 1; omega
  | ⟨1, _⟩ => show win1_8.index t (1 : Fin 3) * 256 ≤ (i 1).val ∧ (i 1).val < win1_8.index t (1 : Fin 3) * 256 + 256; omega
  | ⟨2, _⟩ => show win1_8.index t (2 : Fin 3) * 512 ≤ (i 2).val ∧ (i 2).val < win1_8.index t (2 : Fin 3) * 512 + 512; omega

/-- The output array after the region. -/
theorem attn_final (c : Dev nD) : (dat1 V c).arrAt 8 cfg1.N = attnG V c :=
  (dat1 V c).arrAt_eq_of_cover 8 (attnG V c) (fun t _ => attn_flushed V c t) attn_cover

end Cert.KernelIdeal.Hand

end
-- ==== Proof.KerProj.lean ====
/-
  One row block of the projection body, read at an index.

  The body receives 1024 rows of x (1024 × 512), the per-channel mean, reciprocal deviation, scale and shift (each
  1 × 512), and three weight matrices (512 × 256) with their biases (1 × 256). It forms
      f[p,c] = max(γ[c]·(x[p,c] − μ[c])·r[c] + β[c], 0)
  and stores five blocks: a[p,d] = Σ_c f[p,c]·W[c,d] + bias[d] for the first weights, a − a, the same two for the
  second weights, and the plain projection for the third.
-/
import proofs.«133864_j7310034337850_2_alg».proof.Proof.KerMatmul
import Idealize.ShloMosaic.Lib.ValueLayout
import Idealize.ShloMosaic.Lib.Pipeline.Value

noncomputable section

open scoped BigOperators

namespace Cert.KernelIdeal.Hand

open Cert.KernelIdeal Cert.KernelIdeal.Gen Idealize.ShloMosaic Idealize.ShloMosaic.ValueIdx

/-- The normalised, scaled, shifted and rectified block. -/
def blkFeat (x : FVec Ideal S1024x512 .f32) (mu rs ga be : FVec Ideal S1x512 .f32) (p : Fin 1024) (c : Fin 512) : EReal :=
  max (ga (ix2 (0 : Fin 1) c) * (x (ix2 p c) - mu (ix2 (0 : Fin 1) c)) * rs (ix2 (0 : Fin 1) c) + be (ix2 (0 : Fin 1) c)) 0

/-- A projection of the block: Σ_c f[p,c]·W[c,d] + bias[d]. -/
def blkProj (f : Fin 1024 → Fin 512 → EReal) (w : FVec Ideal S512x256 .bf16) (bias : FVec Ideal S1x256 .f32)
    (p : Fin 1024) (d : Fin 256) : EReal :=
  (∑ c : Fin 512, f p c * w (ix2 c d)) + bias (ix2 (0 : Fin 1) d)

theorem feat_apply (x : FVec Ideal S1024x512 .f32) (mu rs ga be : FVec Ideal S1x512 .f32) (p : Fin 1024) (c : Fin 512) :
    k0_pay7 (F := Ideal) x mu rs ga be (ix2 p c) = blkFeat x mu rs ga be p c := by
  unfold k0_pay7 blkFeat
  show max (_ * (_ - _) * _ + _) _ = _
  rw [broadcastTo_1b_ab_apply, broadcastTo_1b_ab_apply, broadcastTo_1b_ab_apply,
    broadcastTo_1b_ab_apply]
  simp only [shapeCast_self]
  congr 1
  exact Ideal.ofBits_zero_f32

theorem proj_first_apply (x : FVec Ideal S1024x512 .f32) (mu rs ga be : FVec Ideal S1x512 .f32) (w : FVec Ideal S512x256 .bf16)
    (bias : FVec Ideal S1x256 .f32) (p : Fin 1024) (d : Fin 256) :
    k0_pay9 (F := Ideal) x mu rs ga be w bias (ix2 p d) = blkProj (blkFeat x mu rs ga be) w bias p d := by
  unfold k0_pay9 blkProj
  try dsimp only
  show (_ : EReal) + _ = _
  rw [mm_proj, broadcastTo_1b_ab_apply]
  simp only [shapeCast_self, feat_apply]

theorem proj_second_apply (x : FVec Ideal S1024x512 .f32) (mu rs ga be : FVec Ideal S1x512 .f32) (w : FVec Ideal S512x256 .bf16)
    (bias : FVec Ideal S1x256 .f32) (p : Fin 1024) (d : Fin 256) :
    k0_pay1 (F := Ideal) (k0_pay10 x mu rs ga be w) (k0_pay11 bias) (ix2 p d) = blkProj (blkFeat x mu rs ga be) w bias p d := by
  unfold k0_pay1 k0_pay10 k0_pay11 blkProj
  try dsimp only
  show (_ : EReal) + _ = _
  rw [mm_proj, broadcastTo_1b_ab_apply]
  simp only [shapeCast_self, feat_apply]

theorem proj_third_apply (x : FVec Ideal S1024x512 .f32) (mu rs ga be : FVec Ideal S1x512 .f32) (w : FVec Ideal S512x256 .bf16)
    (bias : FVec Ideal S1x256 .f32) (p : Fin 1024) (d : Fin 256) :
    k0_pay6 (F := Ideal) (k0_pay7 x mu rs ga be) (k0_pay8 w) bias (ix2 p d) = blkProj (blkFeat x mu rs ga be) w bias p d := by
  unfold k0_pay6 k0_pay8 blkProj
  try dsimp only
  show (_ : EReal) + _ = _
  rw [mm_proj, broadcastTo_1b_ab_apply]
  simp only [shapeCast_self, feat_apply]

/-- The stored value of a projection is the projection; of its remainder, the projection minus itself. -/
theorem hi_apply (v : FVec Ideal S1024x256 .f32) (i : S1024x256.Idx) : k0_pay2 (F := Ideal) v i = v i := rfl
theorem lo_apply (v : FVec Ideal S1024x256 .f32) (i : S1024x256.Idx) : k0_pay3 (F := Ideal) v i = v i - v i := rfl
theorem hi2_apply (a b : FVec Ideal S1024x256 .f32) (i : S1024x256.Idx) : k0_pay4 (F := Ideal) a b i = k0_pay1 a b i := rfl
theorem lo2_apply (a b : FVec Ideal S1024x256 .f32) (i : S1024x256.Idx) :
    k0_pay5 (F := Ideal) a b i = k0_pay1 a b i - k0_pay1 a b i := rfl

end Cert.KernelIdeal.Hand

end
-- ==== Proof.KerProjArr.lean ====
/-
  The projection region's five output arrays as functions of the arrays it reads.

  The grid is the 16 row blocks of 1024 rows: point i reads rows i·1024 … i·1024+1023 of x (16384 × 512), the whole
  1 × 512 mean, reciprocal deviation, scale and shift, the three whole 512 × 256 weight matrices and their 1 × 256
  biases, and writes rows i·1024 … of each of the five 16384 × 256 outputs. The blocks tile every output, so each
  ends at the block formula read at every index: the first projection a, a − a, the second projection, its
  difference with itself, and the third projection.
-/
import proofs.«133864_j7310034337850_2_alg».proof.Proof.Gen.KernelIdeal.Frame
import proofs.«133864_j7310034337850_2_alg».proof.Proof.KerProj

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The activation at row r, channel c, from the flattened x and the four 1 × 512 rows. -/
def featArr (A0 : S16384x512.Idx → EReal) (A1 A2 A3 A4 : S1x512.Idx → EReal) (r : Fin 16384) (c : Fin 512) : EReal :=
  max (A3 (ix2 (0 : Fin 1) c) * (A0 (ix2 r c) - A1 (ix2 (0 : Fin 1) c)) * A2 (ix2 (0 : Fin 1) c) + A4 (ix2 (0 : Fin 1) c)) 0

/-- A projection at row r, column d. -/
def projArr (f : Fin 16384 → Fin 512 → EReal) (W : S512x256.Idx → EReal) (bias : S1x256.Idx → EReal) (r : Fin 16384) (d : Fin 256) : EReal :=
  (∑ c : Fin 512, f r c * W (ix2 c d)) + bias (ix2 (0 : Fin 1) d)

/-- A block whose loaded arrays are the stated rows computes the array formula on its rows. -/
theorem blkProj_eq_arr (x : FVec Ideal S1024x512 .f32) (mu rs ga be : FVec Ideal S1x512 .f32) (w : FVec Ideal S512x256 .bf16)
    (bias : FVec Ideal S1x256 .f32) (A0 : S16384x512.Idx → EReal) (A1 A2 A3 A4 : S1x512.Idx → EReal) (W : S512x256.Idx → EReal)
    (Bi : S1x256.Idx → EReal) (R : Fin 1024 → Fin 16384)
    (hx : ∀ p c, x (ix2 p c) = A0 (ix2 (R p) c)) (hmu : ∀ c, mu (ix2 (0 : Fin 1) c) = A1 (ix2 (0 : Fin 1) c))
    (hrs : ∀ c, rs (ix2 (0 : Fin 1) c) = A2 (ix2 (0 : Fin 1) c)) (hga : ∀ c, ga (ix2 (0 : Fin 1) c) = A3 (ix2 (0 : Fin 1) c))
    (hbe : ∀ c, be (ix2 (0 : Fin 1) c) = A4 (ix2 (0 : Fin 1) c)) (hw : ∀ c d, w (ix2 c d) = W (ix2 c d))
    (hb : ∀ d, bias (ix2 (0 : Fin 1) d) = Bi (ix2 (0 : Fin 1) d)) (p : Fin 1024) (d : Fin 256) :
    blkProj (blkFeat x mu rs ga be) w bias p d = projArr (featArr A0 A1 A2 A3 A4) W Bi (R p) d := by
  unfold blkProj blkFeat projArr featArr
  simp only [hx, hmu, hrs, hga, hbe, hw, hb]

variable (V : (c : Dev nD) → (b : Ref sig .tc) → Buf (Elt Ideal) ((c : Thread nD τ).loc b))

theorem hzP : (![0, 0] : Fin 2 → Nat) = fun _ => 0 := funext fun a => by fin_cases a <;> rfl

/-- The printed index maps over the 16 points: the x window and the five output windows move together along the rows,
    every other window stays. -/
theorem idx_proj : ∀ t : Fin cfg0.N,
    win0_0.index t (0 : Fin 2) = win0_11.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_12.index t (0 : Fin 2) = win0_11.index t (0 : Fin 2) ∧ win0_13.index t (0 : Fin 2) = win0_11.index t (0 : Fin 2)
    ∧ win0_14.index t (0 : Fin 2) = win0_11.index t (0 : Fin 2) ∧ win0_15.index t (0 : Fin 2) = win0_11.index t (0 : Fin 2)
    ∧ win0_11.index t (1 : Fin 2) = 0 ∧ win0_12.index t (1 : Fin 2) = 0 ∧ win0_13.index t (1 : Fin 2) = 0
    ∧ win0_14.index t (1 : Fin 2) = 0 ∧ win0_15.index t (1 : Fin 2) = 0
    ∧ win0_11.index t (0 : Fin 2) < 16 :=
  (by decide +kernel : ∀ t : Fin grid0.N, _)

/-- Every row block is some point's. -/
theorem idx_proj_onto : ∀ q0 : Fin 16, ∃ t : Fin cfg0.N, win0_11.index t (0 : Fin 2) = q0.val :=
  (by decide +kernel : ∀ q0 : Fin 16, ∃ t : Fin grid0.N, win0_11.index t (0 : Fin 2) = q0.val)

/-- The array row that row p of point t's block is. -/
def rowOf (t : Fin cfg0.N) (p : Fin 1024) : Fin 16384 :=
  ⟨win0_11.index t (0 : Fin 2) * 1024 + p.val, by have := (idx_proj t).2.2.2.2.2.2.2.2.2.2.2.2.2.2.2.2.2.2.2.2.2.2.2.2.2.2.2.2.2.2.2; have := p.isLt; omega⟩

/-- The first projection of point t's block, at (p, d), is the array formula at row t·1024 + p. -/
theorem blk_val_first (c : Dev nD) (t : Fin cfg0.N) (p : Fin 1024) (d : Fin 256) :
    k0_pay9 (F := Ideal) (iblk0 V c 0 t) (iblk0 V c 1 t) (iblk0 V c 2 t) (iblk0 V c 3 t) (iblk0 V c 4 t) (iblk0 V c 5 t) (iblk0 V c 6 t) (ix2 p d)
      = projArr (featArr (V c main_v28) (V c main_v12) (V c main_v13) (V c main_v14) (V c main_v15)) (V c main_v21) (V c main_v16) (rowOf t p) d := by
  obtain ⟨a00, a01, a10, a11, a20, a21, a30, a31, a40, a41, a50, a51, a60, a61, a70, a71, a80, a81, a90, a91, aa0, aa1, o1, o2, o3, o4, z1, z2, z3, z4, z5, bd⟩ := idx_proj t
  refine (proj_first_apply _ _ _ _ _ _ _ p d).trans ?_
  refine blkProj_eq_arr _ _ _ _ _ _ _ (V c main_v28) (V c main_v12) (V c main_v13) (V c main_v14) (V c main_v15) (V c main_v21) (V c main_v16) (rowOf t) ?_ ?_ ?_ ?_ ?_ ?_ ?_ p d
  · intro p cc
    show V c main_v28 (((cfg0.win 0).blk t).view.emb (ix2 p cc)) = V c main_v28 _
    refine congrArg _ (funext fun a => Fin.ext ?_)
    match a with
    | ⟨0, _⟩ => show win0_0.index t (0 : Fin 2) * 1024 + 1 * p.val = win0_11.index t (0 : Fin 2) * 1024 + p.val; omega
    | ⟨1, _⟩ => show win0_0.index t (1 : Fin 2) * 512 + 1 * cc.val = cc.val; omega
  · intro cc
    show V c main_v12 (((cfg0.win 1).blk t).view.emb (ix2 (0 : Fin 1) cc)) = V c main_v12 _
    refine congrArg _ (funext fun a => Fin.ext ?_)
    match a with
    | ⟨0, _⟩ => show win0_1.index t (0 : Fin 2) * 1 + 1 * 0 = 0; omega
    | ⟨1, _⟩ => show win0_1.index t (1 : Fin 2) * 512 + 1 * cc.val = cc.val; omega
  · intro cc
    show V c main_v13 (((cfg0.win 2).blk t).view.emb (ix2 (0 : Fin 1) cc)) = V c main_v13 _
    refine congrArg _ (funext fun a => Fin.ext ?_)
    match a with
    | ⟨0, _⟩ => show win0_2.index t (0 : Fin 2) * 1 + 1 * 0 = 0; omega
    | ⟨1, _⟩ => show win0_2.index t (1 : Fin 2) * 512 + 1 * cc.val = cc.val; omega
  · intro cc
    show V c main_v14 (((cfg0.win 3).blk t).view.emb (ix2 (0 : Fin 1) cc)) = V c main_v14 _
    refine congrArg _ (funext fun a => Fin.ext ?_)
    match a with
    | ⟨0, _⟩ => show win0_3.index t (0 : Fin 2) * 1 + 1 * 0 = 0; omega
    | ⟨1, _⟩ => show win0_3.index t (1 : Fin 2) * 512 + 1 * cc.val = cc.val; omega
  · intro cc
    show V c main_v15 (((cfg0.win 4).blk t).view.emb (ix2 (0 : Fin 1) cc)) = V c main_v15 _
    refine congrArg _ (funext fun a => Fin.ext ?_)
    match a with
    | ⟨0, _⟩ => show win0_4.index t (0 : Fin 2) * 1 + 1 * 0 = 0; omega
    | ⟨1, _⟩ => show win0_4.index t (1 : Fin 2) * 512 + 1 * cc.val = cc.val; omega
  · intro cc dd
    show V c main_v21 (((cfg0.win 5).blk t).view.emb (ix2 cc dd)) = V c main_v21 _
    refine congrArg _ (funext fun a => Fin.ext ?_)
    match a with
    | ⟨0, _⟩ => show win0_5.index t (0 : Fin 2) * 512 + 1 * cc.val = cc.val; omega
    | ⟨1, _⟩ => show win0_5.index t (1 : Fin 2) * 256 + 1 * dd.val = dd.val; omega
  · intro dd
    show V c main_v16 (((cfg0.win 6).blk t).view.emb (ix2 (0 : Fin 1) dd)) = V c main_v16 _
    refine congrArg _ (funext fun a => Fin.ext ?_)
    match a with
    | ⟨0, _⟩ => show win0_6.index t (0 : Fin 2) * 1 + 1 * 0 = 0; omega
    | ⟨1, _⟩ => show win0_6.index t (1 : Fin 2) * 256 + 1 * dd.val = dd.val; omega

/-- The second projection of point t's block, at (p, d), is the array formula at row t·1024 + p. -/
theorem blk_val_second (c : Dev nD) (t : Fin cfg0.N) (p : Fin 1024) (d : Fin 256) :
    k0_pay1 (F := Ideal) (k0_pay10 (iblk0 V c 0 t) (iblk0 V c 1 t) (iblk0 V c 2 t) (iblk0 V c 3 t) (iblk0 V c 4 t) (iblk0 V c 7 t)) (k0_pay11 (iblk0 V c 8 t)) (ix2 p d)
      = projArr (featArr (V c main_v28) (V c main_v12) (V c main_v13) (V c main_v14) (V c main_v15)) (V c main_v23) (V c main_v17) (rowOf t p) d := by
  obtain ⟨a00, a01, a10, a11, a20, a21, a30, a31, a40, a41, a50, a51, a60, a61, a70, a71, a80, a81, a90, a91, aa0, aa1, o1, o2, o3, o4, z1, z2, z3, z4, z5, bd⟩ := idx_proj t
  refine (proj_second_apply _ _ _ _ _ _ _ p d).trans ?_
  refine blkProj_eq_arr _ _ _ _ _ _ _ (V c main_v28) (V c main_v12) (V c main_v13) (V c main_v14) (V c main_v15) (V c main_v23) (V c main_v17) (rowOf t) ?_ ?_ ?_ ?_ ?_ ?_ ?_ p d
  · intro p cc
    show V c main_v28 (((cfg0.win 0).blk t).view.emb (ix2 p cc)) = V c main_v28 _
    refine congrArg _ (funext fun a => Fin.ext ?_)
    match a with
    | ⟨0, _⟩ => show win0_0.index t (0 : Fin 2) * 1024 + 1 * p.val = win0_11.index t (0 : Fin 2) * 1024 + p.val; omega
    | ⟨1, _⟩ => show win0_0.index t (1 : Fin 2) * 512 + 1 * cc.val = cc.val; omega
  · intro cc
    show V c main_v12 (((cfg0.win 1).blk t).view.emb (ix2 (0 : Fin 1) cc)) = V c main_v12 _
    refine congrArg _ (funext fun a => Fin.ext ?_)
    match a with
    | ⟨0, _⟩ => show win0_1.index t (0 : Fin 2) * 1 + 1 * 0 = 0; omega
    | ⟨1, _⟩ => show win0_1.index t (1 : Fin 2) * 512 + 1 * cc.val = cc.val; omega
  · intro cc
    show V c main_v13 (((cfg0.win 2).blk t).view.emb (ix2 (0 : Fin 1) cc)) = V c main_v13 _
    refine congrArg _ (funext fun a => Fin.ext ?_)
    match a with
    | ⟨0, _⟩ => show win0_2.index t (0 : Fin 2) * 1 + 1 * 0 = 0; omega
    | ⟨1, _⟩ => show win0_2.index t (1 : Fin 2) * 512 + 1 * cc.val = cc.val; omega
  · intro cc
    show V c main_v14 (((cfg0.win 3).blk t).view.emb (ix2 (0 : Fin 1) cc)) = V c main_v14 _
    refine congrArg _ (funext fun a => Fin.ext ?_)
    match a with
    | ⟨0, _⟩ => show win0_3.index t (0 : Fin 2) * 1 + 1 * 0 = 0; omega
    | ⟨1, _⟩ => show win0_3.index t (1 : Fin 2) * 512 + 1 * cc.val = cc.val; omega
  · intro cc
    show V c main_v15 (((cfg0.win 4).blk t).view.emb (ix2 (0 : Fin 1) cc)) = V c main_v15 _
    refine congrArg _ (funext fun a => Fin.ext ?_)
    match a with
    | ⟨0, _⟩ => show win0_4.index t (0 : Fin 2) * 1 + 1 * 0 = 0; omega
    | ⟨1, _⟩ => show win0_4.index t (1 : Fin 2) * 512 + 1 * cc.val = cc.val; omega
  · intro cc dd
    show V c main_v23 (((cfg0.win 7).blk t).view.emb (ix2 cc dd)) = V c main_v23 _
    refine congrArg _ (funext fun a => Fin.ext ?_)
    match a with
    | ⟨0, _⟩ => show win0_7.index t (0 : Fin 2) * 512 + 1 * cc.val = cc.val; omega
    | ⟨1, _⟩ => show win0_7.index t (1 : Fin 2) * 256 + 1 * dd.val = dd.val; omega
  · intro dd
    show V c main_v17 (((cfg0.win 8).blk t).view.emb (ix2 (0 : Fin 1) dd)) = V c main_v17 _
    refine congrArg _ (funext fun a => Fin.ext ?_)
    match a with
    | ⟨0, _⟩ => show win0_8.index t (0 : Fin 2) * 1 + 1 * 0 = 0; omega
    | ⟨1, _⟩ => show win0_8.index t (1 : Fin 2) * 256 + 1 * dd.val = dd.val; omega

/-- The third projection of point t's block, at (p, d), is the array formula at row t·1024 + p. -/
theorem blk_val_third (c : Dev nD) (t : Fin cfg0.N) (p : Fin 1024) (d : Fin 256) :
    k0_pay6 (F := Ideal) (k0_pay7 (iblk0 V c 0 t) (iblk0 V c 1 t) (iblk0 V c 2 t) (iblk0 V c 3 t) (iblk0 V c 4 t)) (k0_pay8 (iblk0 V c 9 t)) (iblk0 V c 10 t) (ix2 p d)
      = projArr (featArr (V c main_v28) (V c main_v12) (V c main_v13) (V c main_v14) (V c main_v15)) (V c main_v25) (V c main_v18) (rowOf t p) d := by
  obtain ⟨a00, a01, a10, a11, a20, a21, a30, a31, a40, a41, a50, a51, a60, a61, a70, a71, a80, a81, a90, a91, aa0, aa1, o1, o2, o3, o4, z1, z2, z3, z4, z5, bd⟩ := idx_proj t
  refine (proj_third_apply _ _ _ _ _ _ _ p d).trans ?_
  refine blkProj_eq_arr _ _ _ _ _ _ _ (V c main_v28) (V c main_v12) (V c main_v13) (V c main_v14) (V c main_v15) (V c main_v25) (V c main_v18) (rowOf t) ?_ ?_ ?_ ?_ ?_ ?_ ?_ p d
  · intro p cc
    show V c main_v28 (((cfg0.win 0).blk t).view.emb (ix2 p cc)) = V c main_v28 _
    refine congrArg _ (funext fun a => Fin.ext ?_)
    match a with
    | ⟨0, _⟩ => show win0_0.index t (0 : Fin 2) * 1024 + 1 * p.val = win0_11.index t (0 : Fin 2) * 1024 + p.val; omega
    | ⟨1, _⟩ => show win0_0.index t (1 : Fin 2) * 512 + 1 * cc.val = cc.val; omega
  · intro cc
    show V c main_v12 (((cfg0.win 1).blk t).view.emb (ix2 (0 : Fin 1) cc)) = V c main_v12 _
    refine congrArg _ (funext fun a => Fin.ext ?_)
    match a with
    | ⟨0, _⟩ => show win0_1.index t (0 : Fin 2) * 1 + 1 * 0 = 0; omega
    | ⟨1, _⟩ => show win0_1.index t (1 : Fin 2) * 512 + 1 * cc.val = cc.val; omega
  · intro cc
    show V c main_v13 (((cfg0.win 2).blk t).view.emb (ix2 (0 : Fin 1) cc)) = V c main_v13 _
    refine congrArg _ (funext fun a => Fin.ext ?_)
    match a with
    | ⟨0, _⟩ => show win0_2.index t (0 : Fin 2) * 1 + 1 * 0 = 0; omega
    | ⟨1, _⟩ => show win0_2.index t (1 : Fin 2) * 512 + 1 * cc.val = cc.val; omega
  · intro cc
    show V c main_v14 (((cfg0.win 3).blk t).view.emb (ix2 (0 : Fin 1) cc)) = V c main_v14 _
    refine congrArg _ (funext fun a => Fin.ext ?_)
    match a with
    | ⟨0, _⟩ => show win0_3.index t (0 : Fin 2) * 1 + 1 * 0 = 0; omega
    | ⟨1, _⟩ => show win0_3.index t (1 : Fin 2) * 512 + 1 * cc.val = cc.val; omega
  · intro cc
    show V c main_v15 (((cfg0.win 4).blk t).view.emb (ix2 (0 : Fin 1) cc)) = V c main_v15 _
    refine congrArg _ (funext fun a => Fin.ext ?_)
    match a with
    | ⟨0, _⟩ => show win0_4.index t (0 : Fin 2) * 1 + 1 * 0 = 0; omega
    | ⟨1, _⟩ => show win0_4.index t (1 : Fin 2) * 512 + 1 * cc.val = cc.val; omega
  · intro cc dd
    show V c main_v25 (((cfg0.win 9).blk t).view.emb (ix2 cc dd)) = V c main_v25 _
    refine congrArg _ (funext fun a => Fin.ext ?_)
    match a with
    | ⟨0, _⟩ => show win0_9.index t (0 : Fin 2) * 512 + 1 * cc.val = cc.val; omega
    | ⟨1, _⟩ => show win0_9.index t (1 : Fin 2) * 256 + 1 * dd.val = dd.val; omega
  · intro dd
    show V c main_v18 (((cfg0.win 10).blk t).view.emb (ix2 (0 : Fin 1) dd)) = V c main_v18 _
    refine congrArg _ (funext fun a => Fin.ext ?_)
    match a with
    | ⟨0, _⟩ => show win0_10.index t (0 : Fin 2) * 1 + 1 * 0 = 0; omega
    | ⟨1, _⟩ => show win0_10.index t (1 : Fin 2) * 256 + 1 * dd.val = dd.val; omega

/-- The whole-array function output 1 ends at. -/
def projG11 (c : Dev nD) : S16384x256.Idx → EReal := fun i =>
  projArr (featArr (V c main_v28) (V c main_v12) (V c main_v13) (V c main_v14) (V c main_v15)) (V c main_v21) (V c main_v16) (i 0) (i 1)

/-- What point t writes back to output 1 is block t of that function. -/
theorem proj_flushed11 (c : Dev nD) (t : Fin cfg0.N) :
    (dat0 V c).flushed 11 t = ((cfg0.win 11).blk t).view.read (Elt Ideal) (projG11 V c) := by
  show (cfg0.win 11).cut (grid0.coords t) ((dat0 V c).after 11 t) = _
  rw [after0_11]
  unfold out0_11
  rw [View.canon_unit_zero hzP]
  simp only [View.ld_unit_zero (S := S1024x512) hzP, View.ld_unit_zero (S := S1x512) hzP,
    View.ld_unit_zero (S := S512x256) hzP, View.ld_unit_zero (S := S1x256) hzP]
  obtain ⟨a00, a01, a10, a11, a20, a21, a30, a31, a40, a41, a50, a51, a60, a61, a70, a71, a80, a81, a90, a91, aa0, aa1, o1, o2, o3, o4, z1, z2, z3, z4, z5, bd⟩ := idx_proj t
  funext j
  obtain ⟨p, d, rfl⟩ : ∃ (p : Fin 1024) (d : Fin 256), j = ix2 p d := ⟨j 0, j 1, eq_ix2 j⟩
  have e11 : ((cfg0.win 11).blk t).view.emb (ix2 p d) = ix2 (rowOf t p) d := by
    funext a; apply Fin.ext
    match a with
    | ⟨0, _⟩ => show win0_11.index t (0 : Fin 2) * 1024 + 1 * p.val = win0_11.index t (0 : Fin 2) * 1024 + p.val; omega
    | ⟨1, _⟩ => show win0_11.index t (1 : Fin 2) * 256 + 1 * d.val = d.val; omega
  show _ = projG11 V c (((cfg0.win 11).blk t).view.emb (ix2 p d))
  rw [e11]
  unfold projG11
  refine (hi_apply _ _).trans ?_
  exact blk_val_first V c t p d

theorem mem_blk_proj11 (t : Fin cfg0.N) (i : S16384x256.Idx) :
    i ∈ ((cfg0.win 11).blk t).view.set ↔ ∀ a : Fin 2, win0_11.index t a * S1024x256.size a ≤ (i a).val ∧ (i a).val < win0_11.index t a * S1024x256.size a + S1024x256.size a := by
  show i ∈ ((View.whole main_v29_0).slice (win0_11.rect t)).set ↔ _
  rw [View.set_slice_whole, Rect.mem_set_unit]
  exact Iff.rfl

theorem proj_cover11 (i : S16384x256.Idx) : ∃ t : Fin cfg0.N, (cfg0.win 11).flush t = true ∧ i ∈ ((cfg0.win 11).blk t).view.set := by
  have hi0 : (i 0).val < 16384 := (i 0).isLt
  have hi1 : (i 1).val < 256 := (i 1).isLt
  obtain ⟨t, ht⟩ := idx_proj_onto ⟨(i 0).val / 1024, by omega⟩
  obtain ⟨a00, a01, a10, a11, a20, a21, a30, a31, a40, a41, a50, a51, a60, a61, a70, a71, a80, a81, a90, a91, aa0, aa1, o1, o2, o3, o4, z1, z2, z3, z4, z5, bd⟩ := idx_proj t
  have ht' : win0_11.index t (0 : Fin 2) = (i 0).val / 1024 := ht
  refine ⟨t, flush0_11 t, ?_⟩
  rw [mem_blk_proj11]
  intro a
  match a with
  | ⟨0, _⟩ => show win0_11.index t (0 : Fin 2) * 1024 ≤ (i 0).val ∧ (i 0).val < win0_11.index t (0 : Fin 2) * 1024 + 1024; omega
  | ⟨1, _⟩ => show win0_11.index t (1 : Fin 2) * 256 ≤ (i 1).val ∧ (i 1).val < win0_11.index t (1 : Fin 2) * 256 + 256; omega

/-- Output 1 after the region. -/
theorem proj_final11 (c : Dev nD) : (dat0 V c).arrAt 11 cfg0.N = projG11 V c :=
  (dat0 V c).arrAt_eq_of_cover 11 (projG11 V c) (fun t _ => proj_flushed11 V c t) proj_cover11

/-- The whole-array function output 2 ends at. -/
def projG12 (c : Dev nD) : S16384x256.Idx → EReal := fun i =>
  projArr (featArr (V c main_v28) (V c main_v12) (V c main_v13) (V c main_v14) (V c main_v15)) (V c main_v21) (V c main_v16) (i 0) (i 1) - projArr (featArr (V c main_v28) (V c main_v12) (V c main_v13) (V c main_v14) (V c main_v15)) (V c main_v21) (V c main_v16) (i 0) (i 1)

/-- What point t writes back to output 2 is block t of that function. -/
theorem proj_flushed12 (c : Dev nD) (t : Fin cfg0.N) :
    (dat0 V c).flushed 12 t = ((cfg0.win 12).blk t).view.read (Elt Ideal) (projG12 V c) := by
  show (cfg0.win 12).cut (grid0.coords t) ((dat0 V c).after 12 t) = _
  rw [after0_12]
  unfold out0_12
  rw [View.canon_unit_zero hzP]
  simp only [View.ld_unit_zero (S := S1024x512) hzP, View.ld_unit_zero (S := S1x512) hzP,
    View.ld_unit_zero (S := S512x256) hzP, View.ld_unit_zero (S := S1x256) hzP]
  obtain ⟨a00, a01, a10, a11, a20, a21, a30, a31, a40, a41, a50, a51, a60, a61, a70, a71, a80, a81, a90, a91, aa0, aa1, o1, o2, o3, o4, z1, z2, z3, z4, z5, bd⟩ := idx_proj t
  funext j
  obtain ⟨p, d, rfl⟩ : ∃ (p : Fin 1024) (d : Fin 256), j = ix2 p d := ⟨j 0, j 1, eq_ix2 j⟩
  have e12 : ((cfg0.win 12).blk t).view.emb (ix2 p d) = ix2 (rowOf t p) d := by
    funext a; apply Fin.ext
    match a with
    | ⟨0, _⟩ => show win0_12.index t (0 : Fin 2) * 1024 + 1 * p.val = win0_11.index t (0 : Fin 2) * 1024 + p.val; omega
    | ⟨1, _⟩ => show win0_12.index t (1 : Fin 2) * 256 + 1 * d.val = d.val; omega
  show _ = projG12 V c (((cfg0.win 12).blk t).view.emb (ix2 p d))
  rw [e12]
  unfold projG12
  refine (lo_apply _ _).trans ?_
  exact congrArg₂ (fun a b : EReal => a - b) (blk_val_first V c t p d) (blk_val_first V c t p d)

theorem mem_blk_proj12 (t : Fin cfg0.N) (i : S16384x256.Idx) :
    i ∈ ((cfg0.win 12).blk t).view.set ↔ ∀ a : Fin 2, win0_12.index t a * S1024x256.size a ≤ (i a).val ∧ (i a).val < win0_12.index t a * S1024x256.size a + S1024x256.size a := by
  show i ∈ ((View.whole main_v29_1).slice (win0_12.rect t)).set ↔ _
  rw [View.set_slice_whole, Rect.mem_set_unit]
  exact Iff.rfl

theorem proj_cover12 (i : S16384x256.Idx) : ∃ t : Fin cfg0.N, (cfg0.win 12).flush t = true ∧ i ∈ ((cfg0.win 12).blk t).view.set := by
  have hi0 : (i 0).val < 16384 := (i 0).isLt
  have hi1 : (i 1).val < 256 := (i 1).isLt
  obtain ⟨t, ht⟩ := idx_proj_onto ⟨(i 0).val / 1024, by omega⟩
  obtain ⟨a00, a01, a10, a11, a20, a21, a30, a31, a40, a41, a50, a51, a60, a61, a70, a71, a80, a81, a90, a91, aa0, aa1, o1, o2, o3, o4, z1, z2, z3, z4, z5, bd⟩ := idx_proj t
  have ht' : win0_11.index t (0 : Fin 2) = (i 0).val / 1024 := ht
  refine ⟨t, flush0_12 t, ?_⟩
  rw [mem_blk_proj12]
  intro a
  match a with
  | ⟨0, _⟩ => show win0_12.index t (0 : Fin 2) * 1024 ≤ (i 0).val ∧ (i 0).val < win0_12.index t (0 : Fin 2) * 1024 + 1024; omega
  | ⟨1, _⟩ => show win0_12.index t (1 : Fin 2) * 256 ≤ (i 1).val ∧ (i 1).val < win0_12.index t (1 : Fin 2) * 256 + 256; omega

/-- Output 2 after the region. -/
theorem proj_final12 (c : Dev nD) : (dat0 V c).arrAt 12 cfg0.N = projG12 V c :=
  (dat0 V c).arrAt_eq_of_cover 12 (projG12 V c) (fun t _ => proj_flushed12 V c t) proj_cover12

/-- The whole-array function output 3 ends at. -/
def projG13 (c : Dev nD) : S16384x256.Idx → EReal := fun i =>
  projArr (featArr (V c main_v28) (V c main_v12) (V c main_v13) (V c main_v14) (V c main_v15)) (V c main_v23) (V c main_v17) (i 0) (i 1)

/-- What point t writes back to output 3 is block t of that function. -/
theorem proj_flushed13 (c : Dev nD) (t : Fin cfg0.N) :
    (dat0 V c).flushed 13 t = ((cfg0.win 13).blk t).view.read (Elt Ideal) (projG13 V c) := by
  show (cfg0.win 13).cut (grid0.coords t) ((dat0 V c).after 13 t) = _
  rw [after0_13]
  unfold out0_13
  rw [View.canon_unit_zero hzP]
  simp only [View.ld_unit_zero (S := S1024x512) hzP, View.ld_unit_zero (S := S1x512) hzP,
    View.ld_unit_zero (S := S512x256) hzP, View.ld_unit_zero (S := S1x256) hzP]
  obtain ⟨a00, a01, a10, a11, a20, a21, a30, a31, a40, a41, a50, a51, a60, a61, a70, a71, a80, a81, a90, a91, aa0, aa1, o1, o2, o3, o4, z1, z2, z3, z4, z5, bd⟩ := idx_proj t
  funext j
  obtain ⟨p, d, rfl⟩ : ∃ (p : Fin 1024) (d : Fin 256), j = ix2 p d := ⟨j 0, j 1, eq_ix2 j⟩
  have e13 : ((cfg0.win 13).blk t).view.emb (ix2 p d) = ix2 (rowOf t p) d := by
    funext a; apply Fin.ext
    match a with
    | ⟨0, _⟩ => show win0_13.index t (0 : Fin 2) * 1024 + 1 * p.val = win0_11.index t (0 : Fin 2) * 1024 + p.val; omega
    | ⟨1, _⟩ => show win0_13.index t (1 : Fin 2) * 256 + 1 * d.val = d.val; omega
  show _ = projG13 V c (((cfg0.win 13).blk t).view.emb (ix2 p d))
  rw [e13]
  unfold projG13
  refine (hi2_apply _ _ _).trans ?_
  exact blk_val_second V c t p d

theorem mem_blk_proj13 (t : Fin cfg0.N) (i : S16384x256.Idx) :
    i ∈ ((cfg0.win 13).blk t).view.set ↔ ∀ a : Fin 2, win0_13.index t a * S1024x256.size a ≤ (i a).val ∧ (i a).val < win0_13.index t a * S1024x256.size a + S1024x256.size a := by
  show i ∈ ((View.whole main_v29_2).slice (win0_13.rect t)).set ↔ _
  rw [View.set_slice_whole, Rect.mem_set_unit]
  exact Iff.rfl

theorem proj_cover13 (i : S16384x256.Idx) : ∃ t : Fin cfg0.N, (cfg0.win 13).flush t = true ∧ i ∈ ((cfg0.win 13).blk t).view.set := by
  have hi0 : (i 0).val < 16384 := (i 0).isLt
  have hi1 : (i 1).val < 256 := (i 1).isLt
  obtain ⟨t, ht⟩ := idx_proj_onto ⟨(i 0).val / 1024, by omega⟩
  obtain ⟨a00, a01, a10, a11, a20, a21, a30, a31, a40, a41, a50, a51, a60, a61, a70, a71, a80, a81, a90, a91, aa0, aa1, o1, o2, o3, o4, z1, z2, z3, z4, z5, bd⟩ := idx_proj t
  have ht' : win0_11.index t (0 : Fin 2) = (i 0).val / 1024 := ht
  refine ⟨t, flush0_13 t, ?_⟩
  rw [mem_blk_proj13]
  intro a
  match a with
  | ⟨0, _⟩ => show win0_13.index t (0 : Fin 2) * 1024 ≤ (i 0).val ∧ (i 0).val < win0_13.index t (0 : Fin 2) * 1024 + 1024; omega
  | ⟨1, _⟩ => show win0_13.index t (1 : Fin 2) * 256 ≤ (i 1).val ∧ (i 1).val < win0_13.index t (1 : Fin 2) * 256 + 256; omega

/-- Output 3 after the region. -/
theorem proj_final13 (c : Dev nD) : (dat0 V c).arrAt 13 cfg0.N = projG13 V c :=
  (dat0 V c).arrAt_eq_of_cover 13 (projG13 V c) (fun t _ => proj_flushed13 V c t) proj_cover13

/-- The whole-array function output 4 ends at. -/
def projG14 (c : Dev nD) : S16384x256.Idx → EReal := fun i =>
  projArr (featArr (V c main_v28) (V c main_v12) (V c main_v13) (V c main_v14) (V c main_v15)) (V c main_v23) (V c main_v17) (i 0) (i 1) - projArr (featArr (V c main_v28) (V c main_v12) (V c main_v13) (V c main_v14) (V c main_v15)) (V c main_v23) (V c main_v17) (i 0) (i 1)

/-- What point t writes back to output 4 is block t of that function. -/
theorem proj_flushed14 (c : Dev nD) (t : Fin cfg0.N) :
    (dat0 V c).flushed 14 t = ((cfg0.win 14).blk t).view.read (Elt Ideal) (projG14 V c) := by
  show (cfg0.win 14).cut (grid0.coords t) ((dat0 V c).after 14 t) = _
  rw [after0_14]
  unfold out0_14
  rw [View.canon_unit_zero hzP]
  simp only [View.ld_unit_zero (S := S1024x512) hzP, View.ld_unit_zero (S := S1x512) hzP,
    View.ld_unit_zero (S := S512x256) hzP, View.ld_unit_zero (S := S1x256) hzP]
  obtain ⟨a00, a01, a10, a11, a20, a21, a30, a31, a40, a41, a50, a51, a60, a61, a70, a71, a80, a81, a90, a91, aa0, aa1, o1, o2, o3, o4, z1, z2, z3, z4, z5, bd⟩ := idx_proj t
  funext j
  obtain ⟨p, d, rfl⟩ : ∃ (p : Fin 1024) (d : Fin 256), j = ix2 p d := ⟨j 0, j 1, eq_ix2 j⟩
  have e14 : ((cfg0.win 14).blk t).view.emb (ix2 p d) = ix2 (rowOf t p) d := by
    funext a; apply Fin.ext
    match a with
    | ⟨0, _⟩ => show win0_14.index t (0 : Fin 2) * 1024 + 1 * p.val = win0_11.index t (0 : Fin 2) * 1024 + p.val; omega
    | ⟨1, _⟩ => show win0_14.index t (1 : Fin 2) * 256 + 1 * d.val = d.val; omega
  show _ = projG14 V c (((cfg0.win 14).blk t).view.emb (ix2 p d))
  rw [e14]
  unfold projG14
  refine (lo2_apply _ _ _).trans ?_
  exact congrArg₂ (fun a b : EReal => a - b) (blk_val_second V c t p d) (blk_val_second V c t p d)

theorem mem_blk_proj14 (t : Fin cfg0.N) (i : S16384x256.Idx) :
    i ∈ ((cfg0.win 14).blk t).view.set ↔ ∀ a : Fin 2, win0_14.index t a * S1024x256.size a ≤ (i a).val ∧ (i a).val < win0_14.index t a * S1024x256.size a + S1024x256.size a := by
  show i ∈ ((View.whole main_v29_3).slice (win0_14.rect t)).set ↔ _
  rw [View.set_slice_whole, Rect.mem_set_unit]
  exact Iff.rfl

theorem proj_cover14 (i : S16384x256.Idx) : ∃ t : Fin cfg0.N, (cfg0.win 14).flush t = true ∧ i ∈ ((cfg0.win 14).blk t).view.set := by
  have hi0 : (i 0).val < 16384 := (i 0).isLt
  have hi1 : (i 1).val < 256 := (i 1).isLt
  obtain ⟨t, ht⟩ := idx_proj_onto ⟨(i 0).val / 1024, by omega⟩
  obtain ⟨a00, a01, a10, a11, a20, a21, a30, a31, a40, a41, a50, a51, a60, a61, a70, a71, a80, a81, a90, a91, aa0, aa1, o1, o2, o3, o4, z1, z2, z3, z4, z5, bd⟩ := idx_proj t
  have ht' : win0_11.index t (0 : Fin 2) = (i 0).val / 1024 := ht
  refine ⟨t, flush0_14 t, ?_⟩
  rw [mem_blk_proj14]
  intro a
  match a with
  | ⟨0, _⟩ => show win0_14.index t (0 : Fin 2) * 1024 ≤ (i 0).val ∧ (i 0).val < win0_14.index t (0 : Fin 2) * 1024 + 1024; omega
  | ⟨1, _⟩ => show win0_14.index t (1 : Fin 2) * 256 ≤ (i 1).val ∧ (i 1).val < win0_14.index t (1 : Fin 2) * 256 + 256; omega

/-- Output 4 after the region. -/
theorem proj_final14 (c : Dev nD) : (dat0 V c).arrAt 14 cfg0.N = projG14 V c :=
  (dat0 V c).arrAt_eq_of_cover 14 (projG14 V c) (fun t _ => proj_flushed14 V c t) proj_cover14

/-- The whole-array function output 5 ends at. -/
def projG15 (c : Dev nD) : S16384x256.Idx → EReal := fun i =>
  projArr (featArr (V c main_v28) (V c main_v12) (V c main_v13) (V c main_v14) (V c main_v15)) (V c main_v25) (V c main_v18) (i 0) (i 1)

/-- What point t writes back to output 5 is block t of that function. -/
theorem proj_flushed15 (c : Dev nD) (t : Fin cfg0.N) :
    (dat0 V c).flushed 15 t = ((cfg0.win 15).blk t).view.read (Elt Ideal) (projG15 V c) := by
  show (cfg0.win 15).cut (grid0.coords t) ((dat0 V c).after 15 t) = _
  rw [after0_15]
  unfold out0_15
  rw [View.canon_unit_zero hzP]
  simp only [View.ld_unit_zero (S := S1024x512) hzP, View.ld_unit_zero (S := S1x512) hzP,
    View.ld_unit_zero (S := S512x256) hzP, View.ld_unit_zero (S := S1x256) hzP]
  obtain ⟨a00, a01, a10, a11, a20, a21, a30, a31, a40, a41, a50, a51, a60, a61, a70, a71, a80, a81, a90, a91, aa0, aa1, o1, o2, o3, o4, z1, z2, z3, z4, z5, bd⟩ := idx_proj t
  funext j
  obtain ⟨p, d, rfl⟩ : ∃ (p : Fin 1024) (d : Fin 256), j = ix2 p d := ⟨j 0, j 1, eq_ix2 j⟩
  have e15 : ((cfg0.win 15).blk t).view.emb (ix2 p d) = ix2 (rowOf t p) d := by
    funext a; apply Fin.ext
    match a with
    | ⟨0, _⟩ => show win0_15.index t (0 : Fin 2) * 1024 + 1 * p.val = win0_11.index t (0 : Fin 2) * 1024 + p.val; omega
    | ⟨1, _⟩ => show win0_15.index t (1 : Fin 2) * 256 + 1 * d.val = d.val; omega
  show _ = projG15 V c (((cfg0.win 15).blk t).view.emb (ix2 p d))
  rw [e15]
  unfold projG15
  exact blk_val_third V c t p d

theorem mem_blk_proj15 (t : Fin cfg0.N) (i : S16384x256.Idx) :
    i ∈ ((cfg0.win 15).blk t).view.set ↔ ∀ a : Fin 2, win0_15.index t a * S1024x256.size a ≤ (i a).val ∧ (i a).val < win0_15.index t a * S1024x256.size a + S1024x256.size a := by
  show i ∈ ((View.whole main_v29_4).slice (win0_15.rect t)).set ↔ _
  rw [View.set_slice_whole, Rect.mem_set_unit]
  exact Iff.rfl

theorem proj_cover15 (i : S16384x256.Idx) : ∃ t : Fin cfg0.N, (cfg0.win 15).flush t = true ∧ i ∈ ((cfg0.win 15).blk t).view.set := by
  have hi0 : (i 0).val < 16384 := (i 0).isLt
  have hi1 : (i 1).val < 256 := (i 1).isLt
  obtain ⟨t, ht⟩ := idx_proj_onto ⟨(i 0).val / 1024, by omega⟩
  obtain ⟨a00, a01, a10, a11, a20, a21, a30, a31, a40, a41, a50, a51, a60, a61, a70, a71, a80, a81, a90, a91, aa0, aa1, o1, o2, o3, o4, z1, z2, z3, z4, z5, bd⟩ := idx_proj t
  have ht' : win0_11.index t (0 : Fin 2) = (i 0).val / 1024 := ht
  refine ⟨t, flush0_15 t, ?_⟩
  rw [mem_blk_proj15]
  intro a
  match a with
  | ⟨0, _⟩ => show win0_15.index t (0 : Fin 2) * 1024 ≤ (i 0).val ∧ (i 0).val < win0_15.index t (0 : Fin 2) * 1024 + 1024; omega
  | ⟨1, _⟩ => show win0_15.index t (1 : Fin 2) * 256 ≤ (i 1).val ∧ (i 1).val < win0_15.index t (1 : Fin 2) * 256 + 256; omega

/-- Output 5 after the region. -/
theorem proj_final15 (c : Dev nD) : (dat0 V c).arrAt 15 cfg0.N = projG15 V c :=
  (dat0 V c).arrAt_eq_of_cover 15 (projG15 V c) (fun t _ => proj_flushed15 V c t) proj_cover15

end Cert.KernelIdeal.Hand

end
-- ==== Proof.LibSumTwoAxes.lean ====
/-
  A sum over the two leading axes of a rank-3 array, read at a coordinate of the remaining axis: the host's float sum
  over axes 0 and 1 of an n0 × n1 × n2 array into a length-n2 array, at position c, is the initial value plus the double
  sum over the two leading coordinates of the entries at (a, b, c).
-/
import Idealize.ShloMosaic.PureOps.Ideal
import Idealize.ShloMosaic.PureOps.Ideal.Laws
import Idealize.ShloMosaic.Lib.ValueIdx

noncomputable section

open scoped BigOperators

namespace Cert.LibSumTwoAxes

open Idealize.ShloMosaic Idealize.ShloMosaic.ValueIdx

/-- Dropping axes 0 and 1 of a rank-3 index leaves its coordinate on axis 2. -/
theorem drop_eq_ix1_iff {n0 n1 n2 : Nat} (h : (⟨3, ![n0, n1, n2]⟩ : Shape).ReducesTo [0, 1] ⟨1, ![n2]⟩)
    (i : (⟨3, ![n0, n1, n2]⟩ : Shape).Idx) (c : Fin n2) : h.drop i = ix1 c ↔ i 2 = c := by
  have hv : (h.drop i 0 : Nat) = i 2 := rfl
  constructor
  · intro e
    apply Fin.ext
    rw [← hv, e]
    rfl
  · intro e
    funext d
    match d with
    | ⟨0, _⟩ =>
      apply Fin.ext
      show (h.drop i 0 : Nat) = (c : Nat)
      rw [hv, e]

/-- The sum over axes 0 and 1 of a rank-3 array, at coordinate `c` of axis 2, is the initial value plus the double sum
    over the two leading coordinates. -/
theorem hostReduceAdd_axes01 {n0 n1 n2 : Nat} (h : (⟨3, ![n0, n1, n2]⟩ : Shape).ReducesTo [0, 1] ⟨1, ![n2]⟩)
    (x : (⟨3, ![n0, n1, n2]⟩ : Shape).Idx → EReal) (init : EReal) (c : Fin n2) :
    Ideal.hostReduceAdd h x init (ix1 c) = init + ∑ a : Fin n0, ∑ b : Fin n1, x (ix3 a b c) := by
  unfold Ideal.hostReduceAdd
  congr 1
  rw [← Finset.sum_product']
  refine Finset.sum_nbij' (fun i => ((i 0 : Fin n0), (i 1 : Fin n1))) (fun p => ix3 p.1 p.2 c) ?_ ?_ ?_ ?_ ?_
  · intro i _
    exact Finset.mem_product.mpr ⟨Finset.mem_univ _, Finset.mem_univ _⟩
  · intro p _
    rw [Finset.mem_filter]
    exact ⟨Finset.mem_univ _, (drop_eq_ix1_iff h _ c).mpr rfl⟩
  · intro i hi
    rw [Finset.mem_filter] at hi
    have e : i 2 = c := (drop_eq_ix1_iff h i c).mp hi.2
    funext d
    match d with
    | ⟨0, _⟩ => rfl
    | ⟨1, _⟩ => rfl
    | ⟨2, _⟩ => exact e.symm
  · intro p _
    rfl
  · intro i hi
    rw [Finset.mem_filter] at hi
    have e : i 2 = c := (drop_eq_ix1_iff h i c).mp hi.2
    congr 1
    funext d
    match d with
    | ⟨0, _⟩ => rfl
    | ⟨1, _⟩ => rfl
    | ⟨2, _⟩ => exact e

/-- The same for the generic float sum, at the ideal values. -/
theorem floatOps_hostReduceAdd_axes01 {φ : FTy} {n0 n1 n2 : Nat}
    (h : (⟨3, ![n0, n1, n2]⟩ : Shape).ReducesTo [0, 1] ⟨1, ![n2]⟩) (sched : HostSchedule)
    (x : FVec Ideal ⟨3, ![n0, n1, n2]⟩ φ) (init : Ideal φ) (c : Fin n2) :
    FloatOps.hostReduceAdd [0, 1] h sched x init (ix1 c) = init + ∑ a : Fin n0, ∑ b : Fin n1, x (ix3 a b c) := by
  rw [Ideal.hostReduceAdd_def]
  exact hostReduceAdd_axes01 h x init c

end Cert.LibSumTwoAxes

end
-- ==== Proof.KerHost.lean ====
/-
  The idealized kernel's result array as a function of the launch memory.

  Before the first region the host computes, per channel, the mean μ = (Σ_{b,n} x)/16384 and the reciprocal deviation
  ((Σ_{b,n} x²)/16384 − μ² + ε)^(−1/2), reshapes x to 16384 × 512 and the per-channel vectors to 1 × 512 and 1 × 256,
  and transposes the four weight matrices. Between the regions it reshapes the five 16384 × 256 arrays to
  4 × 4096 × 256. Row b·4096 + n of a flattened array is entry (b, n) of the unflattened one. Composing the two regions'
  array functions through these operations gives the spec's second side at every index.
-/
import proofs.«133864_j7310034337850_2_alg».proof.Proof.KerAttnArr
import proofs.«133864_j7310034337850_2_alg».proof.Proof.KerProjArr
import proofs.«133864_j7310034337850_2_alg».proof.Proof.LibSumTwoAxes
import Idealize.ShloMosaic.Lib.StableHlo.Run
import Idealize.ShloMosaic.Lib.ValueLayout

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx
open Idealize.ShloMosaic.StableHlo Idealize.SL.Sem Cert.NonLocal

/-! ## Flattening the batch and position axes -/

/-- The flattened row b·4096 + n. -/
def flat (b : Fin 4) (n : Fin 4096) : Fin 16384 := ⟨b.val * 4096 + n.val, by have := b.isLt; have := n.isLt; omega⟩

/-- A 16384 × k array viewed as 4 × 4096 × k reads, at (b, n, d), row b·4096 + n. -/
theorem unflat_apply {α : Type} {k : ℕ} (x : (⟨2, ![16384, k]⟩ : Shape).Idx → α)
    (h : (⟨2, ![16384, k]⟩ : Shape).ShapeCasts ⟨3, ![4, 4096, k]⟩) (b : Fin 4) (n : Fin 4096) (d : Fin k) :
    shapeCast ⟨3, ![4, 4096, k]⟩ x h (ix3 b n d) = x (ix2 (flat b n) d) :=
  shapeCast_apply x h _ _ (by rw [Shape.rowMajor_val_three, Shape.rowMajor_val_two]; rfl)

/-- A 4 × 4096 × k array viewed as 16384 × k reads, at row b·4096 + n, entry (b, n). -/
theorem flat_apply {α : Type} {k : ℕ} (x : (⟨3, ![4, 4096, k]⟩ : Shape).Idx → α)
    (h : (⟨3, ![4, 4096, k]⟩ : Shape).ShapeCasts ⟨2, ![16384, k]⟩) (b : Fin 4) (n : Fin 4096) (d : Fin k) :
    shapeCast ⟨2, ![16384, k]⟩ x h (ix2 (flat b n) d) = x (ix3 b n d) :=
  shapeCast_apply x h _ _ (by rw [Shape.rowMajor_val_two, Shape.rowMajor_val_three]; rfl)

/-! ## The statistics the host computes -/

/-- The host's sum over batch and position from zero, per channel. -/
theorem sumBN_apply (Y : FVec Ideal S4x4096x512 .f32) (cc : Fin 512) :
    Host.reduceAdd (F := Ideal) Y (constant (F := Ideal) S_ .f32 0x00000000#32) reducesTo_S4x4096x512_S512_d0_1 h_S_ (ix1 cc)
      = sum2 (fun b n => Y (ix3 b n cc)) := by
  refine (Cert.LibSumTwoAxes.hostReduceAdd_axes01 (n0 := 4) (n1 := 4096) (n2 := 512) reducesTo_S4x4096x512_S512_d0_1 Y _ cc).trans ?_
  rw [show (constant (F := Ideal) S_ .f32 0x00000000#32) (Shape.Idx.first h_S_) = (0 : EReal) from Ideal.ofBits_zero_f32, zero_add]
  rfl

/-- The mean vector as the host computes it. -/
def meanVec (X : FVec Ideal S4x4096x512 .f32) : FVec Ideal S512 .f32 :=
  Host.divf (F := Ideal) (Host.reduceAdd (F := Ideal) X (constant (F := Ideal) S_ .f32 0x00000000#32) reducesTo_S4x4096x512_S512_d0_1 h_S_)
    (broadcastInDim S512 ![] bcast_S_S512 (constant (F := Ideal) S_ .f32 0x46800000#32))

/-- The reciprocal deviation vector as the host computes it. -/
def rstdVec (X : FVec Ideal S4x4096x512 .f32) : FVec Ideal S512 .f32 :=
  Host.rsqrt (F := Ideal) (addf
    (subf
      (Host.divf (F := Ideal) (Host.reduceAdd (F := Ideal) (mulf X X) (constant (F := Ideal) S_ .f32 0x00000000#32) reducesTo_S4x4096x512_S512_d0_1 h_S_)
        (broadcastInDim S512 ![] bcast_S_S512 (constant (F := Ideal) S_ .f32 0x46800000#32)))
      (mulf (meanVec X) (meanVec X)))
    (broadcastInDim S512 ![] bcast_S_S512 (constant (F := Ideal) S_ .f32 0x3727C5AC#32)))

theorem meanVec_apply (X : FVec Ideal S4x4096x512 .f32) (cc : Fin 512) :
    meanVec X (ix1 cc) = mean (fun b n c => X (ix3 b n c)) cc := by
  unfold meanVec mean
  show Ideal.div _ _ = Ideal.div _ _
  exact congrArg (fun z => Ideal.div z nE) (sumBN_apply X cc)

theorem rstdVec_apply (X : FVec Ideal S4x4096x512 .f32) (cc : Fin 512) :
    rstdVec X (ix1 cc) = rstd (varSq (fun b n c => X (ix3 b n c))) cc := by
  unfold rstdVec rstd varSq
  show Ideal.rsqrt ((Ideal.div _ _ - meanVec X (ix1 cc) * meanVec X (ix1 cc)) + _) = Ideal.rsqrt ((Ideal.div _ _ - _ * _) + _)
  rw [meanVec_apply]
  exact congrArg (fun z => Ideal.rsqrt ((Ideal.div z nE - mean (fun b n c => X (ix3 b n c)) cc * mean (fun b n c => X (ix3 b n c)) cc) + epsE))
    (sumBN_apply (mulf X X) cc)

variable (m : (ℓ : Loc nD τ sig) → Buf (Elt Ideal) ℓ) (ρ : Dev nD → PrngReg)

/-! ## The arrays the first region finds -/

theorem V1_v28 (c : Dev nD) : (V1 m ρ c main_v28 : S16384x512.Idx → EReal)
    = shapeCast S16384x512 (m ((c : Thread nD τ).loc main_arg0)) shapeCasts_S4x4096x512_S16384x512 := by
  show StableHlo.after hostOps0 (W0 m ρ c) (Proc.devRef .tc main_v28) = _
  after_results <;> rfl
theorem V1_v12 (c : Dev nD) : (V1 m ρ c main_v12 : S1x512.Idx → EReal)
    = shapeCast S1x512 (meanVec (m ((c : Thread nD τ).loc main_arg0))) shapeCasts_S512_S1x512 := by
  show StableHlo.after hostOps0 (W0 m ρ c) (Proc.devRef .tc main_v12) = _
  after_results <;> rfl
theorem V1_v13 (c : Dev nD) : (V1 m ρ c main_v13 : S1x512.Idx → EReal)
    = shapeCast S1x512 (rstdVec (m ((c : Thread nD τ).loc main_arg0))) shapeCasts_S512_S1x512 := by
  show StableHlo.after hostOps0 (W0 m ρ c) (Proc.devRef .tc main_v13) = _
  after_results <;> rfl
theorem V1_v14 (c : Dev nD) : (V1 m ρ c main_v14 : S1x512.Idx → EReal)
    = shapeCast S1x512 (m ((c : Thread nD τ).loc main_arg1)) shapeCasts_S512_S1x512 := by
  show StableHlo.after hostOps0 (W0 m ρ c) (Proc.devRef .tc main_v14) = _
  after_results <;> rfl
theorem V1_v15 (c : Dev nD) : (V1 m ρ c main_v15 : S1x512.Idx → EReal)
    = shapeCast S1x512 (m ((c : Thread nD τ).loc main_arg2)) shapeCasts_S512_S1x512 := by
  show StableHlo.after hostOps0 (W0 m ρ c) (Proc.devRef .tc main_v15) = _
  after_results <;> rfl
theorem V1_v16 (c : Dev nD) : (V1 m ρ c main_v16 : S1x256.Idx → EReal)
    = shapeCast S1x256 (m ((c : Thread nD τ).loc main_arg4)) shapeCasts_S256_S1x256 := by
  show StableHlo.after hostOps0 (W0 m ρ c) (Proc.devRef .tc main_v16) = _
  after_results <;> rfl
theorem V1_v17 (c : Dev nD) : (V1 m ρ c main_v17 : S1x256.Idx → EReal)
    = shapeCast S1x256 (m ((c : Thread nD τ).loc main_arg6)) shapeCasts_S256_S1x256 := by
  show StableHlo.after hostOps0 (W0 m ρ c) (Proc.devRef .tc main_v17) = _
  after_results <;> rfl
theorem V1_v18 (c : Dev nD) : (V1 m ρ c main_v18 : S1x256.Idx → EReal)
    = shapeCast S1x256 (m ((c : Thread nD τ).loc main_arg8)) shapeCasts_S256_S1x256 := by
  show StableHlo.after hostOps0 (W0 m ρ c) (Proc.devRef .tc main_v18) = _
  after_results <;> rfl
theorem V1_v21 (c : Dev nD) : (V1 m ρ c main_v21 : S512x256.Idx → EReal)
    = truncf (F := Ideal) .bf16 (transpose S512x256 [1, 0] (m ((c : Thread nD τ).loc main_arg3)) transposes_S256x512_S512x256_1_0) bitsLt_bf16_f32 := by
  show StableHlo.after hostOps0 (W0 m ρ c) (Proc.devRef .tc main_v21) = _
  after_results <;> rfl
theorem V1_v23 (c : Dev nD) : (V1 m ρ c main_v23 : S512x256.Idx → EReal)
    = truncf (F := Ideal) .bf16 (transpose S512x256 [1, 0] (m ((c : Thread nD τ).loc main_arg5)) transposes_S256x512_S512x256_1_0) bitsLt_bf16_f32 := by
  show StableHlo.after hostOps0 (W0 m ρ c) (Proc.devRef .tc main_v23) = _
  after_results <;> rfl
theorem V1_v25 (c : Dev nD) : (V1 m ρ c main_v25 : S512x256.Idx → EReal)
    = truncf (F := Ideal) .bf16 (transpose S512x256 [1, 0] (m ((c : Thread nD τ).loc main_arg7)) transposes_S256x512_S512x256_1_0) bitsLt_bf16_f32 := by
  show StableHlo.after hostOps0 (W0 m ρ c) (Proc.devRef .tc main_v25) = _
  after_results <;> rfl

/-! ## The argument arrays at coordinates -/

def argX (c : Dev nD) : Fin 4 → Fin 4096 → Fin 512 → EReal := fun b n cc => m ((c : Thread nD τ).loc main_arg0) (ix3 b n cc)
def argγ (c : Dev nD) : Fin 512 → EReal := fun cc => m ((c : Thread nD τ).loc main_arg1) (ix1 cc)
def argβ (c : Dev nD) : Fin 512 → EReal := fun cc => m ((c : Thread nD τ).loc main_arg2) (ix1 cc)
def argWθ (c : Dev nD) : Fin 256 → Fin 512 → EReal := fun d cc => m ((c : Thread nD τ).loc main_arg3) (ix2 d cc)
def argbθ (c : Dev nD) : Fin 256 → EReal := fun d => m ((c : Thread nD τ).loc main_arg4) (ix1 d)
def argWφ (c : Dev nD) : Fin 256 → Fin 512 → EReal := fun d cc => m ((c : Thread nD τ).loc main_arg5) (ix2 d cc)
def argbφ (c : Dev nD) : Fin 256 → EReal := fun d => m ((c : Thread nD τ).loc main_arg6) (ix1 d)
def argWg (c : Dev nD) : Fin 256 → Fin 512 → EReal := fun d cc => m ((c : Thread nD τ).loc main_arg7) (ix2 d cc)
def argbg (c : Dev nD) : Fin 256 → EReal := fun d => m ((c : Thread nD τ).loc main_arg8) (ix1 d)
def argWw (c : Dev nD) : Fin 512 → Fin 256 → EReal := fun cc d => m ((c : Thread nD τ).loc main_arg9) (ix2 cc d)
def argbw (c : Dev nD) : Fin 512 → EReal := fun cc => m ((c : Thread nD τ).loc main_arg10) (ix1 cc)

/-- The activation with the mean-of-squares variance. -/
def featK (c : Dev nD) : Fin 4 → Fin 4096 → Fin 512 → EReal :=
  feat (argX m c) (argγ m c) (argβ m c) (rstd (varSq (argX m c)))

/-! ## The first region's outputs at a flattened row -/

theorem featV1 (c : Dev nD) (b : Fin 4) (n : Fin 4096) (cc : Fin 512) :
    featArr (V1 m ρ c main_v28) (V1 m ρ c main_v12) (V1 m ρ c main_v13) (V1 m ρ c main_v14) (V1 m ρ c main_v15) (flat b n) cc
      = featK m c b n cc := by
  unfold featArr featK feat
  rw [V1_v28, V1_v12, V1_v13, V1_v14, V1_v15, flat_apply, shapeCast_a_1a_apply, shapeCast_a_1a_apply, shapeCast_a_1a_apply,
    shapeCast_a_1a_apply, meanVec_apply, rstdVec_apply]
  rfl

theorem projV1_first (c : Dev nD) (b : Fin 4) (n : Fin 4096) (d : Fin 256) :
    projArr (featArr (V1 m ρ c main_v28) (V1 m ρ c main_v12) (V1 m ρ c main_v13) (V1 m ρ c main_v14) (V1 m ρ c main_v15))
        (V1 m ρ c main_v21) (V1 m ρ c main_v16) (flat b n) d
      = proj (featK m c) (argWθ m c) (argbθ m c) b n d := by
  unfold projArr proj
  rw [V1_v21, V1_v16, shapeCast_a_1a_apply]
  refine congrArg₂ (fun a b : EReal => a + b) (Finset.sum_congr rfl fun cc _ => ?_) rfl
  rw [featV1, truncf_apply, transpose_ix2_apply]
  rfl

theorem projV1_second (c : Dev nD) (b : Fin 4) (n : Fin 4096) (d : Fin 256) :
    projArr (featArr (V1 m ρ c main_v28) (V1 m ρ c main_v12) (V1 m ρ c main_v13) (V1 m ρ c main_v14) (V1 m ρ c main_v15))
        (V1 m ρ c main_v23) (V1 m ρ c main_v17) (flat b n) d
      = proj (featK m c) (argWφ m c) (argbφ m c) b n d := by
  unfold projArr proj
  rw [V1_v23, V1_v17, shapeCast_a_1a_apply]
  refine congrArg₂ (fun a b : EReal => a + b) (Finset.sum_congr rfl fun cc _ => ?_) rfl
  rw [featV1, truncf_apply, transpose_ix2_apply]
  rfl

theorem projV1_third (c : Dev nD) (b : Fin 4) (n : Fin 4096) (d : Fin 256) :
    projArr (featArr (V1 m ρ c main_v28) (V1 m ρ c main_v12) (V1 m ρ c main_v13) (V1 m ρ c main_v14) (V1 m ρ c main_v15))
        (V1 m ρ c main_v25) (V1 m ρ c main_v18) (flat b n) d
      = proj (featK m c) (argWg m c) (argbg m c) b n d := by
  unfold projArr proj
  rw [V1_v25, V1_v18, shapeCast_a_1a_apply]
  refine congrArg₂ (fun a b : EReal => a + b) (Finset.sum_congr rfl fun cc _ => ?_) rfl
  rw [featV1, truncf_apply, transpose_ix2_apply]
  rfl

/-! ## The arrays the second region finds -/

theorem W2_out0 (c : Dev nD) : W2 m ρ c (Proc.devRef .tc main_v29_0) = projG11 (V1 m ρ) c := (W2_arr m ρ c 11).trans (proj_final11 (V1 m ρ) c)
theorem W2_out1 (c : Dev nD) : W2 m ρ c (Proc.devRef .tc main_v29_1) = projG12 (V1 m ρ) c := (W2_arr m ρ c 12).trans (proj_final12 (V1 m ρ) c)
theorem W2_out2 (c : Dev nD) : W2 m ρ c (Proc.devRef .tc main_v29_2) = projG13 (V1 m ρ) c := (W2_arr m ρ c 13).trans (proj_final13 (V1 m ρ) c)
theorem W2_out3 (c : Dev nD) : W2 m ρ c (Proc.devRef .tc main_v29_3) = projG14 (V1 m ρ) c := (W2_arr m ρ c 14).trans (proj_final14 (V1 m ρ) c)
theorem W2_out4 (c : Dev nD) : W2 m ρ c (Proc.devRef .tc main_v29_4) = projG15 (V1 m ρ) c := (W2_arr m ρ c 15).trans (proj_final15 (V1 m ρ) c)

theorem V3_v30 (c : Dev nD) : (V3 m ρ c main_v30 : S4x4096x256.Idx → EReal)
    = shapeCast S4x4096x256 (projG11 (V1 m ρ) c) shapeCasts_S16384x256_S4x4096x256 := by
  rw [← W2_out0 m ρ c]
  show StableHlo.after hostOps1 (W2 m ρ c) (Proc.devRef .tc main_v30) = _
  after_results <;> rfl
theorem V3_v31 (c : Dev nD) : (V3 m ρ c main_v31 : S4x4096x256.Idx → EReal)
    = shapeCast S4x4096x256 (projG12 (V1 m ρ) c) shapeCasts_S16384x256_S4x4096x256 := by
  rw [← W2_out1 m ρ c]
  show StableHlo.after hostOps1 (W2 m ρ c) (Proc.devRef .tc main_v31) = _
  after_results <;> rfl
theorem V3_v32 (c : Dev nD) : (V3 m ρ c main_v32 : S4x4096x256.Idx → EReal)
    = shapeCast S4x4096x256 (projG13 (V1 m ρ) c) shapeCasts_S16384x256_S4x4096x256 := by
  rw [← W2_out2 m ρ c]
  show StableHlo.after hostOps1 (W2 m ρ c) (Proc.devRef .tc main_v32) = _
  after_results <;> rfl
theorem V3_v33 (c : Dev nD) : (V3 m ρ c main_v33 : S4x4096x256.Idx → EReal)
    = shapeCast S4x4096x256 (projG14 (V1 m ρ) c) shapeCasts_S16384x256_S4x4096x256 := by
  rw [← W2_out3 m ρ c]
  show StableHlo.after hostOps1 (W2 m ρ c) (Proc.devRef .tc main_v33) = _
  after_results <;> rfl
theorem V3_v34 (c : Dev nD) : (V3 m ρ c main_v34 : S4x4096x256.Idx → EReal)
    = shapeCast S4x4096x256 (projG15 (V1 m ρ) c) shapeCasts_S16384x256_S4x4096x256 := by
  rw [← W2_out4 m ρ c]
  show StableHlo.after hostOps1 (W2 m ρ c) (Proc.devRef .tc main_v34) = _
  after_results <;> rfl

theorem V3_arg0 (c : Dev nD) : V3 m ρ c main_arg0 = m ((c : Thread nD τ).loc main_arg0) := by
  show StableHlo.after hostOps1 (W2 m ρ c) (Proc.devRef .tc main_arg0) = _
  after_results
  refine (W2_of_ne m ρ c main_arg0 (by decide)).trans ?_
  show StableHlo.after hostOps0 (W0 m ρ c) (Proc.devRef .tc main_arg0) = _
  after_results <;> rfl
theorem V3_v27 (c : Dev nD) : (V3 m ρ c main_v27 : S256x512.Idx → EReal)
    = truncf (F := Ideal) .bf16 (transpose S256x512 [1, 0] (m ((c : Thread nD τ).loc main_arg9)) transposes_S512x256_S256x512_1_0) bitsLt_bf16_f32 := by
  show StableHlo.after hostOps1 (W2 m ρ c) (Proc.devRef .tc main_v27) = _
  after_results
  refine (W2_of_ne m ρ c main_v27 (by decide)).trans ?_
  show StableHlo.after hostOps0 (W0 m ρ c) (Proc.devRef .tc main_v27) = _
  after_results <;> rfl
theorem V3_v19 (c : Dev nD) : (V3 m ρ c main_v19 : S1x512.Idx → EReal)
    = shapeCast S1x512 (m ((c : Thread nD τ).loc main_arg10)) shapeCasts_S512_S1x512 := by
  show StableHlo.after hostOps1 (W2 m ρ c) (Proc.devRef .tc main_v19) = _
  after_results
  refine (W2_of_ne m ρ c main_v19 (by decide)).trans ?_
  show StableHlo.after hostOps0 (W0 m ρ c) (Proc.devRef .tc main_v19) = _
  after_results <;> rfl

theorem A0_eq (c : Dev nD) : (fun (b : Fin 4) (n : Fin 4096) (d : Fin 256) => V3 m ρ c main_v30 (ix3 b n d))
    = proj (featK m c) (argWθ m c) (argbθ m c) := by
  funext b n d
  rw [V3_v30, unflat_apply]
  exact projV1_first m ρ c b n d
theorem A1_eq (c : Dev nD) : (fun (b : Fin 4) (n : Fin 4096) (d : Fin 256) => V3 m ρ c main_v31 (ix3 b n d))
    = fun b n d => proj (featK m c) (argWθ m c) (argbθ m c) b n d - proj (featK m c) (argWθ m c) (argbθ m c) b n d := by
  funext b n d
  rw [V3_v31, unflat_apply]
  exact congrArg₂ (fun a b : EReal => a - b) (projV1_first m ρ c b n d) (projV1_first m ρ c b n d)
theorem A2_eq (c : Dev nD) : (fun (b : Fin 4) (n : Fin 4096) (d : Fin 256) => V3 m ρ c main_v32 (ix3 b n d))
    = proj (featK m c) (argWφ m c) (argbφ m c) := by
  funext b n d
  rw [V3_v32, unflat_apply]
  exact projV1_second m ρ c b n d
theorem A3_eq (c : Dev nD) : (fun (b : Fin 4) (n : Fin 4096) (d : Fin 256) => V3 m ρ c main_v33 (ix3 b n d))
    = fun b n d => proj (featK m c) (argWφ m c) (argbφ m c) b n d - proj (featK m c) (argWφ m c) (argbφ m c) b n d := by
  funext b n d
  rw [V3_v33, unflat_apply]
  exact congrArg₂ (fun a b : EReal => a - b) (projV1_second m ρ c b n d) (projV1_second m ρ c b n d)
theorem A4_eq (c : Dev nD) : (fun (b : Fin 4) (n : Fin 4096) (d : Fin 256) => V3 m ρ c main_v34 (ix3 b n d))
    = proj (featK m c) (argWg m c) (argbg m c) := by
  funext b n d
  rw [V3_v34, unflat_apply]
  exact projV1_third m ρ c b n d
theorem A5_eq (c : Dev nD) : (fun (b : Fin 4) (n : Fin 4096) (cc : Fin 512) => V3 m ρ c main_arg0 (ix3 b n cc)) = argX m c := by
  funext b n cc
  rw [V3_arg0]; rfl
theorem A6_eq (c : Dev nD) : (fun (cc : Fin 512) (d : Fin 256) => V3 m ρ c main_v27 (ix2 d cc)) = argWw m c := by
  funext cc d
  rw [V3_v27, truncf_apply, transpose_ix2_apply]; rfl
theorem A7_eq (c : Dev nD) : (fun (cc : Fin 512) => V3 m ρ c main_v19 (ix2 (0 : Fin 1) cc)) = argbw m c := by
  funext cc
  rw [V3_v19, shapeCast_a_1a_apply]; rfl

/-! ## The result array -/

/-- The result array after the run, at (b, q, c), is the spec's second side of the launch memory's arguments. -/
theorem ker_value (c : Dev nD) (b : Fin 4) (q : Fin 4096) (cc : Fin 512) :
    W4 m ρ c (Proc.devRef .tc main_v35) (ix3 b q cc)
      = kerOut (argX m c) (argγ m c) (argβ m c) (argWθ m c) (argbθ m c) (argWφ m c) (argbφ m c) (argWg m c) (argbg m c)
          (argWw m c) (argbw m c) b q cc := by
  have e1 : W4 m ρ c (Proc.devRef .tc main_v35) = attnG (V3 m ρ) c := (W4_arr m ρ c 8).trans (attn_final (V3 m ρ) c)
  refine (congrFun e1 (ix3 b q cc)).trans ?_
  show attnArr (V3 m ρ c main_v30) (V3 m ρ c main_v31) (V3 m ρ c main_v32) (V3 m ρ c main_v33) (V3 m ρ c main_v34)
    (V3 m ρ c main_arg0) (V3 m ρ c main_v27) (V3 m ρ c main_v19) b q cc = _
  unfold attnArr
  rw [A0_eq, A1_eq, A2_eq, A3_eq, A4_eq, A5_eq, A6_eq, A7_eq]
  rfl

end Cert.KernelIdeal.Hand

end
-- ==== Proof.LawConst.lean ====
/-
  The two float constants of the block as extended reals: the position count 16384 and the variance offset ε,
  a positive real.
-/
import proofs.«133864_j7310034337850_2_alg».proof.Proof.Spec

noncomputable section

namespace Cert.NonLocal

open Idealize.ShloMosaic

/-- The pattern 0x46800000 denotes 2^14 = 16384. -/
theorem nE_eq : nE = ((16384 : ℝ) : EReal) := by
  simp [nE, Ideal.ofBits, Ideal.ieee, -EReal.coe_mul]; norm_num

/-- The real number the pattern 0x3727C5AC denotes: (2^23 + 2606508) · 2^(−40). -/
def epsR : ℝ := 10995116 * (2 : ℝ) ^ (-40 : ℤ)

theorem epsR_pos : 0 < epsR := by
  unfold epsR; positivity

theorem epsE_eq : epsE = ((epsR : ℝ) : EReal) := by
  simp [epsE, epsR, Ideal.ofBits, Ideal.ieee, -EReal.coe_mul]

end Cert.NonLocal

end
-- ==== Proof.LawVar.lean ====
/-
  The two variance formulas agree over the reals: for a finite family f with N > 0 members and μ = (Σ f) / N,
  (Σ (f − μ)²) / N = (Σ f²) / N − μ², and this common value is nonnegative.
-/
import Idealize.ShloMosaic.PureOps.Ideal

noncomputable section

open scoped BigOperators

namespace Cert.NonLocal

/-- Σ (f − μ)² = Σ f² − N·μ² when Σ f = N·μ. -/
theorem sum_dev_sq {ι : Type} [Fintype ι] (f : ι → ℝ) (N μ : ℝ) (hcard : (Fintype.card ι : ℝ) = N)
    (hμ : ∑ i, f i = N * μ) :
    ∑ i, (f i - μ) * (f i - μ) = (∑ i, f i * f i) - N * (μ * μ) := by
  have h1 : ∀ i, (f i - μ) * (f i - μ) = f i * f i - 2 * μ * f i + μ * μ := fun i => by ring
  simp only [h1, Finset.sum_add_distrib, Finset.sum_sub_distrib, ← Finset.mul_sum, hμ, Finset.sum_const,
    Finset.card_univ, nsmul_eq_mul, hcard]
  ring

/-- The mean of squared deviations is the mean of squares minus the squared mean. -/
theorem var_identity {ι : Type} [Fintype ι] (f : ι → ℝ) (N : ℝ) (hN : N ≠ 0) (hcard : (Fintype.card ι : ℝ) = N) :
    (∑ i, (f i - (∑ j, f j) / N) * (f i - (∑ j, f j) / N)) / N
      = (∑ i, f i * f i) / N - ((∑ j, f j) / N) * ((∑ j, f j) / N) := by
  rw [sum_dev_sq f N ((∑ j, f j) / N) hcard (by field_simp)]
  field_simp

/-- The mean of squared deviations is nonnegative. -/
theorem var_nonneg {ι : Type} [Fintype ι] (f : ι → ℝ) (N μ : ℝ) (hN : 0 < N) :
    0 ≤ (∑ i, (f i - μ) * (f i - μ)) / N :=
  div_nonneg (Finset.sum_nonneg fun i _ => mul_self_nonneg _) hN.le

/-- The double-sum form over 4 × 4096 positions, N = 16384. -/
theorem var_identity2 (f : Fin 4 → Fin 4096 → ℝ) :
    (∑ b, ∑ n, (f b n - (∑ b', ∑ n', f b' n') / 16384) * (f b n - (∑ b', ∑ n', f b' n') / 16384)) / 16384
      = (∑ b, ∑ n, f b n * f b n) / 16384
        - ((∑ b', ∑ n', f b' n') / 16384) * ((∑ b', ∑ n', f b' n') / 16384) := by
  have hcard : (Fintype.card (Fin 4 × Fin 4096) : ℝ) = 16384 := by
    rw [Fintype.card_prod, Fintype.card_fin, Fintype.card_fin]; norm_num
  have h := var_identity (fun p : Fin 4 × Fin 4096 => f p.1 p.2) 16384 (by norm_num) hcard
  simp only [Fintype.sum_prod_type] at h
  exact h

theorem var_nonneg2 (f : Fin 4 → Fin 4096 → ℝ) (μ : ℝ) :
    0 ≤ (∑ b, ∑ n, (f b n - μ) * (f b n - μ)) / 16384 :=
  div_nonneg (Finset.sum_nonneg fun b _ => Finset.sum_nonneg fun n _ => mul_self_nonneg _) (by norm_num)

end Cert.NonLocal

end
-- ==== Proof.LawReal.lean ====
/-
  On real inputs every intermediate value of the block up to the scores is a coerced real number.

  The real-valued counterparts: the double sum, the mean μ, the variance v = (Σ (x − μ)²) / 16384 (which both variance
  formulas compute, and which is nonnegative, so that v + ε > 0 and (v + ε)^(−1/2) is the real (√(v + ε))⁻¹), the
  activation f, the projections and the scores.
-/
import proofs.«133864_j7310034337850_2_alg».proof.Proof.Spec
import proofs.«133864_j7310034337850_2_alg».proof.Proof.LibEReal
import proofs.«133864_j7310034337850_2_alg».proof.Proof.LawConst
import proofs.«133864_j7310034337850_2_alg».proof.Proof.LawVar

noncomputable section

open scoped BigOperators

namespace Cert.NonLocal

open Idealize.ShloMosaic Cert.LibEReal

/-- Σ over the batch and position axes, over the reals. -/
def sum2R (f : Fin 4 → Fin 4096 → ℝ) : ℝ := ∑ b : Fin 4, ∑ n : Fin 4096, f b n

theorem sum2_coe (f : Fin 4 → Fin 4096 → ℝ) :
    sum2 (fun b n => ((f b n : ℝ) : EReal)) = ((sum2R f : ℝ) : EReal) := by
  show (∑ b : Fin 4, ∑ n : Fin 4096, ((f b n : ℝ) : EReal)) = ((∑ b : Fin 4, ∑ n : Fin 4096, f b n : ℝ) : EReal)
  rw [← coe_sum]
  exact Finset.sum_congr rfl fun b _ => coe_sum _ _

section
variable (x : Fin 4 → Fin 4096 → Fin 512 → ℝ)

/-- The per-channel mean μ. -/
def meanR (c : Fin 512) : ℝ := sum2R (fun b n => x b n c) / 16384

/-- The per-channel variance v, as the mean of squared deviations. -/
def varR (c : Fin 512) : ℝ := sum2R (fun b n => (x b n c - meanR x c) * (x b n c - meanR x c)) / 16384

/-- (v + ε)^(−1/2) as a real. -/
def rstdR (c : Fin 512) : ℝ := (Real.sqrt (varR x c + epsR))⁻¹

theorem mean_coe (c : Fin 512) : mean (fun b n c => ((x b n c : ℝ) : EReal)) c = ((meanR x c : ℝ) : EReal) := by
  show Ideal.div (sum2 fun b n => ((x b n c : ℝ) : EReal)) nE = _
  rw [nE_eq, sum2_coe (fun b n => x b n c), div_coe_coe _ _ (by norm_num)]
  rfl

theorem varDev_coe (c : Fin 512) : varDev (fun b n c => ((x b n c : ℝ) : EReal)) c = ((varR x c : ℝ) : EReal) := by
  show Ideal.div (sum2 fun b n => (((x b n c : ℝ) : EReal) - mean (fun b n c => ((x b n c : ℝ) : EReal)) c)
      * (((x b n c : ℝ) : EReal) - mean (fun b n c => ((x b n c : ℝ) : EReal)) c)) nE = _
  rw [mean_coe, nE_eq]
  have h : (fun (b : Fin 4) (n : Fin 4096) => (((x b n c : ℝ) : EReal) - ((meanR x c : ℝ) : EReal))
      * (((x b n c : ℝ) : EReal) - ((meanR x c : ℝ) : EReal)))
      = fun b n => (((x b n c - meanR x c) * (x b n c - meanR x c) : ℝ) : EReal) := by
    funext b n; rw [← EReal.coe_sub, ← EReal.coe_mul]
  rw [h, sum2_coe (fun b n => (x b n c - meanR x c) * (x b n c - meanR x c)), div_coe_coe _ _ (by norm_num)]
  rfl

theorem varSq_coe (c : Fin 512) : varSq (fun b n c => ((x b n c : ℝ) : EReal)) c = ((varR x c : ℝ) : EReal) := by
  show Ideal.div (sum2 fun b n => ((x b n c : ℝ) : EReal) * ((x b n c : ℝ) : EReal)) nE
      - mean (fun b n c => ((x b n c : ℝ) : EReal)) c * mean (fun b n c => ((x b n c : ℝ) : EReal)) c = _
  rw [mean_coe, nE_eq]
  have h : (fun (b : Fin 4) (n : Fin 4096) => ((x b n c : ℝ) : EReal) * ((x b n c : ℝ) : EReal))
      = fun b n => ((x b n c * x b n c : ℝ) : EReal) := by
    funext b n; rw [← EReal.coe_mul]
  rw [h, sum2_coe (fun b n => x b n c * x b n c), div_coe_coe _ _ (by norm_num), ← EReal.coe_mul, ← EReal.coe_sub]
  congr 1
  exact (var_identity2 (fun b n => x b n c)).symm

/-- The two variance formulas agree on real inputs. -/
theorem varSq_eq_varDev :
    varSq (fun b n c => ((x b n c : ℝ) : EReal)) = varDev (fun b n c => ((x b n c : ℝ) : EReal)) := by
  funext c; rw [varSq_coe, varDev_coe]

theorem varR_nonneg (c : Fin 512) : 0 ≤ varR x c := var_nonneg2 _ _

theorem rstd_coe (c : Fin 512) :
    rstd (varDev (fun b n c => ((x b n c : ℝ) : EReal))) c = ((rstdR x c : ℝ) : EReal) := by
  show Ideal.rsqrt (varDev (fun b n c => ((x b n c : ℝ) : EReal)) c + epsE) = _
  have hpos : 0 < varR x c + epsR := add_pos_of_nonneg_of_pos (varR_nonneg x c) epsR_pos
  rw [varDev_coe, epsE_eq, ← EReal.coe_add, Ideal.rsqrt_coe, if_neg (not_lt.mpr hpos.le), if_neg hpos.ne']
  rfl

/-- The activation over the reals. -/
def featR (γ β : Fin 512 → ℝ) (b : Fin 4) (n : Fin 4096) (c : Fin 512) : ℝ :=
  max (γ c * (x b n c - meanR x c) * rstdR x c + β c) 0

theorem feat_coe (γ β : Fin 512 → ℝ) :
    feat (fun b n c => ((x b n c : ℝ) : EReal)) (fun c => ((γ c : ℝ) : EReal)) (fun c => ((β c : ℝ) : EReal))
        (rstd (varDev (fun b n c => ((x b n c : ℝ) : EReal))))
      = fun b n c => ((featR x γ β b n c : ℝ) : EReal) := by
  funext b n c
  show max (((γ c : ℝ) : EReal) * (((x b n c : ℝ) : EReal) - mean (fun b n c => ((x b n c : ℝ) : EReal)) c)
      * rstd (varDev (fun b n c => ((x b n c : ℝ) : EReal))) c + ((β c : ℝ) : EReal)) 0 = _
  rw [mean_coe, rstd_coe, ← EReal.coe_sub, ← EReal.coe_mul, ← EReal.coe_mul, ← EReal.coe_add, ← EReal.coe_zero,
    max_coe_coe]
  rfl
end

/-- A projection over the reals. -/
def projR (f : Fin 4 → Fin 4096 → Fin 512 → ℝ) (W : Fin 256 → Fin 512 → ℝ) (bias : Fin 256 → ℝ)
    (b : Fin 4) (n : Fin 4096) (d : Fin 256) : ℝ := (∑ c : Fin 512, f b n c * W d c) + bias d

theorem proj_coe (f : Fin 4 → Fin 4096 → Fin 512 → ℝ) (W : Fin 256 → Fin 512 → ℝ) (bias : Fin 256 → ℝ) :
    proj (fun b n c => ((f b n c : ℝ) : EReal)) (fun d c => ((W d c : ℝ) : EReal)) (fun d => ((bias d : ℝ) : EReal))
      = fun b n d => ((projR f W bias b n d : ℝ) : EReal) := by
  funext b n d
  show (∑ c : Fin 512, ((f b n c : ℝ) : EReal) * ((W d c : ℝ) : EReal)) + ((bias d : ℝ) : EReal) = _
  have h : ∀ c : Fin 512, ((f b n c : ℝ) : EReal) * ((W d c : ℝ) : EReal) = ((f b n c * W d c : ℝ) : EReal) :=
    fun c => (EReal.coe_mul _ _).symm
  rw [Finset.sum_congr rfl fun c _ => h c, coe_sum, ← EReal.coe_add]
  rfl

/-- The scores over the reals. -/
def scoreR (t p : Fin 4 → Fin 4096 → Fin 256 → ℝ) (b : Fin 4) (q k : Fin 4096) : ℝ :=
  ∑ d : Fin 256, t b q d * p b k d

theorem score_coe (t p : Fin 4 → Fin 4096 → Fin 256 → ℝ) :
    score (fun b n d => ((t b n d : ℝ) : EReal)) (fun b n d => ((p b n d : ℝ) : EReal))
      = fun b q k => ((scoreR t p b q k : ℝ) : EReal) := by
  funext b q k
  show (∑ d : Fin 256, ((t b q d : ℝ) : EReal) * ((p b k d : ℝ) : EReal)) = _
  have h : ∀ d : Fin 256, ((t b q d : ℝ) : EReal) * ((p b k d : ℝ) : EReal) = ((t b q d * p b k d : ℝ) : EReal) :=
    fun d => (EReal.coe_mul _ _).symm
  rw [Finset.sum_congr rfl fun d _ => h d, coe_sum]
  rfl

/-- With real t and p the two correction sums of the three-term scores vanish. -/
theorem score3_coe (t p : Fin 4 → Fin 4096 → Fin 256 → ℝ) :
    score3 (fun b n d => ((t b n d : ℝ) : EReal)) (fun b n d => ((p b n d : ℝ) : EReal))
      = score (fun b n d => ((t b n d : ℝ) : EReal)) (fun b n d => ((p b n d : ℝ) : EReal)) := by
  funext b q k
  show ((∑ d : Fin 256, ((t b q d : ℝ) : EReal) * ((p b k d : ℝ) : EReal))
      + ∑ d : Fin 256, ((t b q d : ℝ) : EReal) * (((p b k d : ℝ) : EReal) - ((p b k d : ℝ) : EReal)))
      + ∑ d : Fin 256, (((t b q d : ℝ) : EReal) - ((t b q d : ℝ) : EReal)) * ((p b k d : ℝ) : EReal)
    = ∑ d : Fin 256, ((t b q d : ℝ) : EReal) * ((p b k d : ℝ) : EReal)
  have h1 : ∀ d : Fin 256, ((t b q d : ℝ) : EReal) * (((p b k d : ℝ) : EReal) - ((p b k d : ℝ) : EReal)) = 0 :=
    fun d => by rw [← EReal.coe_sub, sub_self, EReal.coe_zero, mul_zero]
  have h2 : ∀ d : Fin 256, (((t b q d : ℝ) : EReal) - ((t b q d : ℝ) : EReal)) * ((p b k d : ℝ) : EReal) = 0 :=
    fun d => by rw [← EReal.coe_sub, sub_self, EReal.coe_zero, zero_mul]
  rw [Finset.sum_congr rfl fun d _ => h1 d, Finset.sum_congr rfl fun d _ => h2 d, Finset.sum_const_zero, add_zero,
    add_zero]

end Cert.NonLocal

end
-- ==== Proof.LawMix.lean ====
/-
  With real scores s and real values g: the row maximum m is a real, the weights are e_k = exp(s_k − m) > 0, their sum
  l is a positive real, and dividing the mixed sum by l is the same as normalising the weights first:
  (Σ_k e_k·g_k) / l = Σ_k (e_k / l)·g_k.
-/
import proofs.«133864_j7310034337850_2_alg».proof.Proof.Spec
import proofs.«133864_j7310034337850_2_alg».proof.Proof.LibEReal

noncomputable section

open scoped BigOperators

namespace Cert.NonLocal

open Idealize.ShloMosaic Cert.LibEReal

section
variable (s : Fin 4 → Fin 4096 → Fin 4096 → ℝ)

/-- The row maximum of real scores is a real. -/
theorem rowMax_coe (b : Fin 4) (q : Fin 4096) :
    ∃ m : ℝ, rowMax (fun b q k => ((s b q k : ℝ) : EReal)) b q = (m : EReal) :=
  fold_max_real (fun k => s b q k)

/-- Over the reals, (Σ_k e_k·g_k) / l = Σ_k (e_k / l)·g_k. -/
theorem sum_div_eq (e g : Fin 4096 → ℝ) (l : ℝ) :
    (∑ k : Fin 4096, e k * g k) / l = ∑ k : Fin 4096, e k / l * g k := by
  rw [Finset.sum_div]
  exact Finset.sum_congr rfl fun k _ => by ring

theorem mixDiv_eq_mixNorm (g : Fin 4 → Fin 4096 → Fin 256 → ℝ) :
    mixDiv (fun b q k => ((s b q k : ℝ) : EReal)) (fun b n d => ((g b n d : ℝ) : EReal)) = mixNorm (fun b q k => ((s b q k : ℝ) : EReal)) (fun b n d => ((g b n d : ℝ) : EReal)) := by
  funext b q d
  obtain ⟨m, hm⟩ := rowMax_coe s b q
  have hex : ∀ k : Fin 4096, ex (fun b q k => ((s b q k : ℝ) : EReal)) b q k = ((Real.exp (s b q k - m) : ℝ) : EReal) := fun k => by
    show Ideal.exp (((s b q k : ℝ) : EReal) - rowMax (fun b q k => ((s b q k : ℝ) : EReal)) b q) = _
    rw [hm, exp_coe_sub]
  have hden : den (fun b q k => ((s b q k : ℝ) : EReal)) b q = ((∑ k : Fin 4096, Real.exp (s b q k - m) : ℝ) : EReal) := by
    show (∑ k : Fin 4096, ex (fun b q k => ((s b q k : ℝ) : EReal)) b q k) = _
    rw [Finset.sum_congr rfl fun k _ => hex k, coe_sum]
  have hl : (∑ k : Fin 4096, Real.exp (s b q k - m)) ≠ 0 :=
    (Finset.sum_pos (fun k _ => Real.exp_pos _) Finset.univ_nonempty).ne'
  show Ideal.div (∑ k : Fin 4096, ex (fun b q k => ((s b q k : ℝ) : EReal)) b q k * ((g b k d : ℝ) : EReal)) (den (fun b q k => ((s b q k : ℝ) : EReal)) b q)
    = ∑ k : Fin 4096, Ideal.div (ex (fun b q k => ((s b q k : ℝ) : EReal)) b q k) (den (fun b q k => ((s b q k : ℝ) : EReal)) b q) * ((g b k d : ℝ) : EReal)
  rw [hden]
  have h1 : ∀ k : Fin 4096, ex (fun b q k => ((s b q k : ℝ) : EReal)) b q k * ((g b k d : ℝ) : EReal)
      = ((Real.exp (s b q k - m) * g b k d : ℝ) : EReal) := fun k => by rw [hex, ← EReal.coe_mul]
  have h2 : ∀ k : Fin 4096, Ideal.div (ex (fun b q k => ((s b q k : ℝ) : EReal)) b q k) ((∑ k : Fin 4096, Real.exp (s b q k - m) : ℝ) : EReal)
        * ((g b k d : ℝ) : EReal)
      = ((Real.exp (s b q k - m) / (∑ k : Fin 4096, Real.exp (s b q k - m)) * g b k d : ℝ) : EReal) := fun k => by
    rw [hex, div_coe_coe _ _ hl, ← EReal.coe_mul]
  rw [Finset.sum_congr rfl fun k _ => h1 k, Finset.sum_congr rfl fun k _ => h2 k, coe_sum, coe_sum,
    div_coe_coe _ _ hl]
  exact congrArg Real.toEReal (sum_div_eq (fun k => Real.exp (s b q k - m)) (fun k => g b k d) _)
end

end Cert.NonLocal

end
-- ==== Proof.Law.lean ====
/-
  The two sides of the non-local attention block agree on real inputs.

  On real inputs the two variance formulas give the same real v ≥ 0, so the activations and the three projections are
  the same coerced reals on both sides; the correction sums of the three-term scores vanish; and dividing the mixed sum
  by the positive row sum l equals normalising the weights first.
-/
import proofs.«133864_j7310034337850_2_alg».proof.Proof.Spec
import proofs.«133864_j7310034337850_2_alg».proof.Proof.LawReal
import proofs.«133864_j7310034337850_2_alg».proof.Proof.LawMix

noncomputable section

open scoped BigOperators

namespace Cert.NonLocal

theorem kerOut_eq_refOut (x : Fin 4 → Fin 4096 → Fin 512 → ℝ) (γ β : Fin 512 → ℝ)
    (Wθ : Fin 256 → Fin 512 → ℝ) (bθ : Fin 256 → ℝ) (Wφ : Fin 256 → Fin 512 → ℝ) (bφ : Fin 256 → ℝ)
    (Wg : Fin 256 → Fin 512 → ℝ) (bg : Fin 256 → ℝ) (Ww : Fin 512 → Fin 256 → ℝ) (bw : Fin 512 → ℝ) :
    kerOut (fun b n c => ((x b n c : ℝ) : EReal)) (fun c => ((γ c : ℝ) : EReal)) (fun c => ((β c : ℝ) : EReal))
      (fun d c => ((Wθ d c : ℝ) : EReal)) (fun d => ((bθ d : ℝ) : EReal)) (fun d c => ((Wφ d c : ℝ) : EReal))
      (fun d => ((bφ d : ℝ) : EReal)) (fun d c => ((Wg d c : ℝ) : EReal)) (fun d => ((bg d : ℝ) : EReal))
      (fun c d => ((Ww c d : ℝ) : EReal)) (fun c => ((bw c : ℝ) : EReal))
    = refOut (fun b n c => ((x b n c : ℝ) : EReal)) (fun c => ((γ c : ℝ) : EReal)) (fun c => ((β c : ℝ) : EReal))
      (fun d c => ((Wθ d c : ℝ) : EReal)) (fun d => ((bθ d : ℝ) : EReal)) (fun d c => ((Wφ d c : ℝ) : EReal))
      (fun d => ((bφ d : ℝ) : EReal)) (fun d c => ((Wg d c : ℝ) : EReal)) (fun d => ((bg d : ℝ) : EReal))
      (fun c d => ((Ww c d : ℝ) : EReal)) (fun c => ((bw c : ℝ) : EReal)) := by
  simp only [kerOut, refOut]
  rw [varSq_eq_varDev x, feat_coe x γ β, proj_coe (featR x γ β) Wθ bθ, proj_coe (featR x γ β) Wφ bφ,
    proj_coe (featR x γ β) Wg bg, score3_coe, score_coe, mixDiv_eq_mixNorm]

end Cert.NonLocal

end
-- ==== Proof.Finite.lean ====
/-
  The precondition says every entry of every argument array is a real number.

  The predicate is the conjunction, over the eleven arrays a, of "every entry x of a has |x| < +∞", where
  |x| = max(x, −x) over the extended reals and +∞ is the constant 0x7F800000. An extended real x with max(x, −x) < ⊤ is
  neither ⊤ nor ⊥ (for x = ⊥, −x = ⊤), so it is a coerced real.
-/
import proofs.«133864_j7310034337850_2_alg».proof.Defs
import proofs.«133864_j7310034337850_2_alg».proof.Proof.Gen.Pre_finite_inputs
import Idealize.ShloMosaic.Lib.ReduceAll
import Idealize.ShloMosaic.Lib.ValueIdx

noncomputable section

namespace Cert.Finite

open Idealize.ShloMosaic Cert.Pre_finite_inputs

/-- The scalar shape has one index. -/
instance : Subsingleton S_.Idx := ⟨fun a b => funext fun d => d.elim0⟩

/-- The pattern 0x7F800000 denotes +∞. -/
theorem ofBits_inf : Ideal.ofBits .f32 0x7F800000#32 = (⊤ : EReal) := by simp [Ideal.ofBits, Ideal.ieee]

/-- An extended real whose absolute value is below +∞ is a real. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

/-- One conjunct of the predicate: all entries of a have absolute value below +∞, so all are reals. -/
theorem real_of_all {s : Shape} {axes : List (Fin s.rank)} (hb : S_.BroadcastsInDim s (![] : Fin 0 → Fin s.rank))
    (hr : s.ReducesTo axes S_) (hu : 0 < S_.numel) (a : FVec Ideal s .f32)
    (e : Host.reduce IntOp.andi (cmpf .olt (Host.absf a) (broadcastInDim s ![] hb (constant S_ .f32 0x7F800000#32)))
      (constantI S_ 1 1#1) hr hu ValueIdx.ix0 = 1#1) (i : s.Idx) : ∃ r : ℝ, a i = (r : EReal) :=
  real_of_abs_lt (a i) (Host.reduce_andi_all _ _ hr hu _ e i)

/-- A conjunction of one-bit words at the scalar index. -/
theorem andi_ix (x y : IVec S_ 1) (j : S_.Idx) : andi x y j = IntOp.andi (x j) (y j) := rfl

variable [Facts]

theorem real_of_pre (a0 : (⟨S4x4096x512, .f32⟩ : BufTy).Contents (Elt Ideal))
    (a1 : (⟨S512, .f32⟩ : BufTy).Contents (Elt Ideal))
    (a2 : (⟨S512, .f32⟩ : BufTy).Contents (Elt Ideal))
    (a3 : (⟨S256x512, .f32⟩ : BufTy).Contents (Elt Ideal))
    (a4 : (⟨S256, .f32⟩ : BufTy).Contents (Elt Ideal))
    (a5 : (⟨S256x512, .f32⟩ : BufTy).Contents (Elt Ideal))
    (a6 : (⟨S256, .f32⟩ : BufTy).Contents (Elt Ideal))
    (a7 : (⟨S256x512, .f32⟩ : BufTy).Contents (Elt Ideal))
    (a8 : (⟨S256, .f32⟩ : BufTy).Contents (Elt Ideal))
    (a9 : (⟨S512x256, .f32⟩ : BufTy).Contents (Elt Ideal))
    (a10 : (⟨S512, .f32⟩ : BufTy).Contents (Elt Ideal))
    (h : Cert.Pre_finite_inputs.fn (F := Ideal) a0 a1 a2 a3 a4 a5 a6 a7 a8 a9 a10 = (fun _ => 1#1)) :
    (∀ i, ∃ r : ℝ, a0 i = (r : EReal))
      ∧ (∀ i, ∃ r : ℝ, a1 i = (r : EReal))
      ∧ (∀ i, ∃ r : ℝ, a2 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal)) := by
  have e := congrFun h ValueIdx.ix0
  dsimp only [fn, fn_part1, fn_part2, fn_part3] at e
  simp only [andi_ix, IntOp.andi_eq_one] at e
  obtain ⟨⟨⟨⟨⟨⟨⟨⟨⟨⟨h0, h1⟩, h2⟩, h3⟩, h4⟩, h5⟩, h6⟩, h7⟩, h8⟩, h9⟩, h10⟩ := e
  exact ⟨real_of_all _ _ _ a0 h0, real_of_all _ _ _ a1 h1, real_of_all _ _ _ a2 h2, real_of_all _ _ _ a3 h3,
    real_of_all _ _ _ a4 h4, real_of_all _ _ _ a5 h5, real_of_all _ _ _ a6 h6, real_of_all _ _ _ a7 h7,
    real_of_all _ _ _ a8 h8, real_of_all _ _ _ a9 h9, real_of_all _ _ _ a10 h10⟩

end Cert.Finite

end
-- ==== Proof.Bridge.lean ====
/-
  Under the precondition the two sides of the spec agree on the launch memory's arguments.

  The precondition says every entry of every argument array is finite, so each array is the coercion of a real
  array; on real arguments the two sides are equal (the variance identity, the vanishing correction sums, and the
  division moved across the weighted sum).
-/
import proofs.«133864_j7310034337850_2_alg».proof.Proof.KerHost
import proofs.«133864_j7310034337850_2_alg».proof.Proof.Law
import proofs.«133864_j7310034337850_2_alg».proof.Proof.Finite

noncomputable section

namespace Cert.KernelIdeal.Hand

open Cert.KernelIdeal Idealize.ShloMosaic Idealize.ShloMosaic.TcCoe Idealize.ShloMosaic.ValueIdx Idealize.SL.Sem Cert.NonLocal

variable (m : (ℓ : Loc nD τ sig) → Buf (Elt Ideal) ℓ)

/-- With every argument entry finite, the mean-of-squares side equals the deviation side. -/
theorem ker_eq_ref (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      = (fun _ => 1#1)) :
    kerOut (argX m c) (argγ m c) (argβ m c) (argWθ m c) (argbθ m c) (argWφ m c) (argbφ m c) (argWg m c) (argbg m c) (argWw m c) (argbw m c)
      = refOut (argX m c) (argγ m c) (argβ m c) (argWθ m c) (argbθ m c) (argWφ m c) (argbφ m c) (argWg m c) (argbg m c) (argWw m c) (argbw m c) := by
  obtain ⟨h0, h1, h2, h3, h4, h5, h6, h7, h8, h9, h10⟩ := Cert.Finite.real_of_pre _ _ _ _ _ _ _ _ _ _ _ hpre
  choose x0 hx0 using h0
  choose x1 hx1 using h1
  choose x2 hx2 using h2
  choose x3 hx3 using h3
  choose x4 hx4 using h4
  choose x5 hx5 using h5
  choose x6 hx6 using h6
  choose x7 hx7 using h7
  choose x8 hx8 using h8
  choose x9 hx9 using h9
  choose x10 hx10 using h10
  have e0 : argX m c = fun b n cc => ((x0 (ix3 b n cc) : ℝ) : EReal) := funext fun b => funext fun n => funext fun cc => hx0 _
  have e1 : argγ m c = fun cc => ((x1 (ix1 cc) : ℝ) : EReal) := funext fun cc => hx1 _
  have e2 : argβ m c = fun cc => ((x2 (ix1 cc) : ℝ) : EReal) := funext fun cc => hx2 _
  have e3 : argWθ m c = fun d cc => ((x3 (ix2 d cc) : ℝ) : EReal) := funext fun d => funext fun cc => hx3 _
  have e4 : argbθ m c = fun d => ((x4 (ix1 d) : ℝ) : EReal) := funext fun d => hx4 _
  have e5 : argWφ m c = fun d cc => ((x5 (ix2 d cc) : ℝ) : EReal) := funext fun d => funext fun cc => hx5 _
  have e6 : argbφ m c = fun d => ((x6 (ix1 d) : ℝ) : EReal) := funext fun d => hx6 _
  have e7 : argWg m c = fun d cc => ((x7 (ix2 d cc) : ℝ) : EReal) := funext fun d => funext fun cc => hx7 _
  have e8 : argbg m c = fun d => ((x8 (ix1 d) : ℝ) : EReal) := funext fun d => hx8 _
  have e9 : argWw m c = fun cc d => ((x9 (ix2 cc d) : ℝ) : EReal) := funext fun cc => funext fun d => hx9 _
  have e10 : argbw m c = fun cc => ((x10 (ix1 cc) : ℝ) : EReal) := funext fun cc => hx10 _
  rw [e0, e1, e2, e3, e4, e5, e6, e7, e8, e9, e10]
  exact kerOut_eq_refOut (fun b n cc => x0 (ix3 b n cc)) (fun cc => x1 (ix1 cc)) (fun cc => x2 (ix1 cc)) (fun d cc => x3 (ix2 d cc))
    (fun d => x4 (ix1 d)) (fun d cc => x5 (ix2 d cc)) (fun d => x6 (ix1 d)) (fun d cc => x7 (ix2 d cc)) (fun d => x8 (ix1 d))
    (fun cc d => x9 (ix2 cc d)) (fun cc => x10 (ix1 cc))

end Cert.KernelIdeal.Hand

end
-- ==== Proof.RefValue1.lean ====
/-
  The reference program's statistics stage read at coordinates: the per-channel mean, the deviation-form variance, the
  reciprocal deviation (v + ε)^(−1/2), and the normalised, scaled, shifted and rectified activation, each equal to the
  corresponding function of the argument arrays.
-/
import proofs.«133864_j7310034337850_2_alg».proof.Proof.Gen.ReferenceIdeal.Read
import proofs.«133864_j7310034337850_2_alg».proof.Proof.Spec
import proofs.«133864_j7310034337850_2_alg».proof.Proof.LibSumTwoAxes
import proofs.«133864_j7310034337850_2_alg».proof.Proof.LibEReal
import Idealize.ShloMosaic.Lib.IdealHost

noncomputable section

open scoped BigOperators

namespace Cert.RefValue

open Idealize.ShloMosaic Idealize.ShloMosaic.ValueIdx Cert.ReferenceIdeal Cert.ReferenceIdeal.Gen Cert.ReferenceIdeal.Read Cert.NonLocal

section
variable (x0 : (⟨S4x4096x512, .f32⟩ : BufTy).Contents (Elt Ideal)) (x1 x2 : (⟨S512, .f32⟩ : BufTy).Contents (Elt Ideal))

local notation "X" => (fun (b : Fin 4) (n : Fin 4096) (c : Fin 512) => x0 (ix3 b n c))

/-- The sum of the input over batch and position, per channel. -/
theorem v0_eq (c : Fin 512) : val_main_v0 (F := Ideal) x0 (ix1 c) = sum2 (fun b n => x0 (ix3 b n c)) := by
  refine (Cert.LibSumTwoAxes.hostReduceAdd_axes01 (n0 := 4) (n1 := 4096) (n2 := 512)
    reducesTo_S4x4096x512_S512_d0_1 x0 _ c).trans ?_
  rw [val_main_cst_apply, Ideal.ofBits_def, Ideal.ofBits_zero_f32, zero_add]
  rfl

/-- The per-channel mean. -/
theorem v2_eq (c : Fin 512) : val_main_v2 (F := Ideal) x0 (ix1 c) = mean X c := by
  rw [val_main_v2_apply, val_main_v1_apply, val_main_cst_0_apply, v0_eq]
  rfl

/-- The mean broadcast over batch and position. -/
theorem v4_eq (b : Fin 4) (n : Fin 4096) (c : Fin 512) : val_main_v4 (F := Ideal) x0 (ix3 b n c) = mean X c := by
  have e : idx_main_v3 (idx_main_v4 (ix3 b n c)) = ix1 c := funext fun a => by match a with | ⟨0, _⟩ => rfl
  rw [val_main_v4_apply, val_main_v3_apply, e, v2_eq]

/-- The sum of squared deviations, per channel. -/
theorem v7_eq (c : Fin 512) : val_main_v7 (F := Ideal) x0 (ix1 c)
    = sum2 (fun b n => (x0 (ix3 b n c) - mean X c) * (x0 (ix3 b n c) - mean X c)) := by
  refine (Cert.LibSumTwoAxes.hostReduceAdd_axes01 (n0 := 4) (n1 := 4096) (n2 := 512)
    reducesTo_S4x4096x512_S512_d0_1 (val_main_v6 (F := Ideal) x0) _ c).trans ?_
  rw [val_main_cst_1_apply, Ideal.ofBits_def, Ideal.ofBits_zero_f32, zero_add]
  unfold sum2
  refine Finset.sum_congr rfl fun b _ => Finset.sum_congr rfl fun n _ => ?_
  rw [val_main_v6_apply, val_main_v5_apply, v4_eq]
  rfl

/-- The deviation-form variance. -/
theorem v9_eq (c : Fin 512) : val_main_v9 (F := Ideal) x0 (ix1 c) = varDev X c := by
  rw [val_main_v9_apply, val_main_v8_apply, val_main_cst_2_apply, v7_eq]
  rfl

/-- The reciprocal deviation. -/
theorem v18_eq (c : Fin 512) : val_main_v18 (F := Ideal) x0 (ix1 c) = rstd (varDev X) c := by
  rw [val_main_v18_apply, val_main_v17_apply, val_main_v16_apply, val_main_cst_3_apply, v9_eq]
  rfl

/-- The normalised, scaled, shifted and rectified activation. -/
theorem v25_eq (b : Fin 4) (n : Fin 4096) (c : Fin 512) : val_main_v25 (F := Ideal) x0 x1 x2 (ix3 b n c)
    = feat X (fun c => x1 (ix1 c)) (fun c => x2 (ix1 c)) (rstd (varDev X)) b n c := by
  have e10 : idx_main_v10 (idx_main_v11 (ix3 b n c)) = ix1 c := funext fun a => by match a with | ⟨0, _⟩ => rfl
  have e13 : idx_main_v13 (idx_main_v14 (ix3 b n c)) = ix1 c := funext fun a => by match a with | ⟨0, _⟩ => rfl
  have e19 : idx_main_v19 (idx_main_v20 (ix3 b n c)) = ix1 c := funext fun a => by match a with | ⟨0, _⟩ => rfl
  have e22 : idx_main_v22 (idx_main_v23 (ix3 b n c)) = ix1 c := funext fun a => by match a with | ⟨0, _⟩ => rfl
  rw [val_main_v25_apply, val_main_v24_apply, val_main_v21_apply, val_main_v15_apply, val_main_v14_apply,
    val_main_v13_apply, e13, val_main_v12_apply, val_main_v11_apply, val_main_v10_apply, e10, v2_eq,
    val_main_v20_apply, val_main_v19_apply, e19, v18_eq, val_main_v23_apply, val_main_v22_apply, e22,
    val_main_call0_v0_apply, val_main_call0_cst_apply, Ideal.ofBits_def, Ideal.ofBits_zero_f32]
  rfl

end

end Cert.RefValue

end
-- ==== Proof.RefValue2.lean ====
/-
  The reference program's three linear projections of the activation and the scores, read at coordinates: each
  projection is Σ_c f[b,n,c]·W[d,c] + bias[d], and the score is Σ_d t[b,q,d]·p[b,k,d].
-/
import proofs.«133864_j7310034337850_2_alg».proof.Proof.RefValue1

noncomputable section

open scoped BigOperators

namespace Cert.RefValue

open Idealize.ShloMosaic Idealize.ShloMosaic.ValueIdx Cert.ReferenceIdeal Cert.ReferenceIdeal.Gen Cert.ReferenceIdeal.Read Cert.NonLocal

section
variable (x0 : (⟨S4x4096x512, .f32⟩ : BufTy).Contents (Elt Ideal)) (x1 x2 : (⟨S512, .f32⟩ : BufTy).Contents (Elt Ideal))

local notation "X" => (fun (b : Fin 4) (n : Fin 4096) (c : Fin 512) => x0 (ix3 b n c))
local notation "FT" => (feat X (fun c => x1 (ix1 c)) (fun c => x2 (ix1 c)) (rstd (varDev X)))

/-- The first projection (the query side of the scores). -/
theorem v29_eq (x3 : (⟨S256x512, .f32⟩ : BufTy).Contents (Elt Ideal)) (x4 : (⟨S256, .f32⟩ : BufTy).Contents (Elt Ideal)) (b : Fin 4) (n : Fin 4096) (d : Fin 256) :
    val_main_v29 (F := Ideal) x0 x1 x2 x3 x4 (ix3 b n d)
      = proj FT (fun d c => x3 (ix2 d c)) (fun d => x4 (ix1 d)) b n d := by
  have e : idx_main_v27 (idx_main_v28 (ix3 b n d)) = ix1 d := funext fun a => by match a with | ⟨0, _⟩ => rfl
  rw [val_main_v29_apply, val_main_v26_apply, val_main_v28_apply, val_main_v27_apply, e, Ideal.addf_def]
  unfold proj
  refine congrArg (· + x4 (ix1 d)) (Finset.sum_congr rfl fun k _ => ?_)
  have el : lidx_main_v26 (ix3 b n d) k = ix3 b n k :=
    funext fun a => by match a with | ⟨0, _⟩ => rfl | ⟨1, _⟩ => rfl | ⟨2, _⟩ => rfl
  have er : ridx_main_v26 (ix3 b n d) k = ix2 d k :=
    funext fun a => by match a with | ⟨0, _⟩ => rfl | ⟨1, _⟩ => rfl
  rw [el, er, v25_eq]

/-- The second projection (the key side of the scores). -/
theorem v33_eq (x5 : (⟨S256x512, .f32⟩ : BufTy).Contents (Elt Ideal)) (x6 : (⟨S256, .f32⟩ : BufTy).Contents (Elt Ideal)) (b : Fin 4) (n : Fin 4096) (d : Fin 256) :
    val_main_v33 (F := Ideal) x0 x1 x2 x5 x6 (ix3 b n d)
      = proj FT (fun d c => x5 (ix2 d c)) (fun d => x6 (ix1 d)) b n d := by
  have e : idx_main_v31 (idx_main_v32 (ix3 b n d)) = ix1 d := funext fun a => by match a with | ⟨0, _⟩ => rfl
  rw [val_main_v33_apply, val_main_v30_apply, val_main_v32_apply, val_main_v31_apply, e, Ideal.addf_def]
  unfold proj
  refine congrArg (· + x6 (ix1 d)) (Finset.sum_congr rfl fun k _ => ?_)
  have el : lidx_main_v30 (ix3 b n d) k = ix3 b n k :=
    funext fun a => by match a with | ⟨0, _⟩ => rfl | ⟨1, _⟩ => rfl | ⟨2, _⟩ => rfl
  have er : ridx_main_v30 (ix3 b n d) k = ix2 d k :=
    funext fun a => by match a with | ⟨0, _⟩ => rfl | ⟨1, _⟩ => rfl
  rw [el, er, v25_eq]

/-- The third projection (the values that are mixed). -/
theorem v37_eq (x7 : (⟨S256x512, .f32⟩ : BufTy).Contents (Elt Ideal)) (x8 : (⟨S256, .f32⟩ : BufTy).Contents (Elt Ideal)) (b : Fin 4) (n : Fin 4096) (d : Fin 256) :
    val_main_v37 (F := Ideal) x0 x1 x2 x7 x8 (ix3 b n d)
      = proj FT (fun d c => x7 (ix2 d c)) (fun d => x8 (ix1 d)) b n d := by
  have e : idx_main_v35 (idx_main_v36 (ix3 b n d)) = ix1 d := funext fun a => by match a with | ⟨0, _⟩ => rfl
  rw [val_main_v37_apply, val_main_v34_apply, val_main_v36_apply, val_main_v35_apply, e, Ideal.addf_def]
  unfold proj
  refine congrArg (· + x8 (ix1 d)) (Finset.sum_congr rfl fun k _ => ?_)
  have el : lidx_main_v34 (ix3 b n d) k = ix3 b n k :=
    funext fun a => by match a with | ⟨0, _⟩ => rfl | ⟨1, _⟩ => rfl | ⟨2, _⟩ => rfl
  have er : ridx_main_v34 (ix3 b n d) k = ix2 d k :=
    funext fun a => by match a with | ⟨0, _⟩ => rfl | ⟨1, _⟩ => rfl
  rw [el, er, v25_eq]

/-- The scores. -/
theorem v38_eq (x3 : (⟨S256x512, .f32⟩ : BufTy).Contents (Elt Ideal)) (x4 : (⟨S256, .f32⟩ : BufTy).Contents (Elt Ideal)) (x5 : (⟨S256x512, .f32⟩ : BufTy).Contents (Elt Ideal)) (x6 : (⟨S256, .f32⟩ : BufTy).Contents (Elt Ideal))
    (b : Fin 4) (q k : Fin 4096) :
    val_main_v38 (F := Ideal) x0 x1 x2 x3 x4 x5 x6 (ix3 b q k)
      = score (proj FT (fun d c => x3 (ix2 d c)) (fun d => x4 (ix1 d)))
          (proj FT (fun d c => x5 (ix2 d c)) (fun d => x6 (ix1 d))) b q k := by
  rw [val_main_v38_apply]
  unfold score
  refine Finset.sum_congr rfl fun d _ => ?_
  have el : lidx_main_v38 (ix3 b q k) d = ix3 b q d :=
    funext fun a => by match a with | ⟨0, _⟩ => rfl | ⟨1, _⟩ => rfl | ⟨2, _⟩ => rfl
  have er : ridx_main_v38 (ix3 b q k) d = ix3 b k d :=
    funext fun a => by match a with | ⟨0, _⟩ => rfl | ⟨1, _⟩ => rfl | ⟨2, _⟩ => rfl
  rw [el, er, v29_eq, v33_eq]

end

end Cert.RefValue

end
-- ==== Proof.RefValue3.lean ====
/-
  The reference program's softmax statistics read at coordinates: the row maximum of the scores (folded from −∞), the
  exponentials of the scores minus the row maximum, and their row sums.
-/
import proofs.«133864_j7310034337850_2_alg».proof.Proof.RefValue2
import Idealize.ShloMosaic.PureOps.Reduce

noncomputable section

open scoped BigOperators

namespace Cert.RefValue

open Idealize.ShloMosaic Idealize.ShloMosaic.ValueIdx Cert.ReferenceIdeal Cert.ReferenceIdeal.Gen Cert.ReferenceIdeal.Read Cert.NonLocal

section
variable (x0 : (⟨S4x4096x512, .f32⟩ : BufTy).Contents (Elt Ideal)) (x1 x2 : (⟨S512, .f32⟩ : BufTy).Contents (Elt Ideal)) (x3 : (⟨S256x512, .f32⟩ : BufTy).Contents (Elt Ideal)) (x4 : (⟨S256, .f32⟩ : BufTy).Contents (Elt Ideal))
  (x5 : (⟨S256x512, .f32⟩ : BufTy).Contents (Elt Ideal)) (x6 : (⟨S256, .f32⟩ : BufTy).Contents (Elt Ideal))

local notation "X" => (fun (b : Fin 4) (n : Fin 4096) (c : Fin 512) => x0 (ix3 b n c))
local notation "FT" => (feat X (fun c => x1 (ix1 c)) (fun c => x2 (ix1 c)) (rstd (varDev X)))
local notation "SC" => (score (proj FT (fun d c => x3 (ix2 d c)) (fun d => x4 (ix1 d)))
  (proj FT (fun d c => x5 (ix2 d c)) (fun d => x6 (ix1 d))))

/-- The maximum over the last axis of the scores, folded from −∞. -/
theorem v39_eq (b : Fin 4) (q : Fin 4096) :
    val_main_v39 (F := Ideal) x0 x1 x2 x3 x4 x5 x6 (ix2 b q) = rowMax SC b q := by
  have h : S4x4096x4096.Reduces [2] S4x4096 := by decide
  unfold val_main_v39
  rw [Host.reduce_eq_fold_single FloatOps.maximumf _ _ reducesTo_S4x4096x4096_S4x4096_d2 h h_S_,
    val_main_cst_4_apply, Ideal.ofBits_def, Cert.LibEReal.ofBits_neg_inf]
  show (Finset.univ : Finset (Fin 4096)).fold max (⊥ : EReal)
      (fun k => val_main_v38 (F := Ideal) x0 x1 x2 x3 x4 x5 x6 (h.lift (ix2 b q) k)) = _
  unfold rowMax
  refine congrArg (fun f => (Finset.univ : Finset (Fin 4096)).fold max (⊥ : EReal) f)
    (funext fun (k : Fin 4096) => ?_)
  have e : h.lift (ix2 b q) k = ix3 b q k :=
    funext fun a => Fin.ext (by match a with | ⟨0, _⟩ => rfl | ⟨1, _⟩ => rfl | ⟨2, _⟩ => rfl)
  exact (congrArg (val_main_v38 (F := Ideal) x0 x1 x2 x3 x4 x5 x6) e).trans (v38_eq x0 x1 x2 x3 x4 x5 x6 b q k)

/-- The row maximum after the guard against an empty row: max(−∞, m) = m. -/
theorem v41_eq (b : Fin 4) (q : Fin 4096) :
    val_main_v41 (F := Ideal) x0 x1 x2 x3 x4 x5 x6 (ix2 b q) = rowMax SC b q := by
  rw [val_main_v41_apply, val_main_v40_apply, val_main_cst_5_apply, v39_eq, Ideal.ofBits_def,
    Cert.LibEReal.ofBits_neg_inf, Ideal.maximumf_def]
  exact max_bot_left _

/-- The exponential of the score minus its row maximum. -/
theorem v45_eq (b : Fin 4) (q k : Fin 4096) :
    val_main_v45 (F := Ideal) x0 x1 x2 x3 x4 x5 x6 (ix3 b q k) = ex SC b q k := by
  have e : idx_main_v42 (idx_main_v43 (ix3 b q k)) = ix2 b q :=
    funext fun a => by match a with | ⟨0, _⟩ => rfl | ⟨1, _⟩ => rfl
  rw [val_main_v45_apply, val_main_v44_apply, val_main_v43_apply, val_main_v42_apply, e, v41_eq, v38_eq]
  rfl

/-- The row sum of the exponentials. -/
theorem v46_eq (b : Fin 4) (q : Fin 4096) :
    val_main_v46 (F := Ideal) x0 x1 x2 x3 x4 x5 x6 (ix2 b q) = den SC b q := by
  rw [val_main_v46_apply, val_main_cst_6_apply, Ideal.ofBits_def, Ideal.ofBits_zero_f32, zero_add]
  unfold den
  refine Finset.sum_congr rfl fun k _ => ?_
  have e : idx_main_v46 (ix2 b q) k = ix3 b q k :=
    funext fun a => by match a with | ⟨0, _⟩ => rfl | ⟨1, _⟩ => rfl | ⟨2, _⟩ => rfl
  rw [e, v45_eq]

/-- The normalised weight: the exponential divided by its row sum. -/
theorem v49_eq (b : Fin 4) (q k : Fin 4096) :
    val_main_v49 (F := Ideal) x0 x1 x2 x3 x4 x5 x6 (ix3 b q k) = Ideal.div (ex SC b q k) (den SC b q) := by
  have e : idx_main_v47 (idx_main_v48 (ix3 b q k)) = ix2 b q :=
    funext fun a => by match a with | ⟨0, _⟩ => rfl | ⟨1, _⟩ => rfl
  rw [val_main_v49_apply, val_main_v48_apply, val_main_v47_apply, e, v46_eq, v45_eq]
  rfl

end

end Cert.RefValue

end
-- ==== Proof.RefValue4.lean ====
/-
  The reference program's mixed value and result read at coordinates: the mixed value is the sum over positions of the
  normalised weight times the third projection, and the result is the input plus the output projection of the mixed
  value plus its bias. The final statement identifies the program's result with the specification's function.
-/
import proofs.«133864_j7310034337850_2_alg».proof.Proof.RefValue3

noncomputable section

open scoped BigOperators

namespace Cert.RefValue

open Idealize.ShloMosaic Idealize.ShloMosaic.ValueIdx Cert.ReferenceIdeal Cert.ReferenceIdeal.Gen Cert.ReferenceIdeal.Read Cert.NonLocal

section
variable (x0 : (⟨S4x4096x512, .f32⟩ : BufTy).Contents (Elt Ideal)) (x1 x2 : (⟨S512, .f32⟩ : BufTy).Contents (Elt Ideal)) (x3 : (⟨S256x512, .f32⟩ : BufTy).Contents (Elt Ideal)) (x4 : (⟨S256, .f32⟩ : BufTy).Contents (Elt Ideal))
    (x5 : (⟨S256x512, .f32⟩ : BufTy).Contents (Elt Ideal)) (x6 : (⟨S256, .f32⟩ : BufTy).Contents (Elt Ideal)) (x7 : (⟨S256x512, .f32⟩ : BufTy).Contents (Elt Ideal)) (x8 : (⟨S256, .f32⟩ : BufTy).Contents (Elt Ideal))
    (x9 : (⟨S512x256, .f32⟩ : BufTy).Contents (Elt Ideal)) (x10 : (⟨S512, .f32⟩ : BufTy).Contents (Elt Ideal))

local notation "X" => (fun (b : Fin 4) (n : Fin 4096) (c : Fin 512) => x0 (ix3 b n c))
local notation "FT" => (feat X (fun c => x1 (ix1 c)) (fun c => x2 (ix1 c)) (rstd (varDev X)))
local notation "SC" => (score (proj FT (fun d c => x3 (ix2 d c)) (fun d => x4 (ix1 d)))
  (proj FT (fun d c => x5 (ix2 d c)) (fun d => x6 (ix1 d))))
local notation "GP" => (proj FT (fun d c => x7 (ix2 d c)) (fun d => x8 (ix1 d)))

/-- The mixed value with the weights normalised first. -/
theorem v50_eq (b : Fin 4) (q : Fin 4096) (d : Fin 256) :
    val_main_v50 (F := Ideal) x0 x1 x2 x3 x4 x5 x6 x7 x8 (ix3 b q d) = mixNorm SC GP b q d := by
  rw [val_main_v50_apply]
  unfold mixNorm
  refine Finset.sum_congr rfl fun k _ => ?_
  have el : lidx_main_v50 (ix3 b q d) k = ix3 b q k :=
    funext fun a => by match a with | ⟨0, _⟩ => rfl | ⟨1, _⟩ => rfl | ⟨2, _⟩ => rfl
  have er : ridx_main_v50 (ix3 b q d) k = ix3 b k d :=
    funext fun a => by match a with | ⟨0, _⟩ => rfl | ⟨1, _⟩ => rfl | ⟨2, _⟩ => rfl
  rw [el, er, v49_eq, v37_eq]

/-- The result: the input plus the output projection of the mixed value plus its bias. -/
theorem v55_eq (b : Fin 4) (q : Fin 4096) (c : Fin 512) :
    val_main_v55 (F := Ideal) x0 x1 x2 x3 x4 x5 x6 x7 x8 x9 x10 (ix3 b q c)
      = outp X (mixNorm SC GP) (fun c d => x9 (ix2 c d)) (fun c => x10 (ix1 c)) b q c := by
  have e : idx_main_v52 (idx_main_v53 (ix3 b q c)) = ix1 c := funext fun a => by match a with | ⟨0, _⟩ => rfl
  rw [val_main_v55_apply, val_main_v54_apply, val_main_v51_apply, val_main_v53_apply, val_main_v52_apply, e,
    Ideal.addf_def, Ideal.addf_def]
  unfold outp
  refine congrArg (fun s => x0 (ix3 b q c) + (s + x10 (ix1 c))) (Finset.sum_congr rfl fun d _ => ?_)
  have el : lidx_main_v51 (ix3 b q c) d = ix3 b q d :=
    funext fun a => by match a with | ⟨0, _⟩ => rfl | ⟨1, _⟩ => rfl | ⟨2, _⟩ => rfl
  have er : ridx_main_v51 (ix3 b q c) d = ix2 c d :=
    funext fun a => by match a with | ⟨0, _⟩ => rfl | ⟨1, _⟩ => rfl
  rw [el, er, v50_eq]

end

end Cert.RefValue

end
-- ==== Proof.RefValue.lean ====
/-
  The reference program's result, read at an index, is the specification's reference-side function of the eleven
  argument arrays.
-/
import proofs.«133864_j7310034337850_2_alg».proof.Proof.RefValue4

noncomputable section

open scoped BigOperators

namespace Cert.RefValue

open Idealize.ShloMosaic Idealize.ShloMosaic.ValueIdx Cert.ReferenceIdeal Cert.ReferenceIdeal.Gen Cert.ReferenceIdeal.Read Cert.NonLocal

/-- The reference program's result at (b, q, c) is the specification's reference-side value there. -/
theorem ref_eq (x0 : (⟨S4x4096x512, .f32⟩ : BufTy).Contents (Elt Ideal)) (x1 x2 : (⟨S512, .f32⟩ : BufTy).Contents (Elt Ideal)) (x3 : (⟨S256x512, .f32⟩ : BufTy).Contents (Elt Ideal)) (x4 : (⟨S256, .f32⟩ : BufTy).Contents (Elt Ideal))
    (x5 : (⟨S256x512, .f32⟩ : BufTy).Contents (Elt Ideal)) (x6 : (⟨S256, .f32⟩ : BufTy).Contents (Elt Ideal)) (x7 : (⟨S256x512, .f32⟩ : BufTy).Contents (Elt Ideal)) (x8 : (⟨S256, .f32⟩ : BufTy).Contents (Elt Ideal))
    (x9 : (⟨S512x256, .f32⟩ : BufTy).Contents (Elt Ideal)) (x10 : (⟨S512, .f32⟩ : BufTy).Contents (Elt Ideal))
    (b : Fin 4) (q : Fin 4096) (c : Fin 512) :
    Cert.ReferenceIdeal.Read.val_main_v55 (F := Ideal) x0 x1 x2 x3 x4 x5 x6 x7 x8 x9 x10 (ix3 b q c)
      = Cert.NonLocal.refOut (fun b n c => x0 (ix3 b n c)) (fun c => x1 (ix1 c)) (fun c => x2 (ix1 c))
          (fun d c => x3 (ix2 d c)) (fun d => x4 (ix1 d)) (fun d c => x5 (ix2 d c)) (fun d => x6 (ix1 d))
          (fun d c => x7 (ix2 d c)) (fun d => x8 (ix1 d)) (fun c d => x9 (ix2 c d)) (fun c => x10 (ix1 c)) b q c :=
  v55_eq x0 x1 x2 x3 x4 x5 x6 x7 x8 x9 x10 b q c

end Cert.RefValue

end
-- ==== Proof.lean ====
/-
  A non-local attention block against its plain reference, over the extended reals.

  Both programs normalise x (4 × 4096 × 512) per channel with batch statistics, rectify, project to queries, keys and
  values (256 channels), take a softmax over all 4096 keys of each batch, mix the values, project back to 512
  channels and add x. The kernel does it in two grid regions (a projection of 16 row blocks; an attention of 4 × 16
  query blocks) with host operations around them; the reference is one straight line of host operations.

  At exact arithmetic the two differ in three places, each an identity on finite inputs: the variance as the mean of
  squares minus the squared mean against the mean of squared deviations; two correction products t·(p − p) and
  (t − t)·p added to the scores, which vanish; and the softmax quotient taken after the weighted sum of values rather
  than before. The precondition supplies finiteness.

  The frames of the two kernel programs and the run of the reference are generated; the idealization's two rewrites
  are the identity extf ∘ truncf at exact arithmetic. The value claim composes: the kernel's run with its result
  array named, that array as the spec's second side of the arguments, the reference's result as the spec's first
  side, and the law joining the sides.
-/
import proofs.«133864_j7310034337850_2_alg».proof.Defs
import proofs.«133864_j7310034337850_2_alg».proof.Proof.Gen.Kernel
import proofs.«133864_j7310034337850_2_alg».proof.Proof.Gen.Kernel.Skeleton
import proofs.«133864_j7310034337850_2_alg».proof.Proof.Gen.Kernel.Launch
import proofs.«133864_j7310034337850_2_alg».proof.Proof.Gen.Kernel.Points
import proofs.«133864_j7310034337850_2_alg».proof.Proof.Gen.Kernel.Frame
import proofs.«133864_j7310034337850_2_alg».proof.Proof.Gen.KernelIdeal
import proofs.«133864_j7310034337850_2_alg».proof.Proof.Gen.KernelIdeal.Skeleton
import proofs.«133864_j7310034337850_2_alg».proof.Proof.Gen.KernelIdeal.Launch
import proofs.«133864_j7310034337850_2_alg».proof.Proof.Gen.KernelIdeal.Points
import proofs.«133864_j7310034337850_2_alg».proof.Proof.Gen.KernelIdeal.Frame
import proofs.«133864_j7310034337850_2_alg».proof.Proof.Gen.ReferenceIdeal
import proofs.«133864_j7310034337850_2_alg».proof.Proof.Gen.Pre_finite_inputs
import proofs.«133864_j7310034337850_2_alg».proof.Proof.Gen.ReferenceIdeal.Run
import proofs.«133864_j7310034337850_2_alg».proof.Proof.Gen.ReferenceIdeal.Read
import proofs.«133864_j7310034337850_2_alg».proof.Proof.KerRun
import proofs.«133864_j7310034337850_2_alg».proof.Proof.Bridge
import proofs.«133864_j7310034337850_2_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Narrowing the two projections to bf16 and widening back is the identity at exact arithmetic. -/
theorem preserves : Cert.preserves_Kernel_KernelIdeal :=
  ⟨IdealRules.truncf_extf.statement Cert.KernelIdeal.S1024x256 .f32 .bf16,
   IdealRules.truncf_extf.statement Cert.KernelIdeal.S1024x256 .f32 .bf16⟩

/-- From memories agreeing on the arguments both programs end with the same result array: the spec's second side of
    the arguments for the kernel, its first side for the reference, equal under the precondition. -/
theorem algebraic : Cert.algebraic_KernelIdeal_ReferenceIdeal := by
  intro m ρ m' ρ' hpre hagree
  refine ⟨fun c => fun i => Cert.NonLocal.kerOut (Cert.KernelIdeal.Hand.argX m c) (Cert.KernelIdeal.Hand.argγ m c)
    (Cert.KernelIdeal.Hand.argβ m c) (Cert.KernelIdeal.Hand.argWθ m c) (Cert.KernelIdeal.Hand.argbθ m c)
    (Cert.KernelIdeal.Hand.argWφ m c) (Cert.KernelIdeal.Hand.argbφ m c) (Cert.KernelIdeal.Hand.argWg m c)
    (Cert.KernelIdeal.Hand.argbg m c) (Cert.KernelIdeal.Hand.argWw m c) (Cert.KernelIdeal.Hand.argbw m c) (i 0) (i 1) (i 2), ?_, ?_⟩
  · refine (θ_run Cert.KernelIdeal.defs _ _).mono (fun r h c => ⟨(h c).1.trans ?_, (h c).2⟩)
      (Cert.KernelIdeal.Hand.run_value (F := Ideal) m ρ)
    funext i
    obtain ⟨b, q, cc, rfl⟩ : ∃ (b : Fin 4) (q : Fin 4096) (cc : Fin 512), i = ix3 b q cc := ⟨i 0, i 1, i 2, eq_ix3 i⟩
    exact Cert.KernelIdeal.Hand.ker_value m ρ c b q cc
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v55_eq]
    funext i
    obtain ⟨b, q, cc, rfl⟩ : ∃ (b : Fin 4) (q : Fin 4096) (cc : Fin 512), i = ix3 b q cc := ⟨i 0, i 1, i 2, eq_ix3 i⟩
    refine (Cert.RefValue.ref_eq _ _ _ _ _ _ _ _ _ _ _ b q cc).trans ?_
    obtain ⟨a0, a1, a2, a3, a4, a5, a6, a7, a8, a9, a10⟩ := hagree c
    rw [a0, a1, a2, a3, a4, a5, a6, a7, a8, a9, a10]
    exact (congrFun (congrFun (congrFun (Cert.KernelIdeal.Hand.ker_eq_ref m c (hpre c)) b) q) cc).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
